-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v388) = v0 c
          ∧ r.2.mem ((c.tc : Thread Cert.ReferenceIdeal.nD Cert.ReferenceIdeal.τ).loc Cert.ReferenceIdeal.main_v397) = v1 c
          ∧ r.2.mem ((c.tc : Thread Cert.ReferenceIdeal.nD Cert.ReferenceIdeal.τ).loc Cert.ReferenceIdeal.main_v406) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S8x16384x256 : Shape := ⟨3, ![8, 16384, 256]⟩
abbrev S1024x256 : Shape := ⟨2, ![1024, 256]⟩
abbrev S1024 : Shape := ⟨1, ![1024]⟩
abbrev S7x1024x256 : Shape := ⟨3, ![7, 1024, 256]⟩
abbrev S7x1024 : Shape := ⟨2, ![7, 1024]⟩
abbrev S256x256 : Shape := ⟨2, ![256, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8x16384x256 : S_.BroadcastsInDim S8x16384x256 (![] : Fin 0 → Fin S8x16384x256.rank)
  reducesTo_S8x16384x256_S_d0_1_2 : S8x16384x256.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S7x1024x256 : S_.BroadcastsInDim S7x1024x256 (![] : Fin 0 → Fin S7x1024x256.rank)
  reducesTo_S7x1024x256_S_d0_1_2 : S7x1024x256.ReducesTo [0, 1, 2] S_
  bcast_S_S7x1024 : S_.BroadcastsInDim S7x1024 (![] : Fin 0 → Fin S7x1024.rank)
  reducesTo_S7x1024_S_d0_1 : S7x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x256 .f32) (main_arg12 : FVec F S256 .f32) (main_v48 : IVec S_ 1) (main_v49 : FVec F S7x1024 .f32) (main_v50 : FVec F S7x1024 .f32) : IVec S_ 1 :=
  let main_v51 : IVec S7x1024 1 := cmpf .olt main_v49 main_v50
  let main_c_19 : IVec S_ 1 := constantI S_ 1 1#1
  let main_v52 : IVec S_ 1 := (fun x v => Host.reduce IntOp.andi x v reducesTo_S7x1024_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S7x1024x256 .f32) (main_arg8 : FVec F S7x1024x256 .f32) (main_arg9 : FVec F S7x1024 .f32) (main_arg10 : FVec F S7x1024 .f32) (main_arg11 : FVec F S256x256 .f32) (main_arg12 : FVec F S256 .f32) (main_v33 : IVec S_ 1) : IVec S_ 1 :=
  let main_v34 : FVec F S7x1024x256 .f32 := Host.absf main_arg7
  let main_cst_12 : FVec F S_ .f32 := constant S_ .f32 0x7F800000#32
  let main_v35 : FVec F S7x1024x256 .f32 := broadcastInDim S7x1024x256 ![] bcast_S_S7x1024x256 main_cst_12
  let main_v36 : IVec S7x1024x256 1 := cmpf .olt main_v34 main_v35
  let main_c_13 : IVec S_ 1 := constantI S_ 1 1#1
  let main_v37 : IVec S_ 1 := (fun x v => Host.reduce IntOp.andi x v reducesTo_S7x1024x256_S_d0_1_2 h_S_) main_v36 main_c_13
  let main_v38 : IVec S_ 1 := andi main_v33 main_v37
  let main_v39 : FVec F S7x1024x256 .f32 := Host.absf main_arg8
  let main_cst_14 : FVec F S_ .f32 := constant S_ .f32 0x7F800000#32
  let main_v40 : FVec F S7x1024x256 .f32 := broadcastInDim S7x1024x256 ![] bcast_S_S7x1024x256 main_cst_14
  let main_v41 : IVec S7x1024x256 1 := cmpf .olt main_v39 main_v40
  let main_c_15 : IVec S_ 1 := constantI S_ 1 1#1
  let main_v42 : IVec S_ 1 := (fun x v => Host.reduce IntOp.andi x v reducesTo_S7x1024x256_S_d0_1_2 h_S_) main_v41 main_c_15
  let main_v43 : IVec S_ 1 := andi main_v38 main_v42
  let main_v44 : FVec F S7x1024 .f32 := Host.absf main_arg9
  let main_cst_16 : FVec F S_ .f32 := constant S_ .f32 0x7F800000#32
  let main_v45 : FVec F S7x1024 .f32 := broadcastInDim S7x1024 ![] bcast_S_S7x1024 main_cst_16
  let main_v46 : IVec S7x1024 1 := cmpf .olt main_v44 main_v45
  let main_c_17 : IVec S_ 1 := constantI S_ 1 1#1
  let main_v47 : IVec S_ 1 := (fun x v => Host.reduce IntOp.andi x v reducesTo_S7x1024_S_d0_1 h_S_) main_v46 main_c_17
  let main_v48 : IVec S_ 1 := andi main_v43 main_v47
  let main_v49 : FVec F S7x1024 .f32 := Host.absf main_arg10
  let main_cst_18 : FVec F S_ .f32 := constant S_ .f32 0x7F800000#32
  let main_v50 : FVec F S7x1024 .f32 := broadcastInDim S7x1024 ![] bcast_S_S7x1024 main_cst_18
  fn_part3 (F := F) main_arg11 main_arg12 main_v48 main_v49 main_v50

def fn_part1 {F : FTy → Type} [FloatOps F] (main_arg4 : FVec F S1024x256 .f32) (main_arg5 : FVec F S1024 .f32) (main_arg6 : FVec F S1024 .f32) (main_arg7 : FVec F S7x1024x256 .f32) (main_arg8 : FVec F S7x1024x256 .f32) (main_arg9 : FVec F S7x1024 .f32) (main_arg10 : FVec F S7x1024 .f32) (main_arg11 : FVec F S256x256 .f32) (main_arg12 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x256 .f32) (main_arg1 : FVec F S8x16384x256 .f32) (main_arg2 : FVec F S8x16384x256 .f32) (main_arg3 : FVec F S1024x256 .f32) (main_arg4 : FVec F S1024x256 .f32) (main_arg5 : FVec F S1024 .f32) (main_arg6 : FVec F S1024 .f32) (main_arg7 : FVec F S7x1024x256 .f32) (main_arg8 : FVec F S7x1024x256 .f32) (main_arg9 : FVec F S7x1024 .f32) (main_arg10 : FVec F S7x1024 .f32) (main_arg11 : FVec F S256x256 .f32) (main_arg12 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8x16384x256 .f32 := Host.absf main_arg1
  let main_cst_0 : FVec F S_ .f32 := constant S_ .f32 0x7F800000#32
  let main_v5 : FVec F S8x16384x256 .f32 := broadcastInDim S8x16384x256 ![] bcast_S_S8x16384x256 main_cst_0
  let main_v6 : IVec S8x16384x256 1 := cmpf .olt main_v4 main_v5
  let main_c_1 : IVec S_ 1 := constantI S_ 1 1#1
  let main_v7 : IVec S_ 1 := (fun x v => Host.reduce IntOp.andi x v reducesTo_S8x16384x256_S_d0_1_2 h_S_) main_v6 main_c_1
  let main_v8 : IVec S_ 1 := andi main_v3 main_v7
  let main_v9 : FVec F S8x16384x256 .f32 := Host.absf main_arg2
  let main_cst_2 : FVec F S_ .f32 := constant S_ .f32 0x7F800000#32
  let main_v10 : FVec F S8x16384x256 .f32 := broadcastInDim S8x16384x256 ![] bcast_S_S8x16384x256 main_cst_2
  let main_v11 : IVec S8x16384x256 1 := cmpf .olt main_v9 main_v10
  let main_c_3 : IVec S_ 1 := constantI S_ 1 1#1
  let main_v12 : IVec S_ 1 := (fun x v => Host.reduce IntOp.andi x v reducesTo_S8x16384x256_S_d0_1_2 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_arg10 main_arg11 main_arg12 main_v13 main_v16
-- ==== Kernel.lean ====
abbrev S16384x256 : Shape := ⟨2, ![16384, 256]⟩
abbrev S8x16384x256 : Shape := ⟨3, ![8, 16384, 256]⟩
abbrev S1024x256 : Shape := ⟨2, ![1024, 256]⟩
abbrev S1024 : Shape := ⟨1, ![1024]⟩
abbrev S7x1024x256 : Shape := ⟨3, ![7, 1024, 256]⟩
abbrev S7x1024 : Shape := ⟨2, ![7, 1024]⟩
abbrev S256x256 : Shape := ⟨2, ![256, 256]⟩
abbrev S256 : Shape := ⟨1, ![256]⟩
abbrev S8x256x256 : Shape := ⟨3, ![8, 256, 256]⟩
abbrev S1x256x256 : Shape := ⟨3, ![1, 256, 256]⟩
abbrev S256x1024 : Shape := ⟨2, ![256, 1024]⟩
abbrev S1x1024 : Shape := ⟨2, ![1, 1024]⟩
abbrev S1x1024x256 : Shape := ⟨3, ![1, 1024, 256]⟩
abbrev S1x256 : Shape := ⟨2, ![1, 256]⟩

abbrev nBuf : Space → Nat
  | .hbm => 21
  | .vmem => 22
  | .smem => 0
  | _ => 0

abbrev bufTy : (tb : Table) → Fin (tcTables nBuf tb) → BufTy
  | .hbm, ⟨0, _⟩ => ⟨S16384x256, .f32⟩
  | .hbm, ⟨1, _⟩ => ⟨S8x16384x256, .f32⟩
  | .hbm, ⟨2, _⟩ => ⟨S8x16384x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S7x1024x256, .f32⟩
  | .hbm, ⟨8, _⟩ => ⟨S7x1024x256, .f32⟩
  | .hbm, ⟨9, _⟩ => ⟨S7x1024, .f32⟩
  | .hbm, ⟨10, _⟩ => ⟨S7x1024, .f32⟩
  | .hbm, ⟨11, _⟩ => ⟨S256x256, .f32⟩
  | .hbm, ⟨12, _⟩ => ⟨S256, .f32⟩
  | .hbm, ⟨13, _⟩ => ⟨S1024x256, .bf16⟩
  | .hbm, ⟨14, _⟩ => ⟨S1024x256, .bf16⟩
  | .hbm, ⟨15, _⟩ => ⟨S7x1024x256, .bf16⟩
  | .hbm, ⟨16, _⟩ => ⟨S7x1024x256, .bf16⟩
  | .hbm, ⟨17, _⟩ => ⟨S256x256, .bf16⟩
  | .hbm, ⟨18, _⟩ => ⟨S16384x256, .f32⟩
  | .hbm, ⟨19, _⟩ => ⟨S8x16384x256, .f32⟩
  | .hbm, ⟨20, _⟩ => ⟨S8x16384x256, .f32⟩
  | .local _ .vmem, ⟨0, _⟩ => ⟨S256x256, .f32⟩
  | .local _ .vmem, ⟨1, _⟩ => ⟨S256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S1024x256, .bf16⟩
  | .local _ .vmem, ⟨7, _⟩ => ⟨S1024x256, .bf16⟩
  | .local _ .vmem, ⟨8, _⟩ => ⟨S1024, .f32⟩
  | .local _ .vmem, ⟨9, _⟩ => ⟨S1024, .f32⟩
  | .local _ .vmem, ⟨10, _⟩ => ⟨S7x1024x256, .bf16⟩
  | .local _ .vmem, ⟨11, _⟩ => ⟨S7x1024x256, .bf16⟩
  | .local _ .vmem, ⟨12, _⟩ => ⟨S7x1024, .f32⟩
  | .local _ .vmem, ⟨13, _⟩ => ⟨S7x1024, .f32⟩
  | .local _ .vmem, ⟨14, _⟩ => ⟨S256x256, .bf16⟩
  | .local _ .vmem, ⟨15, _⟩ => ⟨S256, .f32⟩
  | .local _ .vmem, ⟨16, _⟩ => ⟨S256x256, .f32⟩
  | .local _ .vmem, ⟨17, _⟩ => ⟨S256x256, .f32⟩
  | .local _ .vmem, ⟨18, _⟩ => ⟨S8x256x256, .f32⟩
  | .local _ .vmem, ⟨19, _⟩ => ⟨S8x256x256, .f32⟩
  | .local _ .vmem, ⟨20, _⟩ => ⟨S8x256x256, .f32⟩
  | .local _ .vmem, ⟨21, _⟩ => ⟨S8x256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  shapeCasts_S256x256_S1x256x256 : S256x256.ShapeCasts S1x256x256
  inb_S8x256x256_S1x256x256_1_0_0 : ∀ a, (![1, 0, 0] : Fin 3 → Nat) a + S1x256x256.size a ≤ S8x256x256.size a
  inb_S7x1024x256_S1x1024x256_0_0_0 : ∀ a, (![0, 0, 0] : Fin 3 → Nat) a + S1x1024x256.size a ≤ S7x1024x256.size a
  h_S1x1024x256 : 0 < S1x1024x256.numel
  shapeCasts_S1x1024x256_S1024x256 : S1x1024x256.ShapeCasts S1024x256
  inb_S7x1024_S1x1024_0_0 : ∀ a, (![0, 0] : Fin 2 → Nat) a + S1x1024.size a ≤ S7x1024.size a
  h_S1x1024 : 0 < S1x1024.numel
  shapeCasts_S1x1024_S1024 : S1x1024.ShapeCasts S1024
  inb_S8x256x256_S1x256x256_2_0_0 : ∀ a, (![2, 0, 0] : Fin 3 → Nat) a + S1x256x256.size a ≤ S8x256x256.size a
  inb_S7x1024x256_S1x1024x256_1_0_0 : ∀ a, (![1, 0, 0] : Fin 3 → Nat) a + S1x1024x256.size a ≤ S7x1024x256.size a
  inb_S7x1024_S1x1024_1_0 : ∀ a, (![1, 0] : Fin 2 → Nat) a + S1x1024.size a ≤ S7x1024.size a
  inb_S8x256x256_S1x256x256_3_0_0 : ∀ a, (![3, 0, 0] : Fin 3 → Nat) a + S1x256x256.size a ≤ S8x256x256.size a
  inb_S7x1024x256_S1x1024x256_2_0_0 : ∀ a, (![2, 0, 0] : Fin 3 → Nat) a + S1x1024x256.size a ≤ S7x1024x256.size a
  inb_S7x1024_S1x1024_2_0 : ∀ a, (![2, 0] : Fin 2 → Nat) a + S1x1024.size a ≤ S7x1024.size a
  inb_S8x256x256_S1x256x256_4_0_0 : ∀ a, (![4, 0, 0] : Fin 3 → Nat) a + S1x256x256.size a ≤ S8x256x256.size a
  inb_S7x1024x256_S1x1024x256_3_0_0 : ∀ a, (![3, 0, 0] : Fin 3 → Nat) a + S1x1024x256.size a ≤ S7x1024x256.size a
  inb_S7x1024_S1x1024_3_0 : ∀ a, (![3, 0] : Fin 2 → Nat) a + S1x1024.size a ≤ S7x1024.size a
  inb_S8x256x256_S1x256x256_5_0_0 : ∀ a, (![5, 0, 0] : Fin 3 → Nat) a + S1x256x256.size a ≤ S8x256x256.size a
  inb_S7x1024x256_S1x1024x256_4_0_0 : ∀ a, (![4, 0, 0] : Fin 3 → Nat) a + S1x1024x256.size a ≤ S7x1024x256.size a
  inb_S7x1024_S1x1024_4_0 : ∀ a, (![4, 0] : Fin 2 → Nat) a + S1x1024.size a ≤ S7x1024.size a
  inb_S8x256x256_S1x256x256_6_0_0 : ∀ a, (![6, 0, 0] : Fin 3 → Nat) a + S1x256x256.size a ≤ S8x256x256.size a
  inb_S7x1024x256_S1x1024x256_5_0_0 : ∀ a, (![5, 0, 0] : Fin 3 → Nat) a + S1x1024x256.size a ≤ S7x1024x256.size a
  inb_S7x1024_S1x1024_5_0 : ∀ a, (![5, 0] : Fin 2 → Nat) a + S1x1024.size a ≤ S7x1024.size a
  inb_S8x256x256_S1x256x256_7_0_0 : ∀ a, (![7, 0, 0] : Fin 3 → Nat) a + S1x256x256.size a ≤ S8x256x256.size a
  inb_S7x1024x256_S1x1024x256_6_0_0 : ∀ a, (![6, 0, 0] : Fin 3 → Nat) a + S1x1024x256.size a ≤ S7x1024x256.size a
  inb_S7x1024_S1x1024_6_0 : ∀ a, (![6, 0] : Fin 2 → Nat) a + S1x1024.size a ≤ S7x1024.size a
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  dot_S256x256_S1024x256_S256x1024_1_1_0_0_n_n_wf : DotDims.WF S256x256 S1024x256 S256x1024 [1] [1] [0] [0] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x16384x256.size a
  hwx0_1 : ∀ i : grid0.Coords, EltTy.bits .f32 = 32 ∨ (Rect.block (s := S8x16384x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S8x16384x256.size a
  hwx0_2 : ∀ i : grid0.Coords, EltTy.bits .f32 = 32 ∨ (Rect.block (s := S8x16384x256) S8x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7x1024x256.size a ≤ S7x1024x256.size a
  hwx0_7 : ∀ i : grid0.Coords, EltTy.bits .bf16 = 32 ∨ (Rect.block (s := S7x1024x256) S7x1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S7x1024x256.size a ≤ S7x1024x256.size a
  hwx0_8 : ∀ i : grid0.Coords, EltTy.bits .bf16 = 32 ∨ (Rect.block (s := S7x1024x256) S7x1024x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S7x1024.size a ≤ S7x1024.size a
  hwx0_9 : ∀ i : grid0.Coords, EltTy.bits .f32 = 32 ∨ (Rect.block (s := S7x1024) S7x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S7x1024.size a ≤ S7x1024.size a
  hwx0_10 : ∀ i : grid0.Coords, EltTy.bits .f32 = 32 ∨ (Rect.block (s := S7x1024) S7x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S16384x256.size a
  hwx0_13 : ∀ i : grid0.Coords, EltTy.bits .f32 = 32 ∨ (Rect.block (s := S16384x256) S256x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x256x256.size a ≤ S8x16384x256.size a
  hwx0_14 : ∀ i : grid0.Coords, EltTy.bits .f32 = 32 ∨ (Rect.block (s := S8x16384x256) S8x256x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x256x256.size a ≤ S8x16384x256.size a
  hwx0_15 : ∀ i : grid0.Coords, EltTy.bits .f32 = 32 ∨ (Rect.block (s := S8x16384x256) S8x256x256.size (cc0_transform_15 i) (hinb0_15 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S7x1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S7x1024x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S7x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S7x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v4) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S256x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S8x256x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_2) S8x256x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x256 : Shape := ⟨2, ![16384, 256]⟩
abbrev S8x16384x256 : Shape := ⟨3, ![8, 16384, 256]⟩
abbrev S1024x256 : Shape := ⟨2, ![1024, 256]⟩
abbrev S1024 : Shape := ⟨1, ![1024]⟩
abbrev S7x1024x256 : Shape := ⟨3, ![7, 1024, 256]⟩
abbrev S7x1024 : Shape := ⟨2, ![7, 1024]⟩
abbrev S256x256 : Shape := ⟨2, ![256, 256]⟩
abbrev S256 : Shape := ⟨1, ![256]⟩
abbrev S1x16384x256 : Shape := ⟨3, ![1, 16384, 256]⟩
abbrev S256x1024 : Shape := ⟨2, ![256, 1024]⟩
abbrev S16384x1024 : Shape := ⟨2, ![16384, 1024]⟩
abbrev S1x1024 : Shape := ⟨2, ![1, 1024]⟩
abbrev S_ : Shape := ⟨0, ![]⟩
abbrev S1x1024x256 : Shape := ⟨3, ![1, 1024, 256]⟩
abbrev S1x256 : Shape := ⟨2, ![1, 256]⟩

abbrev nBuf : Space → Nat
  | .hbm => 468
  | .vmem => 0
  | .smem => 0
  | _ => 0

abbrev hbmTy0_0 (i : Nat) : BufTy := match i % 128 with
  | 0 => ⟨S16384x256, .f32⟩
  | 1 => ⟨S8x16384x256, .f32⟩
  | 2 => ⟨S8x16384x256, .f32⟩
  | 3 => ⟨S1024x256, .f32⟩
  | 4 => ⟨S1024x256, .f32⟩
  | 5 => ⟨S1024, .f32⟩
  | 6 => ⟨S1024, .f32⟩
  | 7 => ⟨S7x1024x256, .f32⟩
  | 8 => ⟨S7x1024x256, .f32⟩
  | 9 => ⟨S7x1024, .f32⟩
  | 10 => ⟨S7x1024, .f32⟩
  | 11 => ⟨S256x256, .f32⟩
  | 12 => ⟨S256, .f32⟩
  | 13 => ⟨S1x16384x256, .f32⟩
  | 14 => ⟨S16384x256, .f32⟩
  | 15 => ⟨S1x16384x256, .f32⟩
  | 16 => ⟨S16384x256, .f32⟩
  | 17 => ⟨S256x1024, .f32⟩
  | 18 => ⟨S16384x1024, .f32⟩
  | 19 => ⟨S256x1024, .f32⟩
  | 20 => ⟨S16384x1024, .f32⟩
  | 21 => ⟨S16384x1024, .f32⟩
  | 22 => ⟨S1024, .f32⟩
  | 23 => ⟨S1x1024, .f32⟩
  | 24 => ⟨S16384x1024, .f32⟩
  | 25 => ⟨S16384x1024, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S_, .f32⟩
  | 33 => ⟨S16384x256, .f32⟩
  | 34 => ⟨S16384x256, .f32⟩
  | 35 => ⟨S_, .f32⟩
  | 36 => ⟨S16384x256, .f32⟩
  | 37 => ⟨S16384x256, .f32⟩
  | 38 => ⟨S16384x256, .f32⟩
  | 39 => ⟨S16384x256, .f32⟩
  | 40 => ⟨S16384x256, .f32⟩
  | 41 => ⟨S_, .f32⟩
  | 42 => ⟨S16384x256, .f32⟩
  | 43 => ⟨S16384x256, .f32⟩
  | 44 => ⟨S_, .f32⟩
  | 45 => ⟨S16384x256, .f32⟩
  | 46 => ⟨S16384x256, .f32⟩
  | 47 => ⟨S16384x256, .f32⟩
  | 48 => ⟨S16384x256, .f32⟩
  | 49 => ⟨S16384x256, .f32⟩
  | 50 => ⟨S16384x256, .f32⟩
  | 51 => ⟨S16384x256, .f32⟩
  | 52 => ⟨S_, .f32⟩
  | 53 => ⟨S16384x256, .f32⟩
  | 54 => ⟨S16384x256, .f32⟩
  | 55 => ⟨S_, .f32⟩
  | 56 => ⟨S16384x256, .f32⟩
  | 57 => ⟨S16384x256, .f32⟩
  | 58 => ⟨S16384x256, .f32⟩
  | 59 => ⟨S16384x256, .f32⟩
  | 60 => ⟨S1x16384x256, .f32⟩
  | 61 => ⟨S16384x256, .f32⟩
  | 62 => ⟨S1x16384x256, .f32⟩
  | 63 => ⟨S16384x256, .f32⟩
  | 64 => ⟨S1x1024x256, .f32⟩
  | 65 => ⟨S1024x256, .f32⟩
  | 66 => ⟨S1x1024x256, .f32⟩
  | 67 => ⟨S1024x256, .f32⟩
  | 68 => ⟨S1x1024, .f32⟩
  | 69 => ⟨S1024, .f32⟩
  | 70 => ⟨S1x1024, .f32⟩
  | 71 => ⟨S1024, .f32⟩
  | 72 => ⟨S256x1024, .f32⟩
  | 73 => ⟨S16384x1024, .f32⟩
  | 74 => ⟨S256x1024, .f32⟩
  | 75 => ⟨S16384x1024, .f32⟩
  | 76 => ⟨S16384x1024, .f32⟩
  | 77 => ⟨S1024, .f32⟩
  | 78 => ⟨S1x1024, .f32⟩
  | 79 => ⟨S16384x1024, .f32⟩
  | 80 => ⟨S16384x1024, .f32⟩
  | 81 => ⟨S16384x256, .f32⟩
  | 82 => ⟨S16384x256, .f32⟩
  | 83 => ⟨S16384x256, .f32⟩
  | 84 => ⟨S16384x256, .f32⟩
  | 85 => ⟨S16384x256, .f32⟩
  | 86 => ⟨S16384x256, .f32⟩
  | 87 => ⟨S_, .f32⟩
  | 88 => ⟨S16384x256, .f32⟩
  | 89 => ⟨S16384x256, .f32⟩
  | 90 => ⟨S_, .f32⟩
  | 91 => ⟨S16384x256, .f32⟩
  | 92 => ⟨S16384x256, .f32⟩
  | 93 => ⟨S16384x256, .f32⟩
  | 94 => ⟨S16384x256, .f32⟩
  | 95 => ⟨S16384x256, .f32⟩
  | 96 => ⟨S_, .f32⟩
  | 97 => ⟨S16384x256, .f32⟩
  | 98 => ⟨S16384x256, .f32⟩
  | 99 => ⟨S_, .f32⟩
  | 100 => ⟨S16384x256, .f32⟩
  | 101 => ⟨S16384x256, .f32⟩
  | 102 => ⟨S16384x256, .f32⟩
  | 103 => ⟨S16384x256, .f32⟩
  | 104 => ⟨S16384x256, .f32⟩
  | 105 => ⟨S16384x256, .f32⟩
  | 106 => ⟨S16384x256, .f32⟩
  | 107 => ⟨S_, .f32⟩
  | 108 => ⟨S16384x256, .f32⟩
  | 109 => ⟨S16384x256, .f32⟩
  | 110 => ⟨S_, .f32⟩
  | 111 => ⟨S16384x256, .f32⟩
  | 112 => ⟨S16384x256, .f32⟩
  | 113 => ⟨S16384x256, .f32⟩
  | 114 => ⟨S16384x256, .f32⟩
  | 115 => ⟨S1x16384x256, .f32⟩
  | 116 => ⟨S16384x256, .f32⟩
  | 117 => ⟨S1x16384x256, .f32⟩
  | 118 => ⟨S16384x256, .f32⟩
  | 119 => ⟨S1x1024x256, .f32⟩
  | 120 => ⟨S1024x256, .f32⟩
  | 121 => ⟨S1x1024x256, .f32⟩
  | 122 => ⟨S1024x256, .f32⟩
  | 123 => ⟨S1x1024, .f32⟩
  | 124 => ⟨S1024, .f32⟩
  | 125 => ⟨S1x1024, .f32⟩
  | 126 => ⟨S1024, .f32⟩
  | 127 => ⟨S256x1024, .f32⟩
  | _ => ⟨S16384x256, .f32⟩

abbrev hbmTy0_1 (i : Nat) : BufTy := match i % 128 with
  | 0 => ⟨S16384x1024, .f32⟩
  | 1 => ⟨S256x1024, .f32⟩
  | 2 => ⟨S16384x1024, .f32⟩
  | 3 => ⟨S16384x1024, .f32⟩
  | 4 => ⟨S1024, .f32⟩
  | 5 => ⟨S1x1024, .f32⟩
  | 6 => ⟨S16384x1024, .f32⟩
  | 7 => ⟨S16384x1024, .f32⟩
  | 8 => ⟨S16384x256, .f32⟩
  | 9 => ⟨S16384x256, .f32⟩
  | 10 => ⟨S16384x256, .f32⟩
  | 11 => ⟨S16384x256, .f32⟩
  | 12 => ⟨S16384x256, .f32⟩
  | 13 => ⟨S16384x256, .f32⟩
  | 14 => ⟨S_, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S16384x256, .f32⟩
  | 21 => ⟨S16384x256, .f32⟩
  | 22 => ⟨S16384x256, .f32⟩
  | 23 => ⟨S_, .f32⟩
  | 24 => ⟨S16384x256, .f32⟩
  | 25 => ⟨S16384x256, .f32⟩
  | 26 => ⟨S_, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S_, .f32⟩
  | 35 => ⟨S16384x256, .f32⟩
  | 36 => ⟨S16384x256, .f32⟩
  | 37 => ⟨S_, .f32⟩
  | 38 => ⟨S16384x256, .f32⟩
  | 39 => ⟨S16384x256, .f32⟩
  | 40 => ⟨S16384x256, .f32⟩
  | 41 => ⟨S16384x256, .f32⟩
  | 42 => ⟨S1x16384x256, .f32⟩
  | 43 => ⟨S16384x256, .f32⟩
  | 44 => ⟨S1x16384x256, .f32⟩
  | 45 => ⟨S16384x256, .f32⟩
  | 46 => ⟨S1x1024x256, .f32⟩
  | 47 => ⟨S1024x256, .f32⟩
  | 48 => ⟨S1x1024x256, .f32⟩
  | 49 => ⟨S1024x256, .f32⟩
  | 50 => ⟨S1x1024, .f32⟩
  | 51 => ⟨S1024, .f32⟩
  | 52 => ⟨S1x1024, .f32⟩
  | 53 => ⟨S1024, .f32⟩
  | 54 => ⟨S256x1024, .f32⟩
  | 55 => ⟨S16384x1024, .f32⟩
  | 56 => ⟨S256x1024, .f32⟩
  | 57 => ⟨S16384x1024, .f32⟩
  | 58 => ⟨S16384x1024, .f32⟩
  | 59 => ⟨S1024, .f32⟩
  | 60 => ⟨S1x1024, .f32⟩
  | 61 => ⟨S16384x1024, .f32⟩
  | 62 => ⟨S16384x1024, .f32⟩
  | 63 => ⟨S16384x256, .f32⟩
  | 64 => ⟨S16384x256, .f32⟩
  | 65 => ⟨S16384x256, .f32⟩
  | 66 => ⟨S16384x256, .f32⟩
  | 67 => ⟨S16384x256, .f32⟩
  | 68 => ⟨S16384x256, .f32⟩
  | 69 => ⟨S_, .f32⟩
  | 70 => ⟨S16384x256, .f32⟩
  | 71 => ⟨S16384x256, .f32⟩
  | 72 => ⟨S_, .f32⟩
  | 73 => ⟨S16384x256, .f32⟩
  | 74 => ⟨S16384x256, .f32⟩
  | 75 => ⟨S16384x256, .f32⟩
  | 76 => ⟨S16384x256, .f32⟩
  | 77 => ⟨S16384x256, .f32⟩
  | 78 => ⟨S_, .f32⟩
  | 79 => ⟨S16384x256, .f32⟩
  | 80 => ⟨S16384x256, .f32⟩
  | 81 => ⟨S_, .f32⟩
  | 82 => ⟨S16384x256, .f32⟩
  | 83 => ⟨S16384x256, .f32⟩
  | 84 => ⟨S16384x256, .f32⟩
  | 85 => ⟨S16384x256, .f32⟩
  | 86 => ⟨S16384x256, .f32⟩
  | 87 => ⟨S16384x256, .f32⟩
  | 88 => ⟨S16384x256, .f32⟩
  | 89 => ⟨S_, .f32⟩
  | 90 => ⟨S16384x256, .f32⟩
  | 91 => ⟨S16384x256, .f32⟩
  | 92 => ⟨S_, .f32⟩
  | 93 => ⟨S16384x256, .f32⟩
  | 94 => ⟨S16384x256, .f32⟩
  | 95 => ⟨S16384x256, .f32⟩
  | 96 => ⟨S16384x256, .f32⟩
  | 97 => ⟨S1x16384x256, .f32⟩
  | 98 => ⟨S16384x256, .f32⟩
  | 99 => ⟨S1x16384x256, .f32⟩
  | 100 => ⟨S16384x256, .f32⟩
  | 101 => ⟨S1x1024x256, .f32⟩
  | 102 => ⟨S1024x256, .f32⟩
  | 103 => ⟨S1x1024x256, .f32⟩
  | 104 => ⟨S1024x256, .f32⟩
  | 105 => ⟨S1x1024, .f32⟩
  | 106 => ⟨S1024, .f32⟩
  | 107 => ⟨S1x1024, .f32⟩
  | 108 => ⟨S1024, .f32⟩
  | 109 => ⟨S256x1024, .f32⟩
  | 110 => ⟨S16384x1024, .f32⟩
  | 111 => ⟨S256x1024, .f32⟩
  | 112 => ⟨S16384x1024, .f32⟩
  | 113 => ⟨S16384x1024, .f32⟩
  | 114 => ⟨S1024, .f32⟩
  | 115 => ⟨S1x1024, .f32⟩
  | 116 => ⟨S16384x1024, .f32⟩
  | 117 => ⟨S16384x1024, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x256, .f32⟩
  | 124 => ⟨S_, .f32⟩
  | 125 => ⟨S16384x256, .f32⟩
  | 126 => ⟨S16384x256, .f32⟩
  | 127 => ⟨S_, .f32⟩
  | _ => ⟨S16384x256, .f32⟩

abbrev hbmTy0_2 (i : Nat) : BufTy := match i % 128 with
  | 0 => ⟨S16384x256, .f32⟩
  | 1 => ⟨S16384x256, .f32⟩
  | 2 => ⟨S16384x256, .f32⟩
  | 3 => ⟨S16384x256, .f32⟩
  | 4 => ⟨S16384x256, .f32⟩
  | 5 => ⟨S_, .f32⟩
  | 6 => ⟨S16384x256, .f32⟩
  | 7 => ⟨S16384x256, .f32⟩
  | 8 => ⟨S_, .f32⟩
  | 9 => ⟨S16384x256, .f32⟩
  | 10 => ⟨S16384x256, .f32⟩
  | 11 => ⟨S16384x256, .f32⟩
  | 12 => ⟨S16384x256, .f32⟩
  | 13 => ⟨S16384x256, .f32⟩
  | 14 => ⟨S16384x256, .f32⟩
  | 15 => ⟨S16384x256, .f32⟩
  | 16 => ⟨S_, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S16384x256, .f32⟩
  | 23 => ⟨S16384x256, .f32⟩
  | 24 => ⟨S1x16384x256, .f32⟩
  | 25 => ⟨S16384x256, .f32⟩
  | 26 => ⟨S1x16384x256, .f32⟩
  | 27 => ⟨S16384x256, .f32⟩
  | 28 => ⟨S1x1024x256, .f32⟩
  | 29 => ⟨S1024x256, .f32⟩
  | 30 => ⟨S1x1024x256, .f32⟩
  | 31 => ⟨S1024x256, .f32⟩
  | 32 => ⟨S1x1024, .f32⟩
  | 33 => ⟨S1024, .f32⟩
  | 34 => ⟨S1x1024, .f32⟩
  | 35 => ⟨S1024, .f32⟩
  | 36 => ⟨S256x1024, .f32⟩
  | 37 => ⟨S16384x1024, .f32⟩
  | 38 => ⟨S256x1024, .f32⟩
  | 39 => ⟨S16384x1024, .f32⟩
  | 40 => ⟨S16384x1024, .f32⟩
  | 41 => ⟨S1024, .f32⟩
  | 42 => ⟨S1x1024, .f32⟩
  | 43 => ⟨S16384x1024, .f32⟩
  | 44 => ⟨S16384x1024, .f32⟩
  | 45 => ⟨S16384x256, .f32⟩
  | 46 => ⟨S16384x256, .f32⟩
  | 47 => ⟨S16384x256, .f32⟩
  | 48 => ⟨S16384x256, .f32⟩
  | 49 => ⟨S16384x256, .f32⟩
  | 50 => ⟨S16384x256, .f32⟩
  | 51 => ⟨S_, .f32⟩
  | 52 => ⟨S16384x256, .f32⟩
  | 53 => ⟨S16384x256, .f32⟩
  | 54 => ⟨S_, .f32⟩
  | 55 => ⟨S16384x256, .f32⟩
  | 56 => ⟨S16384x256, .f32⟩
  | 57 => ⟨S16384x256, .f32⟩
  | 58 => ⟨S16384x256, .f32⟩
  | 59 => ⟨S16384x256, .f32⟩
  | 60 => ⟨S_, .f32⟩
  | 61 => ⟨S16384x256, .f32⟩
  | 62 => ⟨S16384x256, .f32⟩
  | 63 => ⟨S_, .f32⟩
  | 64 => ⟨S16384x256, .f32⟩
  | 65 => ⟨S16384x256, .f32⟩
  | 66 => ⟨S16384x256, .f32⟩
  | 67 => ⟨S16384x256, .f32⟩
  | 68 => ⟨S16384x256, .f32⟩
  | 69 => ⟨S16384x256, .f32⟩
  | 70 => ⟨S16384x256, .f32⟩
  | 71 => ⟨S_, .f32⟩
  | 72 => ⟨S16384x256, .f32⟩
  | 73 => ⟨S16384x256, .f32⟩
  | 74 => ⟨S_, .f32⟩
  | 75 => ⟨S16384x256, .f32⟩
  | 76 => ⟨S16384x256, .f32⟩
  | 77 => ⟨S16384x256, .f32⟩
  | 78 => ⟨S16384x256, .f32⟩
  | 79 => ⟨S1x16384x256, .f32⟩
  | 80 => ⟨S16384x256, .f32⟩
  | 81 => ⟨S1x16384x256, .f32⟩
  | 82 => ⟨S16384x256, .f32⟩
  | 83 => ⟨S1x1024x256, .f32⟩
  | 84 => ⟨S1024x256, .f32⟩
  | 85 => ⟨S1x1024x256, .f32⟩
  | 86 => ⟨S1024x256, .f32⟩
  | 87 => ⟨S1x1024, .f32⟩
  | 88 => ⟨S1024, .f32⟩
  | 89 => ⟨S1x1024, .f32⟩
  | 90 => ⟨S1024, .f32⟩
  | 91 => ⟨S256x1024, .f32⟩
  | 92 => ⟨S16384x1024, .f32⟩
  | 93 => ⟨S256x1024, .f32⟩
  | 94 => ⟨S16384x1024, .f32⟩
  | 95 => ⟨S16384x1024, .f32⟩
  | 96 => ⟨S1024, .f32⟩
  | 97 => ⟨S1x1024, .f32⟩
  | 98 => ⟨S16384x1024, .f32⟩
  | 99 => ⟨S16384x1024, .f32⟩
  | 100 => ⟨S16384x256, .f32⟩
  | 101 => ⟨S16384x256, .f32⟩
  | 102 => ⟨S16384x256, .f32⟩
  | 103 => ⟨S16384x256, .f32⟩
  | 104 => ⟨S16384x256, .f32⟩
  | 105 => ⟨S16384x256, .f32⟩
  | 106 => ⟨S_, .f32⟩
  | 107 => ⟨S16384x256, .f32⟩
  | 108 => ⟨S16384x256, .f32⟩
  | 109 => ⟨S_, .f32⟩
  | 110 => ⟨S16384x256, .f32⟩
  | 111 => ⟨S16384x256, .f32⟩
  | 112 => ⟨S16384x256, .f32⟩
  | 113 => ⟨S16384x256, .f32⟩
  | 114 => ⟨S16384x256, .f32⟩
  | 115 => ⟨S_, .f32⟩
  | 116 => ⟨S16384x256, .f32⟩
  | 117 => ⟨S16384x256, .f32⟩
  | 118 => ⟨S_, .f32⟩
  | 119 => ⟨S16384x256, .f32⟩
  | 120 => ⟨S16384x256, .f32⟩
  | 121 => ⟨S16384x256, .f32⟩
  | 122 => ⟨S16384x256, .f32⟩
  | 123 => ⟨S16384x256, .f32⟩
  | 124 => ⟨S16384x256, .f32⟩
  | 125 => ⟨S16384x256, .f32⟩
  | 126 => ⟨S_, .f32⟩
  | 127 => ⟨S16384x256, .f32⟩
  | _ => ⟨S16384x256, .f32⟩

abbrev hbmTy0_3 (i : Nat) : BufTy := match i % 128 with
  | 0 => ⟨S16384x256, .f32⟩
  | 1 => ⟨S_, .f32⟩
  | 2 => ⟨S16384x256, .f32⟩
  | 3 => ⟨S16384x256, .f32⟩
  | 4 => ⟨S16384x256, .f32⟩
  | 5 => ⟨S16384x256, .f32⟩
  | 6 => ⟨S1x16384x256, .f32⟩
  | 7 => ⟨S16384x256, .f32⟩
  | 8 => ⟨S1x16384x256, .f32⟩
  | 9 => ⟨S16384x256, .f32⟩
  | 10 => ⟨S1x1024x256, .f32⟩
  | 11 => ⟨S1024x256, .f32⟩
  | 12 => ⟨S1x1024x256, .f32⟩
  | 13 => ⟨S1024x256, .f32⟩
  | 14 => ⟨S1x1024, .f32⟩
  | 15 => ⟨S1024, .f32⟩
  | 16 => ⟨S1x1024, .f32⟩
  | 17 => ⟨S1024, .f32⟩
  | 18 => ⟨S256x1024, .f32⟩
  | 19 => ⟨S16384x1024, .f32⟩
  | 20 => ⟨S256x1024, .f32⟩
  | 21 => ⟨S16384x1024, .f32⟩
  | 22 => ⟨S16384x1024, .f32⟩
  | 23 => ⟨S1024, .f32⟩
  | 24 => ⟨S1x1024, .f32⟩
  | 25 => ⟨S16384x1024, .f32⟩
  | 26 => ⟨S16384x1024, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | 33 => ⟨S_, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S_, .f32⟩
  | 43 => ⟨S16384x256, .f32⟩
  | 44 => ⟨S16384x256, .f32⟩
  | 45 => ⟨S_, .f32⟩
  | 46 => ⟨S16384x256, .f32⟩
  | 47 => ⟨S16384x256, .f32⟩
  | 48 => ⟨S16384x256, .f32⟩
  | 49 => ⟨S16384x256, .f32⟩
  | 50 => ⟨S16384x256, .f32⟩
  | 51 => ⟨S16384x256, .f32⟩
  | 52 => ⟨S16384x256, .f32⟩
  | 53 => ⟨S_, .f32⟩
  | 54 => ⟨S16384x256, .f32⟩
  | 55 => ⟨S16384x256, .f32⟩
  | 56 => ⟨S_, .f32⟩
  | 57 => ⟨S16384x256, .f32⟩
  | 58 => ⟨S16384x256, .f32⟩
  | 59 => ⟨S16384x256, .f32⟩
  | 60 => ⟨S16384x256, .f32⟩
  | 61 => ⟨S256x256, .f32⟩
  | 62 => ⟨S16384x256, .f32⟩
  | 63 => ⟨S1x256, .f32⟩
  | 64 => ⟨S16384x256, .f32⟩
  | 65 => ⟨S16384x256, .f32⟩
  | 66 => ⟨S1x16384x256, .f32⟩
  | 67 => ⟨S1x16384x256, .f32⟩
  | 68 => ⟨S1x16384x256, .f32⟩
  | 69 => ⟨S1x16384x256, .f32⟩
  | 70 => ⟨S1x16384x256, .f32⟩
  | 71 => ⟨S1x16384x256, .f32⟩
  | 72 => ⟨S1x16384x256, .f32⟩
  | 73 => ⟨S1x16384x256, .f32⟩
  | 74 => ⟨S8x16384x256, .f32⟩
  | 75 => ⟨S1x16384x256, .f32⟩
  | 76 => ⟨S1x16384x256, .f32⟩
  | 77 => ⟨S1x16384x256, .f32⟩
  | 78 => ⟨S1x16384x256, .f32⟩
  | 79 => ⟨S1x16384x256, .f32⟩
  | 80 => ⟨S1x16384x256, .f32⟩
  | 81 => ⟨S1x16384x256, .f32⟩
  | 82 => ⟨S1x16384x256, .f32⟩
  | 83 => ⟨S8x16384x256, .f32⟩
  | _ => ⟨S16384x256, .f32⟩

abbrev hbmTy (i : Nat) : BufTy := match i / 128 with
  | 0 => hbmTy0_0 i
  | 1 => hbmTy0_1 i
  | 2 => hbmTy0_2 i
  | 3 => hbmTy0_3 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_5 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_7 : Ref sig .tc := ⟨.hbm, 96, rfl⟩
abbrev main_v75 : Ref sig .tc := ⟨.hbm, 97, rfl⟩
abbrev main_v76 : Ref sig .tc := ⟨.hbm, 98, rfl⟩
abbrev main_cst_8 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_9 : Ref sig .tc := ⟨.hbm, 107, rfl⟩
abbrev main_v84 : Ref sig .tc := ⟨.hbm, 108, rfl⟩
abbrev main_v85 : Ref sig .tc := ⟨.hbm, 109, rfl⟩
abbrev main_cst_10 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_11 : Ref sig .tc := ⟨.hbm, 142, rfl⟩
abbrev main_v117 : Ref sig .tc := ⟨.hbm, 143, rfl⟩
abbrev main_v118 : Ref sig .tc := ⟨.hbm, 144, rfl⟩
abbrev main_cst_12 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_13 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_15 : Ref sig .tc := ⟨.hbm, 162, rfl⟩
abbrev main_v133 : Ref sig .tc := ⟨.hbm, 163, rfl⟩
abbrev main_v134 : Ref sig .tc := ⟨.hbm, 164, rfl⟩
abbrev main_cst_16 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_17 : Ref sig .tc := ⟨.hbm, 197, rfl⟩
abbrev main_v166 : Ref sig .tc := ⟨.hbm, 198, rfl⟩
abbrev main_v167 : Ref sig .tc := ⟨.hbm, 199, rfl⟩
abbrev main_cst_18 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_cst_19 : Ref sig .tc := ⟨.hbm, 206, rfl⟩
abbrev main_v173 : Ref sig .tc := ⟨.hbm, 207, rfl⟩
abbrev main_v174 : Ref sig .tc := ⟨.hbm, 208, rfl⟩
abbrev main_cst_20 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_cst_21 : Ref sig .tc := ⟨.hbm, 217, rfl⟩
abbrev main_v182 : Ref sig .tc := ⟨.hbm, 218, rfl⟩
abbrev main_v183 : Ref sig .tc := ⟨.hbm, 219, rfl⟩
abbrev main_cst_22 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_cst_23 : Ref sig .tc := ⟨.hbm, 252, rfl⟩
abbrev main_v215 : Ref sig .tc := ⟨.hbm, 253, rfl⟩
abbrev main_v216 : Ref sig .tc := ⟨.hbm, 254, rfl⟩
abbrev main_cst_24 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_cst_25 : Ref sig .tc := ⟨.hbm, 261, rfl⟩
abbrev main_v222 : Ref sig .tc := ⟨.hbm, 262, rfl⟩
abbrev main_v223 : Ref sig .tc := ⟨.hbm, 263, rfl⟩
abbrev main_cst_26 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_cst_27 : Ref sig .tc := ⟨.hbm, 272, rfl⟩
abbrev main_v231 : Ref sig .tc := ⟨.hbm, 273, rfl⟩
abbrev main_v232 : Ref sig .tc := ⟨.hbm, 274, rfl⟩
abbrev main_cst_28 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_cst_29 : Ref sig .tc := ⟨.hbm, 307, rfl⟩
abbrev main_v264 : Ref sig .tc := ⟨.hbm, 308, rfl⟩
abbrev main_v265 : Ref sig .tc := ⟨.hbm, 309, rfl⟩
abbrev main_cst_30 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_cst_31 : Ref sig .tc := ⟨.hbm, 316, rfl⟩
abbrev main_v271 : Ref sig .tc := ⟨.hbm, 317, rfl⟩
abbrev main_v272 : Ref sig .tc := ⟨.hbm, 318, rfl⟩
abbrev main_cst_32 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_cst_33 : Ref sig .tc := ⟨.hbm, 327, rfl⟩
abbrev main_v280 : Ref sig .tc := ⟨.hbm, 328, rfl⟩
abbrev main_v281 : Ref sig .tc := ⟨.hbm, 329, rfl⟩
abbrev main_cst_34 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_cst_35 : Ref sig .tc := ⟨.hbm, 362, rfl⟩
abbrev main_v313 : Ref sig .tc := ⟨.hbm, 363, rfl⟩
abbrev main_v314 : Ref sig .tc := ⟨.hbm, 364, rfl⟩
abbrev main_cst_36 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_cst_37 : Ref sig .tc := ⟨.hbm, 371, rfl⟩
abbrev main_v320 : Ref sig .tc := ⟨.hbm, 372, rfl⟩
abbrev main_v321 : Ref sig .tc := ⟨.hbm, 373, rfl⟩
abbrev main_cst_38 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_cst_39 : Ref sig .tc := ⟨.hbm, 382, rfl⟩
abbrev main_v329 : Ref sig .tc := ⟨.hbm, 383, rfl⟩
abbrev main_v330 : Ref sig .tc := ⟨.hbm, 384, rfl⟩
abbrev main_cst_40 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_cst_41 : Ref sig .tc := ⟨.hbm, 417, rfl⟩
abbrev main_v362 : Ref sig .tc := ⟨.hbm, 418, rfl⟩
abbrev main_v363 : Ref sig .tc := ⟨.hbm, 419, rfl⟩
abbrev main_cst_42 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_cst_43 : Ref sig .tc := ⟨.hbm, 426, rfl⟩
abbrev main_v369 : Ref sig .tc := ⟨.hbm, 427, rfl⟩
abbrev main_v370 : Ref sig .tc := ⟨.hbm, 428, rfl⟩
abbrev main_cst_44 : Ref sig .tc := ⟨.hbm, 429, rfl⟩
abbrev main_v371 : Ref sig .tc := ⟨.hbm, 430, rfl⟩
abbrev main_v372 : Ref sig .tc := ⟨.hbm, 431, rfl⟩
abbrev main_v373 : Ref sig .tc := ⟨.hbm, 432, rfl⟩
abbrev main_v374 : Ref sig .tc := ⟨.hbm, 433, rfl⟩
abbrev main_v375 : Ref sig .tc := ⟨.hbm, 434, rfl⟩
abbrev main_v376 : Ref sig .tc := ⟨.hbm, 435, rfl⟩
abbrev main_v377 : Ref sig .tc := ⟨.hbm, 436, rfl⟩
abbrev main_cst_45 : Ref sig .tc := ⟨.hbm, 437, rfl⟩
abbrev main_v378 : Ref sig .tc := ⟨.hbm, 438, rfl⟩
abbrev main_v379 : Ref sig .tc := ⟨.hbm, 439, rfl⟩
abbrev main_cst_46 : Ref sig .tc := ⟨.hbm, 440, rfl⟩
abbrev main_v380 : Ref sig .tc := ⟨.hbm, 441, rfl⟩
abbrev main_v381 : Ref sig .tc := ⟨.hbm, 442, rfl⟩
abbrev main_v382 : Ref sig .tc := ⟨.hbm, 443, rfl⟩
abbrev main_v383 : Ref sig .tc := ⟨.hbm, 444, rfl⟩
abbrev main_v384 : Ref sig .tc := ⟨.hbm, 445, rfl⟩
abbrev main_v385 : Ref sig .tc := ⟨.hbm, 446, rfl⟩
abbrev main_v386 : Ref sig .tc := ⟨.hbm, 447, rfl⟩
abbrev main_v387 : Ref sig .tc := ⟨.hbm, 448, rfl⟩
abbrev main_v388 : Ref sig .tc := ⟨.hbm, 449, rfl⟩
abbrev main_v389 : Ref sig .tc := ⟨.hbm, 450, rfl⟩
abbrev main_v390 : Ref sig .tc := ⟨.hbm, 451, rfl⟩
abbrev main_v391 : Ref sig .tc := ⟨.hbm, 452, rfl⟩
abbrev main_v392 : Ref sig .tc := ⟨.hbm, 453, rfl⟩
abbrev main_v393 : Ref sig .tc := ⟨.hbm, 454, rfl⟩
abbrev main_v394 : Ref sig .tc := ⟨.hbm, 455, rfl⟩
abbrev main_v395 : Ref sig .tc := ⟨.hbm, 456, rfl⟩
abbrev main_v396 : Ref sig .tc := ⟨.hbm, 457, rfl⟩
abbrev main_v397 : Ref sig .tc := ⟨.hbm, 458, rfl⟩
abbrev main_v398 : Ref sig .tc := ⟨.hbm, 459, rfl⟩
abbrev main_v399 : Ref sig .tc := ⟨.hbm, 460, rfl⟩
abbrev main_v400 : Ref sig .tc := ⟨.hbm, 461, rfl⟩
abbrev main_v401 : Ref sig .tc := ⟨.hbm, 462, rfl⟩
abbrev main_v402 : Ref sig .tc := ⟨.hbm, 463, rfl⟩
abbrev main_v403 : Ref sig .tc := ⟨.hbm, 464, rfl⟩
abbrev main_v404 : Ref sig .tc := ⟨.hbm, 465, rfl⟩
abbrev main_v405 : Ref sig .tc := ⟨.hbm, 466, rfl⟩
abbrev main_v406 : Ref sig .tc := ⟨.hbm, 467, rfl⟩

abbrev nD : Nat := 1
abbrev τ : Topo := Topo.v7x

variable {F : FTy → Type} [FloatOps F]

class Facts₀ : Prop where
  slices_S8x16384x256_S1x16384x256_0_0_0 : S8x16384x256.Slices ![0, 0, 0] S1x16384x256
  shapeCasts_S1x16384x256_S16384x256 : S1x16384x256.ShapeCasts S16384x256
  transposes_S1024x256_S256x1024_1_0 : S1024x256.Transposes [1, 0] S256x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  bcast_S_S16384x256 : S_.BroadcastsInDim S16384x256 (![] : Fin 0 → Fin S16384x256.rank)
  slices_S8x16384x256_S1x16384x256_1_0_0 : S8x16384x256.Slices ![1, 0, 0] S1x16384x256
  slices_S7x1024x256_S1x1024x256_0_0_0 : S7x1024x256.Slices ![0, 0, 0] S1x1024x256
  shapeCasts_S1x1024x256_S1024x256 : S1x1024x256.ShapeCasts S1024x256
  slices_S7x1024_S1x1024_0_0 : S7x1024.Slices ![0, 0] S1x1024
  shapeCasts_S1x1024_S1024 : S1x1024.ShapeCasts S1024
  slices_S8x16384x256_S1x16384x256_2_0_0 : S8x16384x256.Slices ![2, 0, 0] S1x16384x256
  slices_S7x1024x256_S1x1024x256_1_0_0 : S7x1024x256.Slices ![1, 0, 0] S1x1024x256
  slices_S7x1024_S1x1024_1_0 : S7x1024.Slices ![1, 0] S1x1024
  slices_S8x16384x256_S1x16384x256_3_0_0 : S8x16384x256.Slices ![3, 0, 0] S1x16384x256
  slices_S7x1024x256_S1x1024x256_2_0_0 : S7x1024x256.Slices ![2, 0, 0] S1x1024x256
  slices_S7x1024_S1x1024_2_0 : S7x1024.Slices ![2, 0] S1x1024
  slices_S8x16384x256_S1x16384x256_4_0_0 : S8x16384x256.Slices ![4, 0, 0] S1x16384x256
  slices_S7x1024x256_S1x1024x256_3_0_0 : S7x1024x256.Slices ![3, 0, 0] S1x1024x256
  slices_S7x1024_S1x1024_3_0 : S7x1024.Slices ![3, 0] S1x1024
  slices_S8x16384x256_S1x16384x256_5_0_0 : S8x16384x256.Slices ![5, 0, 0] S1x16384x256
  slices_S7x1024x256_S1x1024x256_4_0_0 : S7x1024x256.Slices ![4, 0, 0] S1x1024x256
  slices_S7x1024_S1x1024_4_0 : S7x1024.Slices ![4, 0] S1x1024
  slices_S8x16384x256_S1x16384x256_6_0_0 : S8x16384x256.Slices ![6, 0, 0] S1x16384x256
  slices_S7x1024x256_S1x1024x256_5_0_0 : S7x1024x256.Slices ![5, 0, 0] S1x1024x256
  slices_S7x1024_S1x1024_5_0 : S7x1024.Slices ![5, 0] S1x1024
  slices_S8x16384x256_S1x16384x256_7_0_0 : S8x16384x256.Slices ![7, 0, 0] S1x16384x256
  slices_S7x1024x256_S1x1024x256_6_0_0 : S7x1024x256.Slices ![6, 0, 0] S1x1024x256
  slices_S7x1024_S1x1024_6_0 : S7x1024.Slices ![6, 0] S1x1024
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S16384x256_S1x16384x256_1_2 : S16384x256.BroadcastsInDim S1x16384x256 (![1, 2] : Fin 2 → Fin S1x16384x256.rank)
  concatenates_S1x16384x256_S1x16384x256_S1x16384x256_S1x16384x256_S1x16384x256_S1x16384x256_S1x16384x256_S1x16384x256_S8x16384x256_d0 : Shape.Concatenates [S1x16384x256, S1x16384x256, S1x16384x256, S1x16384x256, S1x16384x256, S1x16384x256, S1x16384x256, S1x16384x256] S8x16384x256 0
  dot_S16384x256_S256x1024_S16384x1024_1_0_0_1_n_n_wf : DotDims.WF S16384x256 S256x1024 S16384x1024 [1] [0] [0] [1] [] []
  dot_S16384x256_S256x256_S16384x256_1_0_0_1_n_n_wf : DotDims.WF S16384x256 S256x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.Row.lean ====
/-
  One row of an LSTM cell, on the extended reals.

  Both programs compute, layer after layer, the same function of ONE batch row: the four gate
  pre-activations are `x · Wiᵀ + h · Whᵀ + (bi + bh)` (1024 columns: input, forget, candidate and output
  gate, 256 columns each), the new cell state is `σ(f) · c + σ(i) · tanh(g)` and the new hidden state is
  `σ(o) · tanh(c')`.  A row of the result depends on that row of `x`, `h`, `c` only, which is why a
  kernel that works on 256 rows at a time and a reference that works on all 16384 agree row by row.
  The logistic function `σ` is `1 / (1 + e^(-z))` on every extended real (with `σ(-∞) = 0`, `σ(+∞) = 1`),
  so nothing here needs the inputs to be finite.
-/
import Idealize.ShloMosaic.PureOps.Ideal
import Mathlib.Algebra.BigOperators.Group.Finset.Basic

noncomputable section

namespace Cert.Lstm

open Idealize.ShloMosaic

/-- Column `q` of gate `n` among the 1024 gate columns (`n = 0` input, `1` forget, `2` candidate, `3` output). -/
def gcol (n : Fin 4) (q : Fin 256) : Fin 1024 := ⟨256 * n.val + q.val, by have := n.isLt; have := q.isLt; omega⟩

/-- The gate pre-activations of one row: `(x · Wiᵀ + h · Whᵀ) + (bi + bh)` at gate column `j`. -/
def gateRow (x h : Fin 256 → EReal) (Wi Wh : Fin 1024 → Fin 256 → EReal) (bi bh : Fin 1024 → EReal) (j : Fin 1024) : EReal :=
  (∑ k : Fin 256, x k * Wi j k + ∑ k : Fin 256, h k * Wh j k) + (bi j + bh j)

/-- The new cell state of one row: `σ(f) · c + σ(i) · tanh(g)`. -/
def cRow (g : Fin 1024 → EReal) (c : Fin 256 → EReal) (q : Fin 256) : EReal :=
  Ideal.logistic (g (gcol 1 q)) * c q + Ideal.logistic (g (gcol 0 q)) * Ideal.tanh (g (gcol 2 q))

/-- The new hidden state of one row: `σ(o) · tanh(c')`. -/
def hRow (g : Fin 1024 → EReal) (c : Fin 256 → EReal) (q : Fin 256) : EReal :=
  Ideal.logistic (g (gcol 3 q)) * Ideal.tanh (cRow g c q)

/-- The output projection of one row: `h · Woᵀ + bo` at column `j`. -/
def outRow (h : Fin 256 → EReal) (Wo : Fin 256 → Fin 256 → EReal) (bo : Fin 256 → EReal) (j : Fin 256) : EReal :=
  ∑ k : Fin 256, h k * Wo j k + bo j

/-- One cell on one row: the new hidden state and the new cell state. -/
def cellRow (x h c : Fin 256 → EReal) (Wi Wh : Fin 1024 → Fin 256 → EReal) (bi bh : Fin 1024 → EReal) :
    (Fin 256 → EReal) × (Fin 256 → EReal) :=
  (hRow (gateRow x h Wi Wh bi bh) c, cRow (gateRow x h Wi Wh bi bh) c)

/-- The stack of eight cells on one row, after layer `l` (hidden state, cell state): layer 0 reads the input row
    and its own weights, layer `n + 1` reads layer `n`'s hidden state and slab `n` of the stacked weights; every
    layer reads its own slab of the given hidden and cell states. -/
def stackRow (x : Fin 256 → EReal) (hA cA : Fin 8 → Fin 256 → EReal)
    (Wi0 Wh0 : Fin 1024 → Fin 256 → EReal) (bi0 bh0 : Fin 1024 → EReal)
    (Wi Wh : Fin 7 → Fin 1024 → Fin 256 → EReal) (bi bh : Fin 7 → Fin 1024 → EReal) :
    ℕ → (Fin 256 → EReal) × (Fin 256 → EReal)
  | 0 => cellRow x (hA 0) (cA 0) Wi0 Wh0 bi0 bh0
  | n + 1 =>
    if h : n < 7 then
      cellRow (stackRow x hA cA Wi0 Wh0 bi0 bh0 Wi Wh bi bh n).1 (hA ⟨n + 1, by omega⟩) (cA ⟨n + 1, by omega⟩)
        (Wi ⟨n, h⟩) (Wh ⟨n, h⟩) (bi ⟨n, h⟩) (bh ⟨n, h⟩)
    else stackRow x hA cA Wi0 Wh0 bi0 bh0 Wi Wh bi bh n

theorem stackRow_zero (x : Fin 256 → EReal) (hA cA : Fin 8 → Fin 256 → EReal)
    (Wi0 Wh0 : Fin 1024 → Fin 256 → EReal) (bi0 bh0 : Fin 1024 → EReal)
    (Wi Wh : Fin 7 → Fin 1024 → Fin 256 → EReal) (bi bh : Fin 7 → Fin 1024 → EReal) :
    stackRow x hA cA Wi0 Wh0 bi0 bh0 Wi Wh bi bh 0 = cellRow x (hA 0) (cA 0) Wi0 Wh0 bi0 bh0 := rfl

theorem stackRow_succ (x : Fin 256 → EReal) (hA cA : Fin 8 → Fin 256 → EReal)
    (Wi0 Wh0 : Fin 1024 → Fin 256 → EReal) (bi0 bh0 : Fin 1024 → EReal)
    (Wi Wh : Fin 7 → Fin 1024 → Fin 256 → EReal) (bi bh : Fin 7 → Fin 1024 → EReal) (n : ℕ) (h : n < 7) :
    stackRow x hA cA Wi0 Wh0 bi0 bh0 Wi Wh bi bh (n + 1)
      = cellRow (stackRow x hA cA Wi0 Wh0 bi0 bh0 Wi Wh bi bh n).1 (hA ⟨n + 1, by omega⟩) (cA ⟨n + 1, by omega⟩)
          (Wi ⟨n, h⟩) (Wh ⟨n, h⟩) (bi ⟨n, h⟩) (bh ⟨n, h⟩) := by
  rw [stackRow, dif_pos h]

end Cert.Lstm

end
-- ==== Proof.KCell.lean ====
/-
  The kernel's LSTM cell on one block of 256 rows, read at an index.

  `gates`, `cNew`, `hNew` and `proj` are the vector operations the kernel body applies in every layer
  (two block products into zero accumulators, the bias row broadcast down the block, four column slices,
  the logistic and tanh functions), written once.  At row `p` and column `q` each of them is the row-wise
  formula of `Cert.Lstm` applied to row `p` of its operands: a block product into a zero accumulator
  is the plain sum over the contracted column, a change of float format is the identity on extended
  reals, and a column slice at offset `256 n` reads gate `n`.
-/
import proofs.«181826_j46385646796958_2_alg».proof.Proof.Gen.KernelIdeal
import proofs.«181826_j46385646796958_2_alg».proof.Proof.Row
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cell

open Cert.KernelIdeal Cert.KernelIdeal.Gen Idealize.ShloMosaic Idealize.ShloMosaic.ValueIdx Cert.Lstm

/-- The gate pre-activations of a block: `(x · Wiᵀ + h · Whᵀ) + (bi + bh)`, the bias row broadcast down the rows. -/
def gates (xin h : FVec Ideal S256x256 .f32) (Wi Wh : FVec Ideal S1024x256 .bf16) (bi bh : FVec Ideal S1024 .f32) :
    FVec Ideal S256x1024 .f32 :=
  addf (addf (matmul dot_S256x256_S1024x256_S256x1024_1_1_0_0_n_n none (truncf .bf16 xin bitsLt_bf16_f32) Wi (constant S256x1024 .f32 0x00000000#32))
             (matmul dot_S256x256_S1024x256_S256x1024_1_1_0_0_n_n none (truncf .bf16 h bitsLt_bf16_f32) Wh (constant S256x1024 .f32 0x00000000#32)))
       (broadcastTo S256x1024 (shapeCast S1x1024 (addf bi bh) shapeCasts_S1024_S1x1024) broadcasts_S1x1024_S256x1024)

/-- The new cell state of a block: `σ(f) · c + σ(i) · tanh(g)`. -/
def cNew (g : FVec Ideal S256x1024 .f32) (c : FVec Ideal S256x256 .f32) : FVec Ideal S256x256 .f32 :=
  addf (mulf (logistic (extractStridedSlice S256x256 ![0, 256] g slices_S256x1024_o0_256_S256x256)) c)
       (mulf (logistic (extractStridedSlice S256x256 ![0, 0] g slices_S256x1024_o0_0_S256x256))
             (tanh (extractStridedSlice S256x256 ![0, 512] g slices_S256x1024_o0_512_S256x256)))

/-- The new hidden state of a block: `σ(o) · tanh(c')`. -/
def hNew (g : FVec Ideal S256x1024 .f32) (c : FVec Ideal S256x256 .f32) : FVec Ideal S256x256 .f32 :=
  mulf (logistic (extractStridedSlice S256x256 ![0, 768] g slices_S256x1024_o0_768_S256x256)) (tanh (cNew g c))

/-- The output projection of a block: `h · Woᵀ + bo`. -/
def proj (h : FVec Ideal S256x256 .f32) (Wo : FVec Ideal S256x256 .bf16) (bo : FVec Ideal S256 .f32) : FVec Ideal S256x256 .f32 :=
  addf (matmul dot_S256x256_S256x256_S256x256_1_1_0_0_n_n none (truncf .bf16 h bitsLt_bf16_f32) Wo (constant S256x256 .f32 0x00000000#32))
       (broadcastTo S256x256 (shapeCast S1x256 bo shapeCasts_S256_S1x256) broadcasts_S1x256_S256x256)

/-- A block product `a · wᵀ` into a zero accumulator, at row `p` and column `j`: the sum over the contracted column. -/
theorem matmul_row (a : FVec Ideal S256x256 .bf16) (w : FVec Ideal S1024x256 .bf16) (p : Fin 256) (j : Fin 1024) :
    matmul dot_S256x256_S1024x256_S256x1024_1_1_0_0_n_n none a w (constant S256x1024 .f32 0x00000000#32) (ix2 p j)
      = ∑ k : Fin 256, a (ix2 p k) * w (ix2 j k) := by
  simp only [matmul]
  rw [Ideal.matmul_constant_zero_apply,
    ← Equiv.sum_comp (contrEquiv1 dot_S256x256_S1024x256_S256x1024_1_1_0_0_n_n 256 rfl rfl).symm]
  refine Finset.sum_congr rfl fun k _ => ?_
  congr 1
  · refine congrArg a (funext fun ax => Fin.ext ?_)
    match ax with
    | ⟨0, _⟩ => rfl
    | ⟨1, _⟩ =>
      exact (DotDims.lhsIdx_val_of_single _ rfl _ _).trans (contrEquiv1_symm_val _ 256 rfl rfl k)
  · refine congrArg w (funext fun ax => Fin.ext ?_)
    match ax with
    | ⟨0, _⟩ => rfl
    | ⟨1, _⟩ =>
      exact (DotDims.rhsIdx_val_of_single _ rfl _ _).trans (contrEquiv1_symm_val _ 256 rfl rfl k)

/-- The same for the 256-column output projection. -/
theorem matmulO_row (a : FVec Ideal S256x256 .bf16) (w : FVec Ideal S256x256 .bf16) (p : Fin 256) (j : Fin 256) :
    matmul dot_S256x256_S256x256_S256x256_1_1_0_0_n_n none a w (constant S256x256 .f32 0x00000000#32) (ix2 p j)
      = ∑ k : Fin 256, a (ix2 p k) * w (ix2 j k) := by
  simp only [matmul]
  rw [Ideal.matmul_constant_zero_apply,
    ← Equiv.sum_comp (contrEquiv1 dot_S256x256_S256x256_S256x256_1_1_0_0_n_n 256 rfl rfl).symm]
  refine Finset.sum_congr rfl fun k _ => ?_
  congr 1
  · refine congrArg a (funext fun ax => Fin.ext ?_)
    match ax with
    | ⟨0, _⟩ => rfl
    | ⟨1, _⟩ =>
      exact (DotDims.lhsIdx_val_of_single _ rfl _ _).trans (contrEquiv1_symm_val _ 256 rfl rfl k)
  · refine congrArg w (funext fun ax => Fin.ext ?_)
    match ax with
    | ⟨0, _⟩ => rfl
    | ⟨1, _⟩ =>
      exact (DotDims.rhsIdx_val_of_single _ rfl _ _).trans (contrEquiv1_symm_val _ 256 rfl rfl k)

/-- The block's gate pre-activations at row `p` are the row-wise ones of row `p` of the operands. -/
theorem gates_apply (xin h : FVec Ideal S256x256 .f32) (Wi Wh : FVec Ideal S1024x256 .bf16) (bi bh : FVec Ideal S1024 .f32)
    (p : Fin 256) (j : Fin 1024) :
    gates xin h Wi Wh bi bh (ix2 p j)
      = gateRow (fun k => xin (ix2 p k)) (fun k => h (ix2 p k)) (fun j k => Wi (ix2 j k)) (fun j k => Wh (ix2 j k))
          (fun j => bi (ix1 j)) (fun j => bh (ix1 j)) j := by
  unfold gates gateRow
  rw [addf_apply, addf_apply, matmul_row, matmul_row, broadcastTo_1b_ab_apply, shapeCast_a_1a_apply, addf_apply]
  rfl

/-- The block's new cell state at row `p`, column `q`. -/
theorem cNew_apply (g : FVec Ideal S256x1024 .f32) (c : FVec Ideal S256x256 .f32) (p q : Fin 256) :
    cNew g c (ix2 p q) = cRow (fun j => g (ix2 p j)) (fun k => c (ix2 p k)) q := by
  unfold cNew cRow
  rw [addf_apply, mulf_apply, mulf_apply]
  show Ideal.logistic (extractStridedSlice S256x256 ![0, 256] g _ (ix2 p q)) * c (ix2 p q)
      + Ideal.logistic (extractStridedSlice S256x256 ![0, 0] g _ (ix2 p q)) * Ideal.tanh (extractStridedSlice S256x256 ![0, 512] g _ (ix2 p q)) = _
  rw [slice2_axis1_apply 256 g _ p q (gcol 1 q) (by simp [gcol]), slice2_axis1_apply 0 g _ p q (gcol 0 q) (by simp [gcol]),
    slice2_axis1_apply 512 g _ p q (gcol 2 q) (by simp [gcol])]

/-- The block's new hidden state at row `p`, column `q`. -/
theorem hNew_apply (g : FVec Ideal S256x1024 .f32) (c : FVec Ideal S256x256 .f32) (p q : Fin 256) :
    hNew g c (ix2 p q) = hRow (fun j => g (ix2 p j)) (fun k => c (ix2 p k)) q := by
  unfold hNew hRow
  rw [mulf_apply]
  show Ideal.logistic (extractStridedSlice S256x256 ![0, 768] g _ (ix2 p q)) * Ideal.tanh (cNew g c (ix2 p q)) = _
  rw [slice2_axis1_apply 768 g _ p q (gcol 3 q) (by simp [gcol]), cNew_apply]

/-- The block's output projection at row `p`, column `j`. -/
theorem proj_apply (h : FVec Ideal S256x256 .f32) (Wo : FVec Ideal S256x256 .bf16) (bo : FVec Ideal S256 .f32) (p j : Fin 256) :
    proj h Wo bo (ix2 p j) = outRow (fun k => h (ix2 p k)) (fun j k => Wo (ix2 j k)) (fun j => bo (ix1 j)) j := by
  unfold proj outRow
  rw [addf_apply, matmulO_row, broadcastTo_1b_ab_apply, shapeCast_a_1a_apply]
  rfl

end Cert.KernelIdeal.Cell

end
-- ==== Proof.KLayers.lean ====
/-
  The kernel body on one block of 256 rows, layer by layer.

  `layerH` / `layerC` are one LSTM cell on the block, reading one slab each of the stacked hidden states, cell
  states, weights and biases; `KH l` / `KC l` chain them over the body's loads, so that `KH (l+1)` is the cell applied
  to `KH l`.  The body's stores are exactly these values: the block it leaves in the stacked-hidden-state window is
  slab `l` = `KH l`, in the stacked-cell-state window slab `l` = `KC l`, and the output window holds the projection
  of `KH 7`.
-/
import proofs.«181826_j46385646796958_2_alg».proof.Proof.Gen.KernelIdeal.Frame
import proofs.«181826_j46385646796958_2_alg».proof.Proof.KCell
import Idealize.ShloMosaic.Lib.ValueIdx
import Idealize.ShloMosaic.Lib.ValueLayout
import Idealize.ShloMosaic.Lib.Pipeline.Value

set_option maxRecDepth 16384

noncomputable section

namespace Cert.KernelIdeal.Layers

open Cert.KernelIdeal Cert.KernelIdeal.Gen Cert.KernelIdeal.Cell Idealize.ShloMosaic Idealize.ShloMosaic.TcCoe
open Idealize.ShloMosaic.ValueIdx Cert.Lstm

/-- The first cell on a block: it reads the input block, slab 0 of the states, and its own weights. -/
def layer0H (x : Vec Ideal S256x256 .f32) (hb cb : Vec Ideal S1x256x256 .f32) (wi wh : Vec Ideal S1024x256 .bf16)
    (bi bh : Vec Ideal S1024 .f32) : FVec Ideal S256x256 .f32 :=
  hNew (gates x (shapeCast S256x256 hb shapeCasts_S1x256x256_S256x256) (shapeCast S1024x256 wi shapeCasts_S1024x256_S1024x256)
      (shapeCast S1024x256 wh shapeCasts_S1024x256_S1024x256) bi bh) (shapeCast S256x256 cb shapeCasts_S1x256x256_S256x256)

def layer0C (x : Vec Ideal S256x256 .f32) (hb cb : Vec Ideal S1x256x256 .f32) (wi wh : Vec Ideal S1024x256 .bf16)
    (bi bh : Vec Ideal S1024 .f32) : FVec Ideal S256x256 .f32 :=
  cNew (gates x (shapeCast S256x256 hb shapeCasts_S1x256x256_S256x256) (shapeCast S1024x256 wi shapeCasts_S1024x256_S1024x256)
      (shapeCast S1024x256 wh shapeCasts_S1024x256_S1024x256) bi bh) (shapeCast S256x256 cb shapeCasts_S1x256x256_S256x256)

/-- A later cell on a block: it reads the previous hidden state and one slab each of the stacked operands. -/
def layerH (xin : FVec Ideal S256x256 .f32) (hb cb : Vec Ideal S1x256x256 .f32) (wi wh : Vec Ideal S1x1024x256 .bf16)
    (bi bh : Vec Ideal S1x1024 .f32) : FVec Ideal S256x256 .f32 :=
  hNew (gates xin (shapeCast S256x256 hb shapeCasts_S1x256x256_S256x256) (shapeCast S1024x256 wi shapeCasts_S1x1024x256_S1024x256)
      (shapeCast S1024x256 wh shapeCasts_S1x1024x256_S1024x256) (shapeCast S1024 bi shapeCasts_S1x1024_S1024)
      (shapeCast S1024 bh shapeCasts_S1x1024_S1024)) (shapeCast S256x256 cb shapeCasts_S1x256x256_S256x256)

def layerC (xin : FVec Ideal S256x256 .f32) (hb cb : Vec Ideal S1x256x256 .f32) (wi wh : Vec Ideal S1x1024x256 .bf16)
    (bi bh : Vec Ideal S1x1024 .f32) : FVec Ideal S256x256 .f32 :=
  cNew (gates xin (shapeCast S256x256 hb shapeCasts_S1x256x256_S256x256) (shapeCast S1024x256 wi shapeCasts_S1x1024x256_S1024x256)
      (shapeCast S1024x256 wh shapeCasts_S1x1024x256_S1024x256) (shapeCast S1024 bi shapeCasts_S1x1024_S1024)
      (shapeCast S1024 bh shapeCasts_S1x1024_S1024)) (shapeCast S256x256 cb shapeCasts_S1x256x256_S256x256)

/-! ## The chain over the body's loads -/

/-- Layer 0's hidden state on the block. -/
def KH0 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layer0H (View.ld x0 r0_0) (View.ld x1 r0_1) (View.ld x2 r0_1) (View.ld x3 r0_2) (View.ld x4 r0_2) (View.ld x5 r0_3) (View.ld x6 r0_3)
/-- Layer 0's cell state on the block. -/
def KC0 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layer0C (View.ld x0 r0_0) (View.ld x1 r0_1) (View.ld x2 r0_1) (View.ld x3 r0_2) (View.ld x4 r0_2) (View.ld x5 r0_3) (View.ld x6 r0_3)
/-- Layer 1's hidden state on the block. -/
def KH1 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH0 x0 x1 x2 x3 x4 x5 x6 x7 x8 x9 x10) (View.ld x1 r0_4) (View.ld x2 r0_4) (View.ld x7 r0_5) (View.ld x8 r0_5) (View.ld x9 r0_6) (View.ld x10 r0_6)
/-- Layer 2's hidden state on the block. -/
def KH2 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH1 x0 x1 x2 x3 x4 x5 x6 x7 x8 x9 x10) (View.ld x1 r0_7) (View.ld x2 r0_7) (View.ld x7 r0_8) (View.ld x8 r0_8) (View.ld x9 r0_9) (View.ld x10 r0_9)
/-- Layer 3's hidden state on the block. -/
def KH3 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH2 x0 x1 x2 x3 x4 x5 x6 x7 x8 x9 x10) (View.ld x1 r0_10) (View.ld x2 r0_10) (View.ld x7 r0_11) (View.ld x8 r0_11) (View.ld x9 r0_12) (View.ld x10 r0_12)
/-- Layer 4's hidden state on the block. -/
def KH4 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH3 x0 x1 x2 x3 x4 x5 x6 x7 x8 x9 x10) (View.ld x1 r0_13) (View.ld x2 r0_13) (View.ld x7 r0_14) (View.ld x8 r0_14) (View.ld x9 r0_15) (View.ld x10 r0_15)
/-- Layer 5's hidden state on the block. -/
def KH5 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH4 x0 x1 x2 x3 x4 x5 x6 x7 x8 x9 x10) (View.ld x1 r0_16) (View.ld x2 r0_16) (View.ld x7 r0_17) (View.ld x8 r0_17) (View.ld x9 r0_18) (View.ld x10 r0_18)
/-- Layer 6's hidden state on the block. -/
def KH6 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH5 x0 x1 x2 x3 x4 x5 x6 x7 x8 x9 x10) (View.ld x1 r0_19) (View.ld x2 r0_19) (View.ld x7 r0_20) (View.ld x8 r0_20) (View.ld x9 r0_21) (View.ld x10 r0_21)
/-- Layer 7's hidden state on the block. -/
def KH7 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerH (KH6 x0 x1 x2 x3 x4 x5 x6 x7 x8 x9 x10) (View.ld x1 r0_22) (View.ld x2 r0_22) (View.ld x7 r0_23) (View.ld x8 r0_23) (View.ld x9 r0_24) (View.ld x10 r0_24)
/-- Layer 1's cell state on the block. -/
def KC1 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH0 x0 x1 x2 x3 x4 x5 x6 x7 x8 x9 x10) (View.ld x1 r0_4) (View.ld x2 r0_4) (View.ld x7 r0_5) (View.ld x8 r0_5) (View.ld x9 r0_6) (View.ld x10 r0_6)
/-- Layer 2's cell state on the block. -/
def KC2 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH1 x0 x1 x2 x3 x4 x5 x6 x7 x8 x9 x10) (View.ld x1 r0_7) (View.ld x2 r0_7) (View.ld x7 r0_8) (View.ld x8 r0_8) (View.ld x9 r0_9) (View.ld x10 r0_9)
/-- Layer 3's cell state on the block. -/
def KC3 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH2 x0 x1 x2 x3 x4 x5 x6 x7 x8 x9 x10) (View.ld x1 r0_10) (View.ld x2 r0_10) (View.ld x7 r0_11) (View.ld x8 r0_11) (View.ld x9 r0_12) (View.ld x10 r0_12)
/-- Layer 4's cell state on the block. -/
def KC4 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH3 x0 x1 x2 x3 x4 x5 x6 x7 x8 x9 x10) (View.ld x1 r0_13) (View.ld x2 r0_13) (View.ld x7 r0_14) (View.ld x8 r0_14) (View.ld x9 r0_15) (View.ld x10 r0_15)
/-- Layer 5's cell state on the block. -/
def KC5 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH4 x0 x1 x2 x3 x4 x5 x6 x7 x8 x9 x10) (View.ld x1 r0_16) (View.ld x2 r0_16) (View.ld x7 r0_17) (View.ld x8 r0_17) (View.ld x9 r0_18) (View.ld x10 r0_18)
/-- Layer 6's cell state on the block. -/
def KC6 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH5 x0 x1 x2 x3 x4 x5 x6 x7 x8 x9 x10) (View.ld x1 r0_19) (View.ld x2 r0_19) (View.ld x7 r0_20) (View.ld x8 r0_20) (View.ld x9 r0_21) (View.ld x10 r0_21)
/-- Layer 7's cell state on the block. -/
def KC7 (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) : FVec Ideal S256x256 .f32 :=
  layerC (KH6 x0 x1 x2 x3 x4 x5 x6 x7 x8 x9 x10) (View.ld x1 r0_22) (View.ld x2 r0_22) (View.ld x7 r0_23) (View.ld x8 r0_23) (View.ld x9 r0_24) (View.ld x10 r0_24)

/-! ## The body's stores are these values -/

/-- The stacked-hidden-state window's block after the body: slab `l` is layer `l`'s hidden state. -/
theorem out14_eq (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (x11 : Vec Ideal S256x256 .bf16) (x12 : Vec Ideal S256 .f32) :
    out0_14 x0 x1 x2 x3 x4 x5 x6 x7 x8 x9 x10 x11 x12
      = View.canon [⟨r0_22, shapeCast S1x256x256 (KH7 x0 x1 x2 x3 x4 x5 x6 x7 x8 x9 x10) shapeCasts_S256x256_S1x256x256⟩,
      ⟨r0_19, shapeCast S1x256x256 (KH6 x0 x1 x2 x3 x4 x5 x6 x7 x8 x9 x10) shapeCasts_S256x256_S1x256x256⟩,
      ⟨r0_16, shapeCast S1x256x256 (KH5 x0 x1 x2 x3 x4 x5 x6 x7 x8 x9 x10) shapeCasts_S256x256_S1x256x256⟩,
      ⟨r0_13, shapeCast S1x256x256 (KH4 x0 x1 x2 x3 x4 x5 x6 x7 x8 x9 x10) shapeCasts_S256x256_S1x256x256⟩,
      ⟨r0_10, shapeCast S1x256x256 (KH3 x0 x1 x2 x3 x4 x5 x6 x7 x8 x9 x10) shapeCasts_S256x256_S1x256x256⟩,
      ⟨r0_7, shapeCast S1x256x256 (KH2 x0 x1 x2 x3 x4 x5 x6 x7 x8 x9 x10) shapeCasts_S256x256_S1x256x256⟩,
      ⟨r0_4, shapeCast S1x256x256 (KH1 x0 x1 x2 x3 x4 x5 x6 x7 x8 x9 x10) shapeCasts_S256x256_S1x256x256⟩,
      ⟨r0_1, shapeCast S1x256x256 (KH0 x0 x1 x2 x3 x4 x5 x6 x7 x8 x9 x10) shapeCasts_S256x256_S1x256x256⟩] := rfl

/-- The stacked-cell-state window's block after the body: slab `l` is layer `l`'s cell state. -/
theorem out15_eq (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (x11 : Vec Ideal S256x256 .bf16) (x12 : Vec Ideal S256 .f32) :
    out0_15 x0 x1 x2 x3 x4 x5 x6 x7 x8 x9 x10 x11 x12
      = View.canon [⟨r0_22, shapeCast S1x256x256 (KC7 x0 x1 x2 x3 x4 x5 x6 x7 x8 x9 x10) shapeCasts_S256x256_S1x256x256⟩,
      ⟨r0_19, shapeCast S1x256x256 (KC6 x0 x1 x2 x3 x4 x5 x6 x7 x8 x9 x10) shapeCasts_S256x256_S1x256x256⟩,
      ⟨r0_16, shapeCast S1x256x256 (KC5 x0 x1 x2 x3 x4 x5 x6 x7 x8 x9 x10) shapeCasts_S256x256_S1x256x256⟩,
      ⟨r0_13, shapeCast S1x256x256 (KC4 x0 x1 x2 x3 x4 x5 x6 x7 x8 x9 x10) shapeCasts_S256x256_S1x256x256⟩,
      ⟨r0_10, shapeCast S1x256x256 (KC3 x0 x1 x2 x3 x4 x5 x6 x7 x8 x9 x10) shapeCasts_S256x256_S1x256x256⟩,
      ⟨r0_7, shapeCast S1x256x256 (KC2 x0 x1 x2 x3 x4 x5 x6 x7 x8 x9 x10) shapeCasts_S256x256_S1x256x256⟩,
      ⟨r0_4, shapeCast S1x256x256 (KC1 x0 x1 x2 x3 x4 x5 x6 x7 x8 x9 x10) shapeCasts_S256x256_S1x256x256⟩,
      ⟨r0_1, shapeCast S1x256x256 (KC0 x0 x1 x2 x3 x4 x5 x6 x7 x8 x9 x10) shapeCasts_S256x256_S1x256x256⟩] := rfl

/-- The output window's block after the body: the projection of the last hidden state. -/
theorem out13_eq (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (x11 : Vec Ideal S256x256 .bf16) (x12 : Vec Ideal S256 .f32) :
    out0_13 x0 x1 x2 x3 x4 x5 x6 x7 x8 x9 x10 x11 x12
      = View.canon [⟨r0_0, proj (KH7 x0 x1 x2 x3 x4 x5 x6 x7 x8 x9 x10) (shapeCast S256x256 (View.ld x11 r0_0) shapeCasts_S256x256_S256x256) (View.ld x12 r0_25)⟩] := rfl

end Cert.KernelIdeal.Layers

end
-- ==== Proof.Spec.lean ====
/-
  What the three results hold, as functions of the thirteen argument arrays.

  `stackAt` is the stack of eight LSTM cells on batch row `b`, read off arrays with any number of rows: the same
  definition describes a block of 256 rows and the full 16384.  The results are: the stacked hidden states
  `hs[l, b, q]`, the stacked cell states `cs[l, b, q]`, and the output projection of the last hidden state.
-/
import proofs.«181826_j46385646796958_2_alg».proof.Proof.Row
import Idealize.ShloMosaic.Lib.ValueIdx

noncomputable section

namespace Cert.Lstm

open Idealize.ShloMosaic Idealize.ShloMosaic.ValueIdx

/-- Arrays of extended reals of rank one, two and three. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- The stack of eight cells on row `b` of arrays with `n` rows, after layer `l` (hidden state, cell state). -/
def stackAt {n : ℕ} (X : A2 n 256) (Hs Cs : A3 8 n 256) (Wi0 Wh0 : A2 1024 256) (bi0 bh0 : A1 1024)
    (Wi Wh : A3 7 1024 256) (bi bh : A2 7 1024) (b : Fin n) : ℕ → (Fin 256 → EReal) × (Fin 256 → EReal) :=
  stackRow (fun k => X (ix2 b k)) (fun l k => Hs (ix3 l b k)) (fun l k => Cs (ix3 l b k))
    (fun j k => Wi0 (ix2 j k)) (fun j k => Wh0 (ix2 j k)) (fun j => bi0 (ix1 j)) (fun j => bh0 (ix1 j))
    (fun l j k => Wi (ix3 l j k)) (fun l j k => Wh (ix3 l j k)) (fun l j => bi (ix2 l j)) (fun l j => bh (ix2 l j))

/-- The stacked hidden states: `hs[l, b, q]` is layer `l`'s hidden state of row `b` at column `q`. -/
def hsSpec {n : ℕ} (X : A2 n 256) (Hs Cs : A3 8 n 256) (Wi0 Wh0 : A2 1024 256) (bi0 bh0 : A1 1024)
    (Wi Wh : A3 7 1024 256) (bi bh : A2 7 1024) : A3 8 n 256 :=
  fun i => (stackAt X Hs Cs Wi0 Wh0 bi0 bh0 Wi Wh bi bh (i 1) (i 0).val).1 (i 2)

/-- The stacked cell states. -/
def csSpec {n : ℕ} (X : A2 n 256) (Hs Cs : A3 8 n 256) (Wi0 Wh0 : A2 1024 256) (bi0 bh0 : A1 1024)
    (Wi Wh : A3 7 1024 256) (bi bh : A2 7 1024) : A3 8 n 256 :=
  fun i => (stackAt X Hs Cs Wi0 Wh0 bi0 bh0 Wi Wh bi bh (i 1) (i 0).val).2 (i 2)

/-- The output: the last layer's hidden state projected, `h₇ · Woᵀ + bo`. -/
def outSpec {n : ℕ} (X : A2 n 256) (Hs Cs : A3 8 n 256) (Wi0 Wh0 : A2 1024 256) (bi0 bh0 : A1 1024)
    (Wi Wh : A3 7 1024 256) (bi bh : A2 7 1024) (Wo : A2 256 256) (bo : A1 256) : A2 n 256 :=
  fun i => outRow (stackAt X Hs Cs Wi0 Wh0 bi0 bh0 Wi Wh bi bh (i 0) 7).1 (fun j k => Wo (ix2 j k)) (fun j => bo (ix1 j)) (i 1)

end Cert.Lstm

end
-- ==== Proof.KRows.lean ====
/-
  The kernel body on one block, read row by row.

  Row `p` of layer `l`'s hidden state on the block is the stack of cells on row `p` of the point's blocks: a load of
  slab `l` of a stacked block reads the block at leading index `l`, and each layer's cell is the row-wise cell.
  So the block the body leaves in each output window is the specification read off the point's input blocks.
-/
import proofs.«181826_j46385646796958_2_alg».proof.Proof.KLayers
import proofs.«181826_j46385646796958_2_alg».proof.Proof.Spec

set_option maxRecDepth 16384

noncomputable section

namespace Cert.KernelIdeal.Layers

open Cert.KernelIdeal Cert.KernelIdeal.Gen Cert.KernelIdeal.Cell Idealize.ShloMosaic Idealize.ShloMosaic.TcCoe
open Idealize.ShloMosaic.ValueIdx Cert.Lstm

theorem hz1 : (![0] : Fin 1 → Nat) = fun _ => 0 := funext fun a => by fin_cases a; rfl
theorem hz2 : (![0, 0] : Fin 2 → Nat) = fun _ => 0 := funext fun a => by fin_cases a <;> rfl

/-- The rectangle of slab `l` of a rank-three array sends the slab's index `(0, i, j)` to `(l, i, j)`. -/
theorem idx_slab3 {A B C : ℕ} (l : ℕ) (hl : l < A)
    (inb : ∀ a, (![l, 0, 0] : Fin 3 → ℕ) a + (![1, B, C] : Fin 3 → ℕ) a ≤ (⟨3, ![A, B, C]⟩ : Shape).size a)
    (u : Fin 1) (i : Fin B) (j : Fin C) :
    (Rect.unit (s := ⟨3, ![A, B, C]⟩) ![l, 0, 0] ![1, B, C] inb).idx (ix3 u i j) = ix3 ⟨l, hl⟩ i j := by
  funext a; apply Fin.ext
  have hu : u.val = 0 := by omega
  match a with
  | ⟨0, _⟩ => show l + 1 * u.val = l; omega
  | ⟨1, _⟩ => show 0 + 1 * i.val = i.val; omega
  | ⟨2, _⟩ => show 0 + 1 * j.val = j.val; omega

/-- The rectangle of row `l` of a rank-two array sends the row's index `(0, j)` to `(l, j)`. -/
theorem idx_slab2 {A B : ℕ} (l : ℕ) (hl : l < A)
    (inb : ∀ a, (![l, 0] : Fin 2 → ℕ) a + (![1, B] : Fin 2 → ℕ) a ≤ (⟨2, ![A, B]⟩ : Shape).size a)
    (u : Fin 1) (j : Fin B) :
    (Rect.unit (s := ⟨2, ![A, B]⟩) ![l, 0] ![1, B] inb).idx (ix2 u j) = ix2 ⟨l, hl⟩ j := by
  funext a; apply Fin.ext
  have hu : u.val = 0 := by omega
  match a with
  | ⟨0, _⟩ => show l + 1 * u.val = l; omega
  | ⟨1, _⟩ => show 0 + 1 * j.val = j.val; omega

/-! ## One cell on a block is the row-wise cell -/

theorem layer0H_apply (x : Vec Ideal S256x256 .f32) (hb cb : Vec Ideal S1x256x256 .f32) (wi wh : Vec Ideal S1024x256 .bf16)
    (bi bh : Vec Ideal S1024 .f32) (p q : Fin 256) :
    layer0H x hb cb wi wh bi bh (ix2 p q)
      = (cellRow (fun k => x (ix2 p k)) (fun k => hb (ix3 0 p k)) (fun k => cb (ix3 0 p k)) (fun j k => wi (ix2 j k))
          (fun j k => wh (ix2 j k)) (fun j => bi (ix1 j)) (fun j => bh (ix1 j))).1 q := by
  unfold layer0H cellRow
  simp only [hNew_apply, gates_apply, shapeCast_1ab_ab_apply, shapeCast_self] <;> rfl

theorem layer0C_apply (x : Vec Ideal S256x256 .f32) (hb cb : Vec Ideal S1x256x256 .f32) (wi wh : Vec Ideal S1024x256 .bf16)
    (bi bh : Vec Ideal S1024 .f32) (p q : Fin 256) :
    layer0C x hb cb wi wh bi bh (ix2 p q)
      = (cellRow (fun k => x (ix2 p k)) (fun k => hb (ix3 0 p k)) (fun k => cb (ix3 0 p k)) (fun j k => wi (ix2 j k))
          (fun j k => wh (ix2 j k)) (fun j => bi (ix1 j)) (fun j => bh (ix1 j))).2 q := by
  unfold layer0C cellRow
  simp only [cNew_apply, gates_apply, shapeCast_1ab_ab_apply, shapeCast_self] <;> rfl

theorem layerH_apply (xin : FVec Ideal S256x256 .f32) (hb cb : Vec Ideal S1x256x256 .f32) (wi wh : Vec Ideal S1x1024x256 .bf16)
    (bi bh : Vec Ideal S1x1024 .f32) (p q : Fin 256) :
    layerH xin hb cb wi wh bi bh (ix2 p q)
      = (cellRow (fun k => xin (ix2 p k)) (fun k => hb (ix3 0 p k)) (fun k => cb (ix3 0 p k)) (fun j k => wi (ix3 0 j k))
          (fun j k => wh (ix3 0 j k)) (fun j => bi (ix2 0 j)) (fun j => bh (ix2 0 j))).1 q := by
  unfold layerH cellRow
  simp only [hNew_apply, gates_apply, shapeCast_1ab_ab_apply, shapeCast_1a_a_apply] <;> rfl

theorem layerC_apply (xin : FVec Ideal S256x256 .f32) (hb cb : Vec Ideal S1x256x256 .f32) (wi wh : Vec Ideal S1x1024x256 .bf16)
    (bi bh : Vec Ideal S1x1024 .f32) (p q : Fin 256) :
    layerC xin hb cb wi wh bi bh (ix2 p q)
      = (cellRow (fun k => xin (ix2 p k)) (fun k => hb (ix3 0 p k)) (fun k => cb (ix3 0 p k)) (fun j k => wi (ix3 0 j k))
          (fun j k => wh (ix3 0 j k)) (fun j => bi (ix2 0 j)) (fun j => bh (ix2 0 j))).2 q := by
  unfold layerC cellRow
  simp only [cNew_apply, gates_apply, shapeCast_1ab_ab_apply, shapeCast_1a_a_apply] <;> rfl

/-- The output projection of a block whose weight block comes through an identity reshape. -/
theorem projW_apply (h : FVec Ideal S256x256 .f32) (wo : Vec Ideal S256x256 .bf16) (bo : Vec Ideal S256 .f32) (p j : Fin 256) :
    proj h (shapeCast S256x256 wo shapeCasts_S256x256_S256x256) bo (ix2 p j)
      = outRow (fun k => h (ix2 p k)) (fun j k => wo (ix2 j k)) (fun j => bo (ix1 j)) j := by
  rw [proj_apply, shapeCast_self]

/-! ## The chain, row by row -/

theorem KH0_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH0 x0 x1 x2 x3 x4 x5 x6 x7 x8 x9 x10 (ix2 p q) = (stackAt x0 x1 x2 x3 x4 x5 x6 x7 x8 x9 x10 p 0).1 q := by
  unfold KH0
  rw [layer0H_apply, View.ld_unit_zero (Val := Elt Ideal) (S := S256x256) hz2 _ x0, View.ld_unit_zero (Val := Elt Ideal) (S := S1024x256) hz2 _ x3, View.ld_unit_zero (Val := Elt Ideal) (S := S1024x256) hz2 _ x4,
    View.ld_unit_zero (Val := Elt Ideal) (S := S1024) hz1 _ x5, View.ld_unit_zero (Val := Elt Ideal) (S := S1024) hz1 _ x6]
  simp only [View.ld, idx_slab3 (A := 8) (B := 256) (C := 256) 0 (by omega) inb_S8x256x256_S1x256x256_0_0_0]
  rfl

theorem KC0_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC0 x0 x1 x2 x3 x4 x5 x6 x7 x8 x9 x10 (ix2 p q) = (stackAt x0 x1 x2 x3 x4 x5 x6 x7 x8 x9 x10 p 0).2 q := by
  unfold KC0
  rw [layer0C_apply, View.ld_unit_zero (Val := Elt Ideal) (S := S256x256) hz2 _ x0, View.ld_unit_zero (Val := Elt Ideal) (S := S1024x256) hz2 _ x3, View.ld_unit_zero (Val := Elt Ideal) (S := S1024x256) hz2 _ x4,
    View.ld_unit_zero (Val := Elt Ideal) (S := S1024) hz1 _ x5, View.ld_unit_zero (Val := Elt Ideal) (S := S1024) hz1 _ x6]
  simp only [View.ld, idx_slab3 (A := 8) (B := 256) (C := 256) 0 (by omega) inb_S8x256x256_S1x256x256_0_0_0]
  rfl

theorem KH1_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH1 x0 x1 x2 x3 x4 x5 x6 x7 x8 x9 x10 (ix2 p q) = (stackAt x0 x1 x2 x3 x4 x5 x6 x7 x8 x9 x10 p 1).1 q := by
  unfold KH1
  rw [layerH_apply]
  simp only [KH0_apply, View.ld, idx_slab3 (A := 8) (B := 256) (C := 256) 1 (by omega) inb_S8x256x256_S1x256x256_1_0_0, idx_slab3 (A := 7) (B := 1024) (C := 256) 0 (by omega) inb_S7x1024x256_S1x1024x256_0_0_0, idx_slab2 (A := 7) (B := 1024) 0 (by omega) inb_S7x1024_S1x1024_0_0]
  unfold stackAt
  rw [stackRow_succ _ _ _ _ _ _ _ _ _ _ _ 0 (by omega)] <;> rfl

theorem KC1_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC1 x0 x1 x2 x3 x4 x5 x6 x7 x8 x9 x10 (ix2 p q) = (stackAt x0 x1 x2 x3 x4 x5 x6 x7 x8 x9 x10 p 1).2 q := by
  unfold KC1
  rw [layerC_apply]
  simp only [KH0_apply, View.ld, idx_slab3 (A := 8) (B := 256) (C := 256) 1 (by omega) inb_S8x256x256_S1x256x256_1_0_0, idx_slab3 (A := 7) (B := 1024) (C := 256) 0 (by omega) inb_S7x1024x256_S1x1024x256_0_0_0, idx_slab2 (A := 7) (B := 1024) 0 (by omega) inb_S7x1024_S1x1024_0_0]
  unfold stackAt
  rw [stackRow_succ _ _ _ _ _ _ _ _ _ _ _ 0 (by omega)] <;> rfl

theorem KH2_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH2 x0 x1 x2 x3 x4 x5 x6 x7 x8 x9 x10 (ix2 p q) = (stackAt x0 x1 x2 x3 x4 x5 x6 x7 x8 x9 x10 p 2).1 q := by
  unfold KH2
  rw [layerH_apply]
  simp only [KH1_apply, View.ld, idx_slab3 (A := 8) (B := 256) (C := 256) 2 (by omega) inb_S8x256x256_S1x256x256_2_0_0, idx_slab3 (A := 7) (B := 1024) (C := 256) 1 (by omega) inb_S7x1024x256_S1x1024x256_1_0_0, idx_slab2 (A := 7) (B := 1024) 1 (by omega) inb_S7x1024_S1x1024_1_0]
  unfold stackAt
  rw [stackRow_succ _ _ _ _ _ _ _ _ _ _ _ 1 (by omega)] <;> rfl

theorem KC2_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC2 x0 x1 x2 x3 x4 x5 x6 x7 x8 x9 x10 (ix2 p q) = (stackAt x0 x1 x2 x3 x4 x5 x6 x7 x8 x9 x10 p 2).2 q := by
  unfold KC2
  rw [layerC_apply]
  simp only [KH1_apply, View.ld, idx_slab3 (A := 8) (B := 256) (C := 256) 2 (by omega) inb_S8x256x256_S1x256x256_2_0_0, idx_slab3 (A := 7) (B := 1024) (C := 256) 1 (by omega) inb_S7x1024x256_S1x1024x256_1_0_0, idx_slab2 (A := 7) (B := 1024) 1 (by omega) inb_S7x1024_S1x1024_1_0]
  unfold stackAt
  rw [stackRow_succ _ _ _ _ _ _ _ _ _ _ _ 1 (by omega)] <;> rfl

theorem KH3_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH3 x0 x1 x2 x3 x4 x5 x6 x7 x8 x9 x10 (ix2 p q) = (stackAt x0 x1 x2 x3 x4 x5 x6 x7 x8 x9 x10 p 3).1 q := by
  unfold KH3
  rw [layerH_apply]
  simp only [KH2_apply, View.ld, idx_slab3 (A := 8) (B := 256) (C := 256) 3 (by omega) inb_S8x256x256_S1x256x256_3_0_0, idx_slab3 (A := 7) (B := 1024) (C := 256) 2 (by omega) inb_S7x1024x256_S1x1024x256_2_0_0, idx_slab2 (A := 7) (B := 1024) 2 (by omega) inb_S7x1024_S1x1024_2_0]
  unfold stackAt
  rw [stackRow_succ _ _ _ _ _ _ _ _ _ _ _ 2 (by omega)] <;> rfl

theorem KC3_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC3 x0 x1 x2 x3 x4 x5 x6 x7 x8 x9 x10 (ix2 p q) = (stackAt x0 x1 x2 x3 x4 x5 x6 x7 x8 x9 x10 p 3).2 q := by
  unfold KC3
  rw [layerC_apply]
  simp only [KH2_apply, View.ld, idx_slab3 (A := 8) (B := 256) (C := 256) 3 (by omega) inb_S8x256x256_S1x256x256_3_0_0, idx_slab3 (A := 7) (B := 1024) (C := 256) 2 (by omega) inb_S7x1024x256_S1x1024x256_2_0_0, idx_slab2 (A := 7) (B := 1024) 2 (by omega) inb_S7x1024_S1x1024_2_0]
  unfold stackAt
  rw [stackRow_succ _ _ _ _ _ _ _ _ _ _ _ 2 (by omega)] <;> rfl

theorem KH4_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH4 x0 x1 x2 x3 x4 x5 x6 x7 x8 x9 x10 (ix2 p q) = (stackAt x0 x1 x2 x3 x4 x5 x6 x7 x8 x9 x10 p 4).1 q := by
  unfold KH4
  rw [layerH_apply]
  simp only [KH3_apply, View.ld, idx_slab3 (A := 8) (B := 256) (C := 256) 4 (by omega) inb_S8x256x256_S1x256x256_4_0_0, idx_slab3 (A := 7) (B := 1024) (C := 256) 3 (by omega) inb_S7x1024x256_S1x1024x256_3_0_0, idx_slab2 (A := 7) (B := 1024) 3 (by omega) inb_S7x1024_S1x1024_3_0]
  unfold stackAt
  rw [stackRow_succ _ _ _ _ _ _ _ _ _ _ _ 3 (by omega)] <;> rfl

theorem KC4_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC4 x0 x1 x2 x3 x4 x5 x6 x7 x8 x9 x10 (ix2 p q) = (stackAt x0 x1 x2 x3 x4 x5 x6 x7 x8 x9 x10 p 4).2 q := by
  unfold KC4
  rw [layerC_apply]
  simp only [KH3_apply, View.ld, idx_slab3 (A := 8) (B := 256) (C := 256) 4 (by omega) inb_S8x256x256_S1x256x256_4_0_0, idx_slab3 (A := 7) (B := 1024) (C := 256) 3 (by omega) inb_S7x1024x256_S1x1024x256_3_0_0, idx_slab2 (A := 7) (B := 1024) 3 (by omega) inb_S7x1024_S1x1024_3_0]
  unfold stackAt
  rw [stackRow_succ _ _ _ _ _ _ _ _ _ _ _ 3 (by omega)] <;> rfl

theorem KH5_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH5 x0 x1 x2 x3 x4 x5 x6 x7 x8 x9 x10 (ix2 p q) = (stackAt x0 x1 x2 x3 x4 x5 x6 x7 x8 x9 x10 p 5).1 q := by
  unfold KH5
  rw [layerH_apply]
  simp only [KH4_apply, View.ld, idx_slab3 (A := 8) (B := 256) (C := 256) 5 (by omega) inb_S8x256x256_S1x256x256_5_0_0, idx_slab3 (A := 7) (B := 1024) (C := 256) 4 (by omega) inb_S7x1024x256_S1x1024x256_4_0_0, idx_slab2 (A := 7) (B := 1024) 4 (by omega) inb_S7x1024_S1x1024_4_0]
  unfold stackAt
  rw [stackRow_succ _ _ _ _ _ _ _ _ _ _ _ 4 (by omega)] <;> rfl

theorem KC5_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC5 x0 x1 x2 x3 x4 x5 x6 x7 x8 x9 x10 (ix2 p q) = (stackAt x0 x1 x2 x3 x4 x5 x6 x7 x8 x9 x10 p 5).2 q := by
  unfold KC5
  rw [layerC_apply]
  simp only [KH4_apply, View.ld, idx_slab3 (A := 8) (B := 256) (C := 256) 5 (by omega) inb_S8x256x256_S1x256x256_5_0_0, idx_slab3 (A := 7) (B := 1024) (C := 256) 4 (by omega) inb_S7x1024x256_S1x1024x256_4_0_0, idx_slab2 (A := 7) (B := 1024) 4 (by omega) inb_S7x1024_S1x1024_4_0]
  unfold stackAt
  rw [stackRow_succ _ _ _ _ _ _ _ _ _ _ _ 4 (by omega)] <;> rfl

theorem KH6_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH6 x0 x1 x2 x3 x4 x5 x6 x7 x8 x9 x10 (ix2 p q) = (stackAt x0 x1 x2 x3 x4 x5 x6 x7 x8 x9 x10 p 6).1 q := by
  unfold KH6
  rw [layerH_apply]
  simp only [KH5_apply, View.ld, idx_slab3 (A := 8) (B := 256) (C := 256) 6 (by omega) inb_S8x256x256_S1x256x256_6_0_0, idx_slab3 (A := 7) (B := 1024) (C := 256) 5 (by omega) inb_S7x1024x256_S1x1024x256_5_0_0, idx_slab2 (A := 7) (B := 1024) 5 (by omega) inb_S7x1024_S1x1024_5_0]
  unfold stackAt
  rw [stackRow_succ _ _ _ _ _ _ _ _ _ _ _ 5 (by omega)] <;> rfl

theorem KC6_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC6 x0 x1 x2 x3 x4 x5 x6 x7 x8 x9 x10 (ix2 p q) = (stackAt x0 x1 x2 x3 x4 x5 x6 x7 x8 x9 x10 p 6).2 q := by
  unfold KC6
  rw [layerC_apply]
  simp only [KH5_apply, View.ld, idx_slab3 (A := 8) (B := 256) (C := 256) 6 (by omega) inb_S8x256x256_S1x256x256_6_0_0, idx_slab3 (A := 7) (B := 1024) (C := 256) 5 (by omega) inb_S7x1024x256_S1x1024x256_5_0_0, idx_slab2 (A := 7) (B := 1024) 5 (by omega) inb_S7x1024_S1x1024_5_0]
  unfold stackAt
  rw [stackRow_succ _ _ _ _ _ _ _ _ _ _ _ 5 (by omega)] <;> rfl

theorem KH7_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KH7 x0 x1 x2 x3 x4 x5 x6 x7 x8 x9 x10 (ix2 p q) = (stackAt x0 x1 x2 x3 x4 x5 x6 x7 x8 x9 x10 p 7).1 q := by
  unfold KH7
  rw [layerH_apply]
  simp only [KH6_apply, View.ld, idx_slab3 (A := 8) (B := 256) (C := 256) 7 (by omega) inb_S8x256x256_S1x256x256_7_0_0, idx_slab3 (A := 7) (B := 1024) (C := 256) 6 (by omega) inb_S7x1024x256_S1x1024x256_6_0_0, idx_slab2 (A := 7) (B := 1024) 6 (by omega) inb_S7x1024_S1x1024_6_0]
  unfold stackAt
  rw [stackRow_succ _ _ _ _ _ _ _ _ _ _ _ 6 (by omega)] <;> rfl

theorem KC7_apply (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (p q : Fin 256) :
    KC7 x0 x1 x2 x3 x4 x5 x6 x7 x8 x9 x10 (ix2 p q) = (stackAt x0 x1 x2 x3 x4 x5 x6 x7 x8 x9 x10 p 7).2 q := by
  unfold KC7
  rw [layerC_apply]
  simp only [KH6_apply, View.ld, idx_slab3 (A := 8) (B := 256) (C := 256) 7 (by omega) inb_S8x256x256_S1x256x256_7_0_0, idx_slab3 (A := 7) (B := 1024) (C := 256) 6 (by omega) inb_S7x1024x256_S1x1024x256_6_0_0, idx_slab2 (A := 7) (B := 1024) 6 (by omega) inb_S7x1024_S1x1024_6_0]
  unfold stackAt
  rw [stackRow_succ _ _ _ _ _ _ _ _ _ _ _ 6 (by omega)] <;> rfl

/-! ## The blocks the body leaves -/

/-- The stacked-hidden-state window's block after the body is the specification read off the point's blocks. -/
theorem out14_spec (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (x11 : Vec Ideal S256x256 .bf16) (x12 : Vec Ideal S256 .f32) :
    out0_14 x0 x1 x2 x3 x4 x5 x6 x7 x8 x9 x10 x11 x12 = hsSpec x0 x1 x2 x3 x4 x5 x6 x7 x8 x9 x10 := by
  rw [out14_eq]
  funext y
  refine View.canon_apply_of_pieces (Val := Elt Ideal) (hsSpec x0 x1 x2 x3 x4 x5 x6 x7 x8 x9 x10) _ (List.forall_iff_forall_mem.mp ?_) y (cover0_14 _ _ _ _ _ _ _ _ y)
  simp only [List.Forall]
  refine ⟨?_, ?_, ?_, ?_, ?_, ?_, ?_, ?_⟩
  · intro x
    obtain ⟨u, p, q, rfl⟩ : ∃ (u : Fin 1) (p q : Fin 256), x = ix3 u p q := ⟨x 0, x 1, x 2, eq_ix3 x⟩
    show shapeCast S1x256x256 (KH7 x0 x1 x2 x3 x4 x5 x6 x7 x8 x9 x10) _ (ix3 u p q) = hsSpec x0 x1 x2 x3 x4 x5 x6 x7 x8 x9 x10 (r0_22.idx (ix3 u p q))
    rw [shapeCast_ab_1ab_apply, KH7_apply, idx_slab3 (A := 8) (B := 256) (C := 256) 7 (by omega) inb_S8x256x256_S1x256x256_7_0_0]
    rfl
  · intro x
    obtain ⟨u, p, q, rfl⟩ : ∃ (u : Fin 1) (p q : Fin 256), x = ix3 u p q := ⟨x 0, x 1, x 2, eq_ix3 x⟩
    show shapeCast S1x256x256 (KH6 x0 x1 x2 x3 x4 x5 x6 x7 x8 x9 x10) _ (ix3 u p q) = hsSpec x0 x1 x2 x3 x4 x5 x6 x7 x8 x9 x10 (r0_19.idx (ix3 u p q))
    rw [shapeCast_ab_1ab_apply, KH6_apply, idx_slab3 (A := 8) (B := 256) (C := 256) 6 (by omega) inb_S8x256x256_S1x256x256_6_0_0]
    rfl
  · intro x
    obtain ⟨u, p, q, rfl⟩ : ∃ (u : Fin 1) (p q : Fin 256), x = ix3 u p q := ⟨x 0, x 1, x 2, eq_ix3 x⟩
    show shapeCast S1x256x256 (KH5 x0 x1 x2 x3 x4 x5 x6 x7 x8 x9 x10) _ (ix3 u p q) = hsSpec x0 x1 x2 x3 x4 x5 x6 x7 x8 x9 x10 (r0_16.idx (ix3 u p q))
    rw [shapeCast_ab_1ab_apply, KH5_apply, idx_slab3 (A := 8) (B := 256) (C := 256) 5 (by omega) inb_S8x256x256_S1x256x256_5_0_0]
    rfl
  · intro x
    obtain ⟨u, p, q, rfl⟩ : ∃ (u : Fin 1) (p q : Fin 256), x = ix3 u p q := ⟨x 0, x 1, x 2, eq_ix3 x⟩
    show shapeCast S1x256x256 (KH4 x0 x1 x2 x3 x4 x5 x6 x7 x8 x9 x10) _ (ix3 u p q) = hsSpec x0 x1 x2 x3 x4 x5 x6 x7 x8 x9 x10 (r0_13.idx (ix3 u p q))
    rw [shapeCast_ab_1ab_apply, KH4_apply, idx_slab3 (A := 8) (B := 256) (C := 256) 4 (by omega) inb_S8x256x256_S1x256x256_4_0_0]
    rfl
  · intro x
    obtain ⟨u, p, q, rfl⟩ : ∃ (u : Fin 1) (p q : Fin 256), x = ix3 u p q := ⟨x 0, x 1, x 2, eq_ix3 x⟩
    show shapeCast S1x256x256 (KH3 x0 x1 x2 x3 x4 x5 x6 x7 x8 x9 x10) _ (ix3 u p q) = hsSpec x0 x1 x2 x3 x4 x5 x6 x7 x8 x9 x10 (r0_10.idx (ix3 u p q))
    rw [shapeCast_ab_1ab_apply, KH3_apply, idx_slab3 (A := 8) (B := 256) (C := 256) 3 (by omega) inb_S8x256x256_S1x256x256_3_0_0]
    rfl
  · intro x
    obtain ⟨u, p, q, rfl⟩ : ∃ (u : Fin 1) (p q : Fin 256), x = ix3 u p q := ⟨x 0, x 1, x 2, eq_ix3 x⟩
    show shapeCast S1x256x256 (KH2 x0 x1 x2 x3 x4 x5 x6 x7 x8 x9 x10) _ (ix3 u p q) = hsSpec x0 x1 x2 x3 x4 x5 x6 x7 x8 x9 x10 (r0_7.idx (ix3 u p q))
    rw [shapeCast_ab_1ab_apply, KH2_apply, idx_slab3 (A := 8) (B := 256) (C := 256) 2 (by omega) inb_S8x256x256_S1x256x256_2_0_0]
    rfl
  · intro x
    obtain ⟨u, p, q, rfl⟩ : ∃ (u : Fin 1) (p q : Fin 256), x = ix3 u p q := ⟨x 0, x 1, x 2, eq_ix3 x⟩
    show shapeCast S1x256x256 (KH1 x0 x1 x2 x3 x4 x5 x6 x7 x8 x9 x10) _ (ix3 u p q) = hsSpec x0 x1 x2 x3 x4 x5 x6 x7 x8 x9 x10 (r0_4.idx (ix3 u p q))
    rw [shapeCast_ab_1ab_apply, KH1_apply, idx_slab3 (A := 8) (B := 256) (C := 256) 1 (by omega) inb_S8x256x256_S1x256x256_1_0_0]
    rfl
  · intro x
    obtain ⟨u, p, q, rfl⟩ : ∃ (u : Fin 1) (p q : Fin 256), x = ix3 u p q := ⟨x 0, x 1, x 2, eq_ix3 x⟩
    show shapeCast S1x256x256 (KH0 x0 x1 x2 x3 x4 x5 x6 x7 x8 x9 x10) _ (ix3 u p q) = hsSpec x0 x1 x2 x3 x4 x5 x6 x7 x8 x9 x10 (r0_1.idx (ix3 u p q))
    rw [shapeCast_ab_1ab_apply, KH0_apply, idx_slab3 (A := 8) (B := 256) (C := 256) 0 (by omega) inb_S8x256x256_S1x256x256_0_0_0]
    rfl

/-- The stacked-cell-state window's block after the body is the specification read off the point's blocks. -/
theorem out15_spec (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (x11 : Vec Ideal S256x256 .bf16) (x12 : Vec Ideal S256 .f32) :
    out0_15 x0 x1 x2 x3 x4 x5 x6 x7 x8 x9 x10 x11 x12 = csSpec x0 x1 x2 x3 x4 x5 x6 x7 x8 x9 x10 := by
  rw [out15_eq]
  funext y
  refine View.canon_apply_of_pieces (Val := Elt Ideal) (csSpec x0 x1 x2 x3 x4 x5 x6 x7 x8 x9 x10) _ (List.forall_iff_forall_mem.mp ?_) y (cover0_15 _ _ _ _ _ _ _ _ y)
  simp only [List.Forall]
  refine ⟨?_, ?_, ?_, ?_, ?_, ?_, ?_, ?_⟩
  · intro x
    obtain ⟨u, p, q, rfl⟩ : ∃ (u : Fin 1) (p q : Fin 256), x = ix3 u p q := ⟨x 0, x 1, x 2, eq_ix3 x⟩
    show shapeCast S1x256x256 (KC7 x0 x1 x2 x3 x4 x5 x6 x7 x8 x9 x10) _ (ix3 u p q) = csSpec x0 x1 x2 x3 x4 x5 x6 x7 x8 x9 x10 (r0_22.idx (ix3 u p q))
    rw [shapeCast_ab_1ab_apply, KC7_apply, idx_slab3 (A := 8) (B := 256) (C := 256) 7 (by omega) inb_S8x256x256_S1x256x256_7_0_0]
    rfl
  · intro x
    obtain ⟨u, p, q, rfl⟩ : ∃ (u : Fin 1) (p q : Fin 256), x = ix3 u p q := ⟨x 0, x 1, x 2, eq_ix3 x⟩
    show shapeCast S1x256x256 (KC6 x0 x1 x2 x3 x4 x5 x6 x7 x8 x9 x10) _ (ix3 u p q) = csSpec x0 x1 x2 x3 x4 x5 x6 x7 x8 x9 x10 (r0_19.idx (ix3 u p q))
    rw [shapeCast_ab_1ab_apply, KC6_apply, idx_slab3 (A := 8) (B := 256) (C := 256) 6 (by omega) inb_S8x256x256_S1x256x256_6_0_0]
    rfl
  · intro x
    obtain ⟨u, p, q, rfl⟩ : ∃ (u : Fin 1) (p q : Fin 256), x = ix3 u p q := ⟨x 0, x 1, x 2, eq_ix3 x⟩
    show shapeCast S1x256x256 (KC5 x0 x1 x2 x3 x4 x5 x6 x7 x8 x9 x10) _ (ix3 u p q) = csSpec x0 x1 x2 x3 x4 x5 x6 x7 x8 x9 x10 (r0_16.idx (ix3 u p q))
    rw [shapeCast_ab_1ab_apply, KC5_apply, idx_slab3 (A := 8) (B := 256) (C := 256) 5 (by omega) inb_S8x256x256_S1x256x256_5_0_0]
    rfl
  · intro x
    obtain ⟨u, p, q, rfl⟩ : ∃ (u : Fin 1) (p q : Fin 256), x = ix3 u p q := ⟨x 0, x 1, x 2, eq_ix3 x⟩
    show shapeCast S1x256x256 (KC4 x0 x1 x2 x3 x4 x5 x6 x7 x8 x9 x10) _ (ix3 u p q) = csSpec x0 x1 x2 x3 x4 x5 x6 x7 x8 x9 x10 (r0_13.idx (ix3 u p q))
    rw [shapeCast_ab_1ab_apply, KC4_apply, idx_slab3 (A := 8) (B := 256) (C := 256) 4 (by omega) inb_S8x256x256_S1x256x256_4_0_0]
    rfl
  · intro x
    obtain ⟨u, p, q, rfl⟩ : ∃ (u : Fin 1) (p q : Fin 256), x = ix3 u p q := ⟨x 0, x 1, x 2, eq_ix3 x⟩
    show shapeCast S1x256x256 (KC3 x0 x1 x2 x3 x4 x5 x6 x7 x8 x9 x10) _ (ix3 u p q) = csSpec x0 x1 x2 x3 x4 x5 x6 x7 x8 x9 x10 (r0_10.idx (ix3 u p q))
    rw [shapeCast_ab_1ab_apply, KC3_apply, idx_slab3 (A := 8) (B := 256) (C := 256) 3 (by omega) inb_S8x256x256_S1x256x256_3_0_0]
    rfl
  · intro x
    obtain ⟨u, p, q, rfl⟩ : ∃ (u : Fin 1) (p q : Fin 256), x = ix3 u p q := ⟨x 0, x 1, x 2, eq_ix3 x⟩
    show shapeCast S1x256x256 (KC2 x0 x1 x2 x3 x4 x5 x6 x7 x8 x9 x10) _ (ix3 u p q) = csSpec x0 x1 x2 x3 x4 x5 x6 x7 x8 x9 x10 (r0_7.idx (ix3 u p q))
    rw [shapeCast_ab_1ab_apply, KC2_apply, idx_slab3 (A := 8) (B := 256) (C := 256) 2 (by omega) inb_S8x256x256_S1x256x256_2_0_0]
    rfl
  · intro x
    obtain ⟨u, p, q, rfl⟩ : ∃ (u : Fin 1) (p q : Fin 256), x = ix3 u p q := ⟨x 0, x 1, x 2, eq_ix3 x⟩
    show shapeCast S1x256x256 (KC1 x0 x1 x2 x3 x4 x5 x6 x7 x8 x9 x10) _ (ix3 u p q) = csSpec x0 x1 x2 x3 x4 x5 x6 x7 x8 x9 x10 (r0_4.idx (ix3 u p q))
    rw [shapeCast_ab_1ab_apply, KC1_apply, idx_slab3 (A := 8) (B := 256) (C := 256) 1 (by omega) inb_S8x256x256_S1x256x256_1_0_0]
    rfl
  · intro x
    obtain ⟨u, p, q, rfl⟩ : ∃ (u : Fin 1) (p q : Fin 256), x = ix3 u p q := ⟨x 0, x 1, x 2, eq_ix3 x⟩
    show shapeCast S1x256x256 (KC0 x0 x1 x2 x3 x4 x5 x6 x7 x8 x9 x10) _ (ix3 u p q) = csSpec x0 x1 x2 x3 x4 x5 x6 x7 x8 x9 x10 (r0_1.idx (ix3 u p q))
    rw [shapeCast_ab_1ab_apply, KC0_apply, idx_slab3 (A := 8) (B := 256) (C := 256) 0 (by omega) inb_S8x256x256_S1x256x256_0_0_0]
    rfl

/-- The output window's block after the body is the specification read off the point's blocks. -/
theorem out13_spec (x0 : Vec Ideal S256x256 .f32) (x1 x2 : Vec Ideal S8x256x256 .f32) (x3 x4 : Vec Ideal S1024x256 .bf16) (x5 x6 : Vec Ideal S1024 .f32) (x7 x8 : Vec Ideal S7x1024x256 .bf16) (x9 x10 : Vec Ideal S7x1024 .f32) (x11 : Vec Ideal S256x256 .bf16) (x12 : Vec Ideal S256 .f32) :
    out0_13 x0 x1 x2 x3 x4 x5 x6 x7 x8 x9 x10 x11 x12 = outSpec x0 x1 x2 x3 x4 x5 x6 x7 x8 x9 x10 x11 x12 := by
  rw [out13_eq, View.canon_unit_zero hz2]
  funext y
  obtain ⟨p, j, rfl⟩ : ∃ (p j : Fin 256), y = ix2 p j := ⟨y 0, y 1, eq_ix2 y⟩
  rw [projW_apply, View.ld_unit_zero (Val := Elt Ideal) (S := S256x256) hz2 _ x11, View.ld_unit_zero (Val := Elt Ideal) (S := S256) hz1 _ x12]
  simp only [KH7_apply]
  rfl

end Cert.KernelIdeal.Layers

end
-- ==== Proof.KArray.lean ====
/-
  From blocks to arrays: the kernel's three results as functions of the arguments.

  The grid has 64 points; point `t` works on batch rows `256 t … 256 t + 255`.  The input windows over the batch
  (the input, the stacked hidden and cell states) move with `t` along the batch axis; the weight and bias windows
  stay put.  So row `p` of point `t`'s blocks is row `256 t + p` of the arrays, what the point writes back is its
  block of the specification, and the 64 blocks cover each result array.  The bf16 weight arrays the region finds
  are the arguments themselves on the extended reals (a change of float format is the identity there).
-/
import proofs.«181826_j46385646796958_2_alg».proof.Proof.Gen.KernelIdeal.Value
import proofs.«181826_j46385646796958_2_alg».proof.Proof.KRows
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Layers Idealize.ShloMosaic Idealize.ShloMosaic.TcCoe
open Idealize.ShloMosaic.ValueIdx Idealize.SL.Sem Cert.Lstm
open Idealize.ShloMosaic.Pipeline (Dat)

variable (m : (ℓ : Loc nD τ sig) → Buf (Elt Ideal) ℓ) (ρ : Dev nD → PrngReg)

/-! ## The printed index maps, decided once over the 64 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 3) = 0 ∧ win0_14.index t (1 : Fin 3) = t.val ∧ win0_14.index t (2 : Fin 3) = 0 :=
  (by decide +kernel : ∀ t : Fin grid0.N, _)
theorem idx15 : ∀ t : Fin cfg0.N, win0_15.index t (0 : Fin 3) = 0 ∧ win0_15.index t (1 : Fin 3) = t.val ∧ win0_15.index t (2 : Fin 3) = 0 :=
  (by decide +kernel : ∀ t : Fin grid0.N, _)

/-- Batch row `p` of point `t`'s blocks is batch row `256 t + p` of the arrays. -/
def row (t : Fin cfg0.N) (p : Fin 256) : Fin 16384 :=
  ⟨256 * t.val + p.val, by have h : t.val < cfg0.N := t.isLt; have hN : cfg0.N = 64 := N_0; have := p.isLt; omega⟩

/-! ## Each input window's block, read at coordinates -/

theorem blk0 (c : Dev nD) (t : Fin cfg0.N) (i : Fin 256) (j : Fin 256) :
    iblk m c 0 t (ix2 i j) = V m c main_arg0 (ix2 (row t i) j) := by
  obtain ⟨e0, e1⟩ := idx0 t
  show V m c main_arg0 (((cfg0.win 0).blk t).view.emb (ix2 i j)) = _
  refine congrArg (V m c main_arg0) (funext fun a => Fin.ext ?_)
  match a with
  | ⟨0, _⟩ => show win0_0.index t (0 : Fin 2) * 256 + 1 * i.val = 256 * t.val + i.val; rw [e0]; omega
  | ⟨1, _⟩ => show win0_0.index t (1 : Fin 2) * 256 + 1 * j.val = j.val; rw [e1]; omega

theorem blk1 (c : Dev nD) (t : Fin cfg0.N) (l : Fin 8) (i : Fin 256) (j : Fin 256) :
    iblk m c 1 t (ix3 l i j) = V m c main_arg1 (ix3 l (row t i) j) := by
  obtain ⟨e0, e1, e2⟩ := idx1 t
  show V m c main_arg1 (((cfg0.win 1).blk t).view.emb (ix3 l i j)) = _
  refine congrArg (V m c main_arg1) (funext fun a => Fin.ext ?_)
  match a with
  | ⟨0, _⟩ => show win0_1.index t (0 : Fin 3) * 8 + 1 * l.val = l.val; rw [e0]; omega
  | ⟨1, _⟩ => show win0_1.index t (1 : Fin 3) * 256 + 1 * i.val = 256 * t.val + i.val; rw [e1]; omega
  | ⟨2, _⟩ => show win0_1.index t (2 : Fin 3) * 256 + 1 * j.val = j.val; rw [e2]; omega

theorem blk2 (c : Dev nD) (t : Fin cfg0.N) (l : Fin 8) (i : Fin 256) (j : Fin 256) :
    iblk m c 2 t (ix3 l i j) = V m c main_arg2 (ix3 l (row t i) j) := by
  obtain ⟨e0, e1, e2⟩ := idx2 t
  show V m c main_arg2 (((cfg0.win 2).blk t).view.emb (ix3 l i j)) = _
  refine congrArg (V m c main_arg2) (funext fun a => Fin.ext ?_)
  match a with
  | ⟨0, _⟩ => show win0_2.index t (0 : Fin 3) * 8 + 1 * l.val = l.val; rw [e0]; omega
  | ⟨1, _⟩ => show win0_2.index t (1 : Fin 3) * 256 + 1 * i.val = 256 * t.val + i.val; rw [e1]; omega
  | ⟨2, _⟩ => show win0_2.index t (2 : Fin 3) * 256 + 1 * j.val = j.val; rw [e2]; omega

theorem blk3 (c : Dev nD) (t : Fin cfg0.N) (i : Fin 1024) (j : Fin 256) :
    iblk m c 3 t (ix2 i j) = V m c main_call0_v0 (ix2 i j) := by
  obtain ⟨e0, e1⟩ := idx3 t
  show V m c main_call0_v0 (((cfg0.win 3).blk t).view.emb (ix2 i j)) = _
  refine congrArg (V m c main_call0_v0) (funext fun a => Fin.ext ?_)
  match a with
  | ⟨0, _⟩ => show win0_3.index t (0 : Fin 2) * 1024 + 1 * i.val = i.val; rw [e0]; omega
  | ⟨1, _⟩ => show win0_3.index t (1 : Fin 2) * 256 + 1 * j.val = j.val; rw [e1]; omega

theorem blk4 (c : Dev nD) (t : Fin cfg0.N) (i : Fin 1024) (j : Fin 256) :
    iblk m c 4 t (ix2 i j) = V m c main_call0_v1 (ix2 i j) := by
  obtain ⟨e0, e1⟩ := idx4 t
  show V m c main_call0_v1 (((cfg0.win 4).blk t).view.emb (ix2 i j)) = _
  refine congrArg (V m c main_call0_v1) (funext fun a => Fin.ext ?_)
  match a with
  | ⟨0, _⟩ => show win0_4.index t (0 : Fin 2) * 1024 + 1 * i.val = i.val; rw [e0]; omega
  | ⟨1, _⟩ => show win0_4.index t (1 : Fin 2) * 256 + 1 * j.val = j.val; rw [e1]; omega

theorem blk5 (c : Dev nD) (t : Fin cfg0.N) (j : Fin 1024) :
    iblk m c 5 t (ix1 j) = V m c main_arg5 (ix1 j) := by
  have e0 := idx5 t
  show V m c main_arg5 (((cfg0.win 5).blk t).view.emb (ix1 j)) = _
  refine congrArg (V m c main_arg5) (funext fun a => Fin.ext ?_)
  match a with
  | ⟨0, _⟩ => show win0_5.index t (0 : Fin 1) * 1024 + 1 * j.val = j.val; rw [e0]; omega

theorem blk6 (c : Dev nD) (t : Fin cfg0.N) (j : Fin 1024) :
    iblk m c 6 t (ix1 j) = V m c main_arg6 (ix1 j) := by
  have e0 := idx6 t
  show V m c main_arg6 (((cfg0.win 6).blk t).view.emb (ix1 j)) = _
  refine congrArg (V m c main_arg6) (funext fun a => Fin.ext ?_)
  match a with
  | ⟨0, _⟩ => show win0_6.index t (0 : Fin 1) * 1024 + 1 * j.val = j.val; rw [e0]; omega

theorem blk7 (c : Dev nD) (t : Fin cfg0.N) (l : Fin 7) (i : Fin 1024) (j : Fin 256) :
    iblk m c 7 t (ix3 l i j) = V m c main_call0_v2 (ix3 l i j) := by
  obtain ⟨e0, e1, e2⟩ := idx7 t
  show V m c main_call0_v2 (((cfg0.win 7).blk t).view.emb (ix3 l i j)) = _
  refine congrArg (V m c main_call0_v2) (funext fun a => Fin.ext ?_)
  match a with
  | ⟨0, _⟩ => show win0_7.index t (0 : Fin 3) * 7 + 1 * l.val = l.val; rw [e0]; omega
  | ⟨1, _⟩ => show win0_7.index t (1 : Fin 3) * 1024 + 1 * i.val = i.val; rw [e1]; omega
  | ⟨2, _⟩ => show win0_7.index t (2 : Fin 3) * 256 + 1 * j.val = j.val; rw [e2]; omega

theorem blk8 (c : Dev nD) (t : Fin cfg0.N) (l : Fin 7) (i : Fin 1024) (j : Fin 256) :
    iblk m c 8 t (ix3 l i j) = V m c main_call0_v3 (ix3 l i j) := by
  obtain ⟨e0, e1, e2⟩ := idx8 t
  show V m c main_call0_v3 (((cfg0.win 8).blk t).view.emb (ix3 l i j)) = _
  refine congrArg (V m c main_call0_v3) (funext fun a => Fin.ext ?_)
  match a with
  | ⟨0, _⟩ => show win0_8.index t (0 : Fin 3) * 7 + 1 * l.val = l.val; rw [e0]; omega
  | ⟨1, _⟩ => show win0_8.index t (1 : Fin 3) * 1024 + 1 * i.val = i.val; rw [e1]; omega
  | ⟨2, _⟩ => show win0_8.index t (2 : Fin 3) * 256 + 1 * j.val = j.val; rw [e2]; omega

theorem blk9 (c : Dev nD) (t : Fin cfg0.N) (i : Fin 7) (j : Fin 1024) :
    iblk m c 9 t (ix2 i j) = V m c main_arg9 (ix2 i j) := by
  obtain ⟨e0, e1⟩ := idx9 t
  show V m c main_arg9 (((cfg0.win 9).blk t).view.emb (ix2 i j)) = _
  refine congrArg (V m c main_arg9) (funext fun a => Fin.ext ?_)
  match a with
  | ⟨0, _⟩ => show win0_9.index t (0 : Fin 2) * 7 + 1 * i.val = i.val; rw [e0]; omega
  | ⟨1, _⟩ => show win0_9.index t (1 : Fin 2) * 1024 + 1 * j.val = j.val; rw [e1]; omega

theorem blk10 (c : Dev nD) (t : Fin cfg0.N) (i : Fin 7) (j : Fin 1024) :
    iblk m c 10 t (ix2 i j) = V m c main_arg10 (ix2 i j) := by
  obtain ⟨e0, e1⟩ := idx10 t
  show V m c main_arg10 (((cfg0.win 10).blk t).view.emb (ix2 i j)) = _
  refine congrArg (V m c main_arg10) (funext fun a => Fin.ext ?_)
  match a with
  | ⟨0, _⟩ => show win0_10.index t (0 : Fin 2) * 7 + 1 * i.val = i.val; rw [e0]; omega
  | ⟨1, _⟩ => show win0_10.index t (1 : Fin 2) * 1024 + 1 * j.val = j.val; rw [e1]; omega

theorem blk11 (c : Dev nD) (t : Fin cfg0.N) (i : Fin 256) (j : Fin 256) :
    iblk m c 11 t (ix2 i j) = V m c main_call0_v4 (ix2 i j) := by
  obtain ⟨e0, e1⟩ := idx11 t
  show V m c main_call0_v4 (((cfg0.win 11).blk t).view.emb (ix2 i j)) = _
  refine congrArg (V m c main_call0_v4) (funext fun a => Fin.ext ?_)
  match a with
  | ⟨0, _⟩ => show win0_11.index t (0 : Fin 2) * 256 + 1 * i.val = i.val; rw [e0]; omega
  | ⟨1, _⟩ => show win0_11.index t (1 : Fin 2) * 256 + 1 * j.val = j.val; rw [e1]; omega

theorem blk12 (c : Dev nD) (t : Fin cfg0.N) (j : Fin 256) :
    iblk m c 12 t (ix1 j) = V m c main_arg12 (ix1 j) := by
  have e0 := idx12 t
  show V m c main_arg12 (((cfg0.win 12).blk t).view.emb (ix1 j)) = _
  refine congrArg (V m c main_arg12) (funext fun a => Fin.ext ?_)
  match a with
  | ⟨0, _⟩ => show win0_12.index t (0 : Fin 1) * 256 + 1 * j.val = j.val; rw [e0]; omega

/-- The stack of cells on row `p` of point `t`'s blocks is the stack on row `256 t + p` of the arrays. -/
theorem stack_blk (c : Dev nD) (t : Fin cfg0.N) (p : Fin 256) :
    stackAt (iblk m c 0 t) (iblk m c 1 t) (iblk m c 2 t) (iblk m c 3 t) (iblk m c 4 t) (iblk m c 5 t) (iblk m c 6 t) (iblk m c 7 t) (iblk m c 8 t) (iblk m c 9 t) (iblk m c 10 t) p = stackAt (V m c main_arg0) (V m c main_arg1) (V m c main_arg2) (V m c main_call0_v0) (V m c main_call0_v1) (V m c main_arg5) (V m c main_arg6) (V m c main_call0_v2) (V m c main_call0_v3) (V m c main_arg9) (V m c main_arg10) (row t p) := by
  unfold stackAt
  simp only [blk0 m c t, blk1 m c t, blk2 m c t, blk3 m c t, blk4 m c t, blk5 m c t, blk6 m c t, blk7 m c t, blk8 m c t,
    blk9 m c t, blk10 m c t]

/-! ## Output window 13 -/

/-- What point `t` writes back to window 13 is block `t` of the specification of the arrays as the region finds them. -/
theorem flushed13_eq (c : Dev nD) (t : Fin cfg0.N) :
    (dats m 0 c).flushed 13 t = ((cfg0.win 13).blk t).view.read (Elt Ideal) (outSpec (V m c main_arg0) (V m c main_arg1) (V m c main_arg2) (V m c main_call0_v0) (V m c main_call0_v1) (V m c main_arg5) (V m c main_arg6) (V m c main_call0_v2) (V m c main_call0_v3) (V m c main_arg9) (V m c main_arg10) (V m c main_call0_v4) (V m c main_arg12)) := by
  rw [Value.flushed13, out13_spec (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)]
  obtain ⟨e0, e1⟩ := idx13 t
  funext y
  obtain ⟨i, j, rfl⟩ : ∃ (i : Fin 256) (j : Fin 256), y = ix2 i j := ⟨y 0, y 1, eq_ix2 y⟩
  have hemb : ((cfg0.win 13).blk t).view.emb (ix2 i j) = ix2 (row t i) j := by
    funext a; apply Fin.ext
    match a with
    | ⟨0, _⟩ => show win0_13.index t (0 : Fin 2) * 256 + 1 * i.val = 256 * t.val + i.val; rw [e0]; omega
    | ⟨1, _⟩ => show win0_13.index t (1 : Fin 2) * 256 + 1 * j.val = j.val; rw [e1]; omega
  show outSpec (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) = outSpec (V m c main_arg0) (V m c main_arg1) (V m c main_arg2) (V m c main_call0_v0) (V m c main_call0_v1) (V m c main_arg5) (V m c main_arg6) (V m c main_call0_v2) (V m c main_call0_v3) (V m c main_arg9) (V m c main_arg10) (V m c main_call0_v4) (V m c main_arg12) (((cfg0.win 13).blk t).view.emb (ix2 i j))
  rw [hemb]
  unfold outSpec
  show outRow (stackAt (iblk m c 0 t) (iblk m c 1 t) (iblk m c 2 t) (iblk m c 3 t) (iblk m c 4 t) (iblk m c 5 t) (iblk m c 6 t) (iblk m c 7 t) (iblk m c 8 t) (iblk m c 9 t) (iblk m c 10 t) i 7).1 (fun j k => iblk m c 11 t (ix2 j k)) (fun j => iblk m c 12 t (ix1 j)) j
      = outRow (stackAt (V m c main_arg0) (V m c main_arg1) (V m c main_arg2) (V m c main_call0_v0) (V m c main_call0_v1) (V m c main_arg5) (V m c main_arg6) (V m c main_call0_v2) (V m c main_call0_v3) (V m c main_arg9) (V m c main_arg10) (row t i) 7).1 (fun j k => V m c main_call0_v4 (ix2 j k)) (fun j => V m c main_arg12 (ix1 j)) j
  rw [stack_blk]
  simp only [blk11 m c t, blk12 m c t]

/-- An index of the array is in point `t`'s block iff each coordinate is in the block's range on its axis. -/
theorem mem_blk13 (t : Fin cfg0.N) (i : S16384x256.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v0_0).slice (win0_13.rect t)).set ↔ _
  rw [View.set_slice_whole, Rect.mem_set_unit]
  exact Iff.rfl

/-- Every index of the array is in the block of the point its batch row belongs to. -/
theorem cover13 (i : S16384x256.Idx) : ∃ t : Fin cfg0.N, (cfg0.win 13).flush t = true ∧ i ∈ ((cfg0.win 13).blk t).view.set := by
  have hN : cfg0.N = 64 := N_0
  have hb : (i 0).val < 16384 := (i 0).isLt
  refine ⟨⟨(i 0).val / 256, by rw [hN]; omega⟩, flush0_13 _, ?_⟩
  rw [mem_blk13]
  obtain ⟨e0, e1⟩ := idx13 ⟨(i 0).val / 256, by rw [hN]; omega⟩
  intro a
  match a with
    | ⟨0, _⟩ =>
      show win0_13.index _ (0 : Fin 2) * 256 ≤ (i 0).val ∧ (i 0).val < win0_13.index _ (0 : Fin 2) * 256 + 256
      rw [e0]
      have hlt : (i 0).val < 16384 := (i 0).isLt
      dsimp only
      refine ⟨by omega, by omega⟩
    | ⟨1, _⟩ =>
      show win0_13.index _ (1 : Fin 2) * 256 ≤ (i 1).val ∧ (i 1).val < win0_13.index _ (1 : Fin 2) * 256 + 256
      rw [e1]
      have hlt : (i 1).val < 256 := (i 1).isLt
      dsimp only
      refine ⟨by omega, by omega⟩

/-- The array after the run is the specification of the arrays as the region finds them. -/
theorem final13 (c : Dev nD) : (dats m 0 c).arrAt 13 cfg0.N = outSpec (V m c main_arg0) (V m c main_arg1) (V m c main_arg2) (V m c main_call0_v0) (V m c main_call0_v1) (V m c main_arg5) (V m c main_arg6) (V m c main_call0_v2) (V m c main_call0_v3) (V m c main_arg9) (V m c main_arg10) (V m c main_call0_v4) (V m c main_arg12) :=
  (dats m 0 c).arrAt_eq_of_cover 13 _ (fun t _ => flushed13_eq m c t) cover13

/-! ## Output window 14 -/

/-- What point `t` writes back to window 14 is block `t` of the specification of the arrays as the region finds them. -/
theorem flushed14_eq (c : Dev nD) (t : Fin cfg0.N) :
    (dats m 0 c).flushed 14 t = ((cfg0.win 14).blk t).view.read (Elt Ideal) (hsSpec (V m c main_arg0) (V m c main_arg1) (V m c main_arg2) (V m c main_call0_v0) (V m c main_call0_v1) (V m c main_arg5) (V m c main_arg6) (V m c main_call0_v2) (V m c main_call0_v3) (V m c main_arg9) (V m c main_arg10)) := by
  rw [Value.flushed14, out14_spec (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)]
  obtain ⟨e0, e1, e2⟩ := idx14 t
  funext y
  obtain ⟨l, i, j, rfl⟩ : ∃ (l : Fin 8) (i : Fin 256) (j : Fin 256), y = ix3 l i j := ⟨y 0, y 1, y 2, eq_ix3 y⟩
  have hemb : ((cfg0.win 14).blk t).view.emb (ix3 l i j) = ix3 l (row t i) j := by
    funext a; apply Fin.ext
    match a with
    | ⟨0, _⟩ => show win0_14.index t (0 : Fin 3) * 8 + 1 * l.val = l.val; rw [e0]; omega
    | ⟨1, _⟩ => show win0_14.index t (1 : Fin 3) * 256 + 1 * i.val = 256 * t.val + i.val; rw [e1]; omega
    | ⟨2, _⟩ => show win0_14.index t (2 : Fin 3) * 256 + 1 * j.val = j.val; rw [e2]; omega
  show hsSpec (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 l i j) = hsSpec (V m c main_arg0) (V m c main_arg1) (V m c main_arg2) (V m c main_call0_v0) (V m c main_call0_v1) (V m c main_arg5) (V m c main_arg6) (V m c main_call0_v2) (V m c main_call0_v3) (V m c main_arg9) (V m c main_arg10) (((cfg0.win 14).blk t).view.emb (ix3 l i j))
  rw [hemb]
  unfold hsSpec
  show (stackAt (iblk m c 0 t) (iblk m c 1 t) (iblk m c 2 t) (iblk m c 3 t) (iblk m c 4 t) (iblk m c 5 t) (iblk m c 6 t) (iblk m c 7 t) (iblk m c 8 t) (iblk m c 9 t) (iblk m c 10 t) i l.val).1 j = (stackAt (V m c main_arg0) (V m c main_arg1) (V m c main_arg2) (V m c main_call0_v0) (V m c main_call0_v1) (V m c main_arg5) (V m c main_arg6) (V m c main_call0_v2) (V m c main_call0_v3) (V m c main_arg9) (V m c main_arg10) (row t i) l.val).1 j
  rw [stack_blk]

/-- An index of the array is in point `t`'s block iff each coordinate is in the block's range on its axis. -/
theorem mem_blk14 (t : Fin cfg0.N) (i : S8x16384x256.Idx) :
    i ∈ ((cfg0.win 14).blk t).view.set ↔ ∀ a : Fin 3, win0_14.index t a * S8x256x256.size a ≤ (i a).val ∧ (i a).val < win0_14.index t a * S8x256x256.size a + S8x256x256.size a := by
  show i ∈ ((View.whole main_v0_1).slice (win0_14.rect t)).set ↔ _
  rw [View.set_slice_whole, Rect.mem_set_unit]
  exact Iff.rfl

/-- Every index of the array is in the block of the point its batch row belongs to. -/
theorem cover14 (i : S8x16384x256.Idx) : ∃ t : Fin cfg0.N, (cfg0.win 14).flush t = true ∧ i ∈ ((cfg0.win 14).blk t).view.set := by
  have hN : cfg0.N = 64 := N_0
  have hb : (i 1).val < 16384 := (i 1).isLt
  refine ⟨⟨(i 1).val / 256, by rw [hN]; omega⟩, flush0_14 _, ?_⟩
  rw [mem_blk14]
  obtain ⟨e0, e1, e2⟩ := idx14 ⟨(i 1).val / 256, by rw [hN]; omega⟩
  intro a
  match a with
    | ⟨0, _⟩ =>
      show win0_14.index _ (0 : Fin 3) * 8 ≤ (i 0).val ∧ (i 0).val < win0_14.index _ (0 : Fin 3) * 8 + 8
      rw [e0]
      have hlt : (i 0).val < 8 := (i 0).isLt
      dsimp only
      refine ⟨by omega, by omega⟩
    | ⟨1, _⟩ =>
      show win0_14.index _ (1 : Fin 3) * 256 ≤ (i 1).val ∧ (i 1).val < win0_14.index _ (1 : Fin 3) * 256 + 256
      rw [e1]
      have hlt : (i 1).val < 16384 := (i 1).isLt
      dsimp only
      refine ⟨by omega, by omega⟩
    | ⟨2, _⟩ =>
      show win0_14.index _ (2 : Fin 3) * 256 ≤ (i 2).val ∧ (i 2).val < win0_14.index _ (2 : Fin 3) * 256 + 256
      rw [e2]
      have hlt : (i 2).val < 256 := (i 2).isLt
      dsimp only
      refine ⟨by omega, by omega⟩

/-- The array after the run is the specification of the arrays as the region finds them. -/
theorem final14 (c : Dev nD) : (dats m 0 c).arrAt 14 cfg0.N = hsSpec (V m c main_arg0) (V m c main_arg1) (V m c main_arg2) (V m c main_call0_v0) (V m c main_call0_v1) (V m c main_arg5) (V m c main_arg6) (V m c main_call0_v2) (V m c main_call0_v3) (V m c main_arg9) (V m c main_arg10) :=
  (dats m 0 c).arrAt_eq_of_cover 14 _ (fun t _ => flushed14_eq m c t) cover14

/-! ## Output window 15 -/

/-- What point `t` writes back to window 15 is block `t` of the specification of the arrays as the region finds them. -/
theorem flushed15_eq (c : Dev nD) (t : Fin cfg0.N) :
    (dats m 0 c).flushed 15 t = ((cfg0.win 15).blk t).view.read (Elt Ideal) (csSpec (V m c main_arg0) (V m c main_arg1) (V m c main_arg2) (V m c main_call0_v0) (V m c main_call0_v1) (V m c main_arg5) (V m c main_arg6) (V m c main_call0_v2) (V m c main_call0_v3) (V m c main_arg9) (V m c main_arg10)) := by
  rw [Value.flushed15, out15_spec (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)]
  obtain ⟨e0, e1, e2⟩ := idx15 t
  funext y
  obtain ⟨l, i, j, rfl⟩ : ∃ (l : Fin 8) (i : Fin 256) (j : Fin 256), y = ix3 l i j := ⟨y 0, y 1, y 2, eq_ix3 y⟩
  have hemb : ((cfg0.win 15).blk t).view.emb (ix3 l i j) = ix3 l (row t i) j := by
    funext a; apply Fin.ext
    match a with
    | ⟨0, _⟩ => show win0_15.index t (0 : Fin 3) * 8 + 1 * l.val = l.val; rw [e0]; omega
    | ⟨1, _⟩ => show win0_15.index t (1 : Fin 3) * 256 + 1 * i.val = 256 * t.val + i.val; rw [e1]; omega
    | ⟨2, _⟩ => show win0_15.index t (2 : Fin 3) * 256 + 1 * j.val = j.val; rw [e2]; omega
  show csSpec (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 l i j) = csSpec (V m c main_arg0) (V m c main_arg1) (V m c main_arg2) (V m c main_call0_v0) (V m c main_call0_v1) (V m c main_arg5) (V m c main_arg6) (V m c main_call0_v2) (V m c main_call0_v3) (V m c main_arg9) (V m c main_arg10) (((cfg0.win 15).blk t).view.emb (ix3 l i j))
  rw [hemb]
  unfold csSpec
  show (stackAt (iblk m c 0 t) (iblk m c 1 t) (iblk m c 2 t) (iblk m c 3 t) (iblk m c 4 t) (iblk m c 5 t) (iblk m c 6 t) (iblk m c 7 t) (iblk m c 8 t) (iblk m c 9 t) (iblk m c 10 t) i l.val).2 j = (stackAt (V m c main_arg0) (V m c main_arg1) (V m c main_arg2) (V m c main_call0_v0) (V m c main_call0_v1) (V m c main_arg5) (V m c main_arg6) (V m c main_call0_v2) (V m c main_call0_v3) (V m c main_arg9) (V m c main_arg10) (row t i) l.val).2 j
  rw [stack_blk]

/-- An index of the array is in point `t`'s block iff each coordinate is in the block's range on its axis. -/
theorem mem_blk15 (t : Fin cfg0.N) (i : S8x16384x256.Idx) :
    i ∈ ((cfg0.win 15).blk t).view.set ↔ ∀ a : Fin 3, win0_15.index t a * S8x256x256.size a ≤ (i a).val ∧ (i a).val < win0_15.index t a * S8x256x256.size a + S8x256x256.size a := by
  show i ∈ ((View.whole main_v0_2).slice (win0_15.rect t)).set ↔ _
  rw [View.set_slice_whole, Rect.mem_set_unit]
  exact Iff.rfl

/-- Every index of the array is in the block of the point its batch row belongs to. -/
theorem cover15 (i : S8x16384x256.Idx) : ∃ t : Fin cfg0.N, (cfg0.win 15).flush t = true ∧ i ∈ ((cfg0.win 15).blk t).view.set := by
  have hN : cfg0.N = 64 := N_0
  have hb : (i 1).val < 16384 := (i 1).isLt
  refine ⟨⟨(i 1).val / 256, by rw [hN]; omega⟩, flush0_15 _, ?_⟩
  rw [mem_blk15]
  obtain ⟨e0, e1, e2⟩ := idx15 ⟨(i 1).val / 256, by rw [hN]; omega⟩
  intro a
  match a with
    | ⟨0, _⟩ =>
      show win0_15.index _ (0 : Fin 3) * 8 ≤ (i 0).val ∧ (i 0).val < win0_15.index _ (0 : Fin 3) * 8 + 8
      rw [e0]
      have hlt : (i 0).val < 8 := (i 0).isLt
      dsimp only
      refine ⟨by omega, by omega⟩
    | ⟨1, _⟩ =>
      show win0_15.index _ (1 : Fin 3) * 256 ≤ (i 1).val ∧ (i 1).val < win0_15.index _ (1 : Fin 3) * 256 + 256
      rw [e1]
      have hlt : (i 1).val < 16384 := (i 1).isLt
      dsimp only
      refine ⟨by omega, by omega⟩
    | ⟨2, _⟩ =>
      show win0_15.index _ (2 : Fin 3) * 256 ≤ (i 2).val ∧ (i 2).val < win0_15.index _ (2 : Fin 3) * 256 + 256
      rw [e2]
      have hlt : (i 2).val < 256 := (i 2).isLt
      dsimp only
      refine ⟨by omega, by omega⟩

/-- The array after the run is the specification of the arrays as the region finds them. -/
theorem final15 (c : Dev nD) : (dats m 0 c).arrAt 15 cfg0.N = csSpec (V m c main_arg0) (V m c main_arg1) (V m c main_arg2) (V m c main_call0_v0) (V m c main_call0_v1) (V m c main_arg5) (V m c main_arg6) (V m c main_call0_v2) (V m c main_call0_v3) (V m c main_arg9) (V m c main_arg10) :=
  (dats m 0 c).arrAt_eq_of_cover 15 _ (fun t _ => flushed15_eq m c t) cover15

/-! ## The arrays the region finds are the arguments -/

/-- The bf16 copy of the first input weight is the argument itself on the extended reals. -/
theorem Vw0 (c : Dev nD) : (V m c main_call0_v0 : S1024x256.Idx → EReal) = m ((c : Thread nD τ).loc main_arg3) := by
  dsimp only [Gen.V, Gen.hostOps0]; after_results; rfl
theorem Vw1 (c : Dev nD) : (V m c main_call0_v1 : S1024x256.Idx → EReal) = m ((c : Thread nD τ).loc main_arg4) := by
  dsimp only [Gen.V, Gen.hostOps0]; after_results; rfl
theorem Vw2 (c : Dev nD) : (V m c main_call0_v2 : S7x1024x256.Idx → EReal) = m ((c : Thread nD τ).loc main_arg7) := by
  dsimp only [Gen.V, Gen.hostOps0]; after_results; rfl
theorem Vw3 (c : Dev nD) : (V m c main_call0_v3 : S7x1024x256.Idx → EReal) = m ((c : Thread nD τ).loc main_arg8) := by
  dsimp only [Gen.V, Gen.hostOps0]; after_results; rfl
theorem Vw4 (c : Dev nD) : (V m c main_call0_v4 : S256x256.Idx → EReal) = m ((c : Thread nD τ).loc main_arg11) := by
  dsimp only [Gen.V, Gen.hostOps0]; after_results; rfl

/-! ## The run, read -/

/-- Every weakly fair execution of the kernel program terminates with the three results at the specification of the
    arguments, the arguments unchanged. -/
theorem run : θ_run defs (onTc (τ := τ) (main (F := Ideal))) ⟨m, fun _ => 0, ρ⟩ fun r => ∀ c : Dev nD,
      r.2.mem ((c : Thread nD τ).loc main_v0_0) = outSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v0_1) = hsSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_2) = csSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c =>
    ⟨(h c).1.trans ((final13 m c).trans (by rw [V_main_arg0 m c, V_main_arg1 m c, V_main_arg2 m c, Vw0 m c, Vw1 m c, V_main_arg5 m c, V_main_arg6 m c, Vw2 m c, Vw3 m c, V_main_arg9 m c, V_main_arg10 m c, Vw4 m c, V_main_arg12 m c])),
      (h c).2.1.trans ((final14 m c).trans (by rw [V_main_arg0 m c, V_main_arg1 m c, V_main_arg2 m c, Vw0 m c, Vw1 m c, V_main_arg5 m c, V_main_arg6 m c, Vw2 m c, Vw3 m c, V_main_arg9 m c, V_main_arg10 m c])),
      (h c).2.2.1.trans ((final15 m c).trans (by rw [V_main_arg0 m c, V_main_arg1 m c, V_main_arg2 m c, Vw0 m c, Vw1 m c, V_main_arg5 m c, V_main_arg6 m c, Vw2 m c, Vw3 m c, V_main_arg9 m c, V_main_arg10 m c])),
      (h c).2.2.2⟩)
    (Value.run_blocks m ρ)

end Cert.KernelIdeal.Arrays

end
-- ==== Proof.RCell.lean ====
/-
  The reference's LSTM cell on all 16384 rows, read at an index.

  The reference computes each layer with whole-array host operations: `x · Wiᵀ` as a general dot product
  against the transposed weight, the bias broadcast down all rows, the four gates as column slices, and the
  logistic function spelt out as `1 / (1 + e^(-z))`.  At row `b` and column `q` each of them is the row-wise
  formula of `Cert.Lstm` applied to row `b` of its operands: the general dot product is the plain sum over
  the contracted column, the transpose swaps the two coordinates of the weight, and the spelt-out quotient is
  the logistic function on every extended real, by definition.
-/
import proofs.«181826_j46385646796958_2_alg».proof.Proof.Gen.ReferenceIdeal
import proofs.«181826_j46385646796958_2_alg».proof.Proof.Row
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Cell

open Cert.ReferenceIdeal Cert.ReferenceIdeal.Gen Idealize.ShloMosaic Idealize.ShloMosaic.ValueIdx Cert.Lstm

/-- The logistic function as the reference spells it: `1 / (1 + e^(-z))`, the ones broadcast scalars. -/
def sigm (z : FVec Ideal S16384x256 .f32) : FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32)) (Host.exp (Host.negf z)))

/-- The gate pre-activations of all rows: `(X · Wiᵀ + H · Whᵀ) + (bi + bh)`. -/
def gates (X H : FVec Ideal S16384x256 .f32) (Wi Wh : FVec Ideal S1024x256 .f32) (bi bh : FVec Ideal S1024 .f32) :
    FVec Ideal S16384x1024 .f32 :=
  addf (addf (Host.dotGeneral dot_S16384x256_S256x1024_S16384x1024_1_0_0_1_n_n none X (transpose S256x1024 [1, 0] Wi transposes_S1024x256_S256x1024_1_0))
             (Host.dotGeneral dot_S16384x256_S256x1024_S16384x1024_1_0_0_1_n_n none H (transpose S256x1024 [1, 0] Wh transposes_S1024x256_S256x1024_1_0)))
       (broadcastInDim S16384x1024 ![0, 1] bcast_S1x1024_S16384x1024_0_1 (broadcastInDim S1x1024 ![1] bcast_S1024_S1x1024_1 (addf bi bh)))

/-- The new cell state of all rows: `σ(f) · c + σ(i) · tanh(g)`. -/
def cNew (g : FVec Ideal S16384x1024 .f32) (c : FVec Ideal S16384x256 .f32) : FVec Ideal S16384x256 .f32 :=
  addf (mulf (sigm (extractStridedSlice S16384x256 ![0, 256] g slices_S16384x1024_S16384x256_0_256)) c)
       (mulf (sigm (extractStridedSlice S16384x256 ![0, 0] g slices_S16384x1024_S16384x256_0_0))
             (Host.tanh (extractStridedSlice S16384x256 ![0, 512] g slices_S16384x1024_S16384x256_0_512)))

/-- The new hidden state of all rows: `σ(o) · tanh(c')`. -/
def hNew (g : FVec Ideal S16384x1024 .f32) (c : FVec Ideal S16384x256 .f32) : FVec Ideal S16384x256 .f32 :=
  mulf (sigm (extractStridedSlice S16384x256 ![0, 768] g slices_S16384x1024_S16384x256_0_768)) (Host.tanh (cNew g c))

/-- The output projection of all rows: `H · Woᵀ + bo`. -/
def proj (H : FVec Ideal S16384x256 .f32) (Wo : FVec Ideal S256x256 .f32) (bo : FVec Ideal S256 .f32) : FVec Ideal S16384x256 .f32 :=
  addf (Host.dotGeneral dot_S16384x256_S256x256_S16384x256_1_0_0_1_n_n none H (transpose S256x256 [1, 0] Wo transposes_S256x256_S256x256_1_0))
       (broadcastInDim S16384x256 ![0, 1] bcast_S1x256_S16384x256_0_1 (broadcastInDim S1x256 ![1] bcast_S256_S1x256_1 bo))

/-- The spelt-out quotient is the logistic function, on every extended real. -/
theorem sigm_apply (z : FVec Ideal S16384x256 .f32) (i : S16384x256.Idx) : sigm z i = Ideal.logistic (z i) := by
  unfold sigm
  show Ideal.div (broadcastInDim S16384x256 ![] bcast_S_S16384x256 (constant (F := Ideal) S_ .f32 0x3F800000#32) i)
      (broadcastInDim S16384x256 ![] bcast_S_S16384x256 (constant (F := Ideal) S_ .f32 0x3F800000#32) i + Ideal.exp (-(z i))) = _
  rw [broadcastInDim_scalar_apply, constant_apply, Ideal.ofBits_one_f32]
  rfl

/-- A general dot product against the transposed weight, at row `b` and column `j`: the sum over the contracted column. -/
theorem dot_row (X : FVec Ideal S16384x256 .f32) (W : FVec Ideal S1024x256 .f32) (b : Fin 16384) (j : Fin 1024) :
    Host.dotGeneral dot_S16384x256_S256x1024_S16384x1024_1_0_0_1_n_n none X (transpose S256x1024 [1, 0] W transposes_S1024x256_S256x1024_1_0) (ix2 b j)
      = ∑ k : Fin 256, X (ix2 b k) * W (ix2 j k) := by
  simp only [Host.dotGeneral]
  rw [Ideal.dotGeneral_apply, ← Equiv.sum_comp (contrEquiv1 dot_S16384x256_S256x1024_S16384x1024_1_0_0_1_n_n 256 rfl rfl).symm]
  refine Finset.sum_congr rfl fun k _ => ?_
  have hr : dot_S16384x256_S256x1024_S16384x1024_1_0_0_1_n_n.rhsIdx (ix2 b j)
      ((contrEquiv1 dot_S16384x256_S256x1024_S16384x1024_1_0_0_1_n_n 256 rfl rfl).symm k) = ix2 k j := by
    funext ax; apply Fin.ext
    match ax with
    | ⟨0, _⟩ => exact (DotDims.rhsIdx_val_of_single _ rfl _ _).trans (contrEquiv1_symm_val _ 256 rfl rfl k)
    | ⟨1, _⟩ => rfl
  rw [hr, transpose_ix2_apply]
  congr 1
  refine congrArg X (funext fun ax => Fin.ext ?_)
  match ax with
  | ⟨0, _⟩ => rfl
  | ⟨1, _⟩ => exact (DotDims.lhsIdx_val_of_single _ rfl _ _).trans (contrEquiv1_symm_val _ 256 rfl rfl k)

/-- The same for the 256-column output projection. -/
theorem dotO_row (X : FVec Ideal S16384x256 .f32) (W : FVec Ideal S256x256 .f32) (b : Fin 16384) (j : Fin 256) :
    Host.dotGeneral dot_S16384x256_S256x256_S16384x256_1_0_0_1_n_n none X (transpose S256x256 [1, 0] W transposes_S256x256_S256x256_1_0) (ix2 b j)
      = ∑ k : Fin 256, X (ix2 b k) * W (ix2 j k) := by
  simp only [Host.dotGeneral]
  rw [Ideal.dotGeneral_apply, ← Equiv.sum_comp (contrEquiv1 dot_S16384x256_S256x256_S16384x256_1_0_0_1_n_n 256 rfl rfl).symm]
  refine Finset.sum_congr rfl fun k _ => ?_
  have hr : dot_S16384x256_S256x256_S16384x256_1_0_0_1_n_n.rhsIdx (ix2 b j)
      ((contrEquiv1 dot_S16384x256_S256x256_S16384x256_1_0_0_1_n_n 256 rfl rfl).symm k) = ix2 k j := by
    funext ax; apply Fin.ext
    match ax with
    | ⟨0, _⟩ => exact (DotDims.rhsIdx_val_of_single _ rfl _ _).trans (contrEquiv1_symm_val _ 256 rfl rfl k)
    | ⟨1, _⟩ => rfl
  rw [hr, transpose_ix2_apply]
  congr 1
  refine congrArg X (funext fun ax => Fin.ext ?_)
  match ax with
  | ⟨0, _⟩ => rfl
  | ⟨1, _⟩ => exact (DotDims.lhsIdx_val_of_single _ rfl _ _).trans (contrEquiv1_symm_val _ 256 rfl rfl k)

/-- A bias vector made a one-row array and broadcast down all rows, at row `b` and column `j`. -/
theorem bias_apply (v : FVec Ideal S1024 .f32) (b : Fin 16384) (j : Fin 1024) :
    broadcastInDim S16384x1024 ![0, 1] bcast_S1x1024_S16384x1024_0_1 (broadcastInDim S1x1024 ![1] bcast_S1024_S1x1024_1 v) (ix2 b j) = v (ix1 j) := by
  rw [broadcastInDim_apply _ _ _ (ix2 b j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- The same for the 256-column output bias. -/
theorem biasO_apply (v : FVec Ideal S256 .f32) (b : Fin 16384) (j : Fin 256) :
    broadcastInDim S16384x256 ![0, 1] bcast_S1x256_S16384x256_0_1 (broadcastInDim S1x256 ![1] bcast_S256_S1x256_1 v) (ix2 b j) = v (ix1 j) := by
  rw [broadcastInDim_apply _ _ _ (ix2 b j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- The gate pre-activations at row `b` are the row-wise ones of row `b` of the operands. -/
theorem gates_apply (X H : FVec Ideal S16384x256 .f32) (Wi Wh : FVec Ideal S1024x256 .f32) (bi bh : FVec Ideal S1024 .f32)
    (b : Fin 16384) (j : Fin 1024) :
    gates X H Wi Wh bi bh (ix2 b j)
      = gateRow (fun k => X (ix2 b k)) (fun k => H (ix2 b k)) (fun j k => Wi (ix2 j k)) (fun j k => Wh (ix2 j k))
          (fun j => bi (ix1 j)) (fun j => bh (ix1 j)) j := by
  unfold gates gateRow
  rw [addf_apply, addf_apply, dot_row, dot_row, bias_apply, addf_apply]

/-- The new cell state at row `b`, column `q`. -/
theorem cNew_apply (g : FVec Ideal S16384x1024 .f32) (c : FVec Ideal S16384x256 .f32) (b : Fin 16384) (q : Fin 256) :
    cNew g c (ix2 b q) = cRow (fun j => g (ix2 b j)) (fun k => c (ix2 b k)) q := by
  unfold cNew cRow
  rw [addf_apply, mulf_apply, mulf_apply, sigm_apply, sigm_apply]
  show Ideal.logistic (extractStridedSlice S16384x256 ![0, 256] g _ (ix2 b q)) * c (ix2 b q)
      + Ideal.logistic (extractStridedSlice S16384x256 ![0, 0] g _ (ix2 b q)) * Ideal.tanh (extractStridedSlice S16384x256 ![0, 512] g _ (ix2 b q)) = _
  rw [slice2_axis1_apply 256 g _ b q (gcol 1 q) (by simp [gcol]), slice2_axis1_apply 0 g _ b q (gcol 0 q) (by simp [gcol]),
    slice2_axis1_apply 512 g _ b q (gcol 2 q) (by simp [gcol])]

/-- The new hidden state at row `b`, column `q`. -/
theorem hNew_apply (g : FVec Ideal S16384x1024 .f32) (c : FVec Ideal S16384x256 .f32) (b : Fin 16384) (q : Fin 256) :
    hNew g c (ix2 b q) = hRow (fun j => g (ix2 b j)) (fun k => c (ix2 b k)) q := by
  unfold hNew hRow
  rw [mulf_apply, sigm_apply]
  show Ideal.logistic (extractStridedSlice S16384x256 ![0, 768] g _ (ix2 b q)) * Ideal.tanh (cNew g c (ix2 b q)) = _
  rw [slice2_axis1_apply 768 g _ b q (gcol 3 q) (by simp [gcol]), cNew_apply]

/-- The output projection at row `b`, column `j`. -/
theorem proj_apply (H : FVec Ideal S16384x256 .f32) (Wo : FVec Ideal S256x256 .f32) (bo : FVec Ideal S256 .f32) (b : Fin 16384) (j : Fin 256) :
    proj H Wo bo (ix2 b j) = outRow (fun k => H (ix2 b k)) (fun j k => Wo (ix2 j k)) (fun j => bo (ix1 j)) j := by
  unfold proj outRow
  rw [addf_apply, dotO_row, biasO_apply]

end Cert.ReferenceIdeal.Cell

end
-- ==== Proof.RLayers.lean ====
/-
  The reference, layer by layer, read against the stack of cells on one row.

  The reference's run names each layer's gate pre-activations, cell state and hidden state as whole arrays of
  16384 rows.  Layer `l` takes slab `l` of the stacked states (a slice along the leading axis, its unit axis
  dropped) and, from layer 1 on, slab `l - 1` of the stacked weights and biases.  Read at row `b`, each is the
  stack of cells on row `b` of the argument arrays.
-/
import proofs.«181826_j46385646796958_2_alg».proof.Proof.Gen.ReferenceIdeal.Run
import proofs.«181826_j46385646796958_2_alg».proof.Proof.RCell
import proofs.«181826_j46385646796958_2_alg».proof.Proof.Spec
import Idealize.ShloMosaic.Lib.ValueIdx
import Idealize.ShloMosaic.Lib.ValueLayout
import Idealize.ShloMosaic.Lib.Pipeline.Value

set_option maxRecDepth 16384

noncomputable section

namespace Cert.ReferenceIdeal.Layers

open Cert.ReferenceIdeal Cert.ReferenceIdeal.Value Idealize.ShloMosaic Idealize.ShloMosaic.StableHlo
open Idealize.ShloMosaic.ValueIdx Cert.Lstm

/-- Slab `l` of a rank-three array (a slice of one index along the leading axis, the unit axis dropped), at an index. -/
theorem slab3_apply {A B C : ℕ} {α : Type} (X : (⟨3, ![A, B, C]⟩ : Shape).Idx → α) (l : ℕ) (hl : l < A)
    (hs : (⟨3, ![A, B, C]⟩ : Shape).Slices ![l, 0, 0] ⟨3, ![1, B, C]⟩)
    (hc : (⟨3, ![1, B, C]⟩ : Shape).ShapeCasts ⟨2, ![B, C]⟩) (i : Fin B) (j : Fin C) :
    shapeCast ⟨2, ![B, C]⟩ (extractStridedSlice ⟨3, ![1, B, C]⟩ ![l, 0, 0] X hs) hc (ix2 i j) = X (ix3 ⟨l, hl⟩ i j) := by
  rw [shapeCast_1ab_ab_apply]
  exact extractStridedSlice_apply _ X hs _ (ix3 ⟨l, hl⟩ i j) (fun a => by
    match a with
    | ⟨0, _⟩ => simp [ix3]
    | ⟨1, _⟩ => simp [ix3]
    | ⟨2, _⟩ => simp [ix3])

/-- Slab `l` of a rank-two array (one row, the unit axis dropped), at an index. -/
theorem slab2_apply {A B : ℕ} {α : Type} (X : (⟨2, ![A, B]⟩ : Shape).Idx → α) (l : ℕ) (hl : l < A)
    (hs : (⟨2, ![A, B]⟩ : Shape).Slices ![l, 0] ⟨2, ![1, B]⟩)
    (hc : (⟨2, ![1, B]⟩ : Shape).ShapeCasts ⟨1, ![B]⟩) (j : Fin B) :
    shapeCast ⟨1, ![B]⟩ (extractStridedSlice ⟨2, ![1, B]⟩ ![l, 0] X hs) hc (ix1 j) = X (ix2 ⟨l, hl⟩ j) := by
  rw [shapeCast_1a_a_apply]
  exact extractStridedSlice_apply _ X hs _ (ix2 ⟨l, hl⟩ j) (fun a => by
    match a with
    | ⟨0, _⟩ => simp [ix2]
    | ⟨1, _⟩ => simp [ix2])

/-- Layer 0's gate pre-activations on row `b`. -/
theorem refG0 (V0 : Valuation τ sig (Elt Ideal)) (b : Fin 16384) :
    (fun j => res_main_v12 V0 (ix2 b j))
      = gateRow (fun k => (V0 (Proc.devRef .tc main_arg0)) (ix2 b k)) (fun k => (V0 (Proc.devRef .tc main_arg1)) (ix3 0 b k))
          (fun j k => (V0 (Proc.devRef .tc main_arg3)) (ix2 j k)) (fun j k => (V0 (Proc.devRef .tc main_arg4)) (ix2 j k))
          (fun j => (V0 (Proc.devRef .tc main_arg5)) (ix1 j)) (fun j => (V0 (Proc.devRef .tc main_arg6)) (ix1 j)) := by
  funext j
  show Cell.gates (V0 (Proc.devRef .tc main_arg0))
      (shapeCast S16384x256 (extractStridedSlice S1x16384x256 ![0, 0, 0] (V0 (Proc.devRef .tc main_arg1)) _) _)
      (V0 (Proc.devRef .tc main_arg3)) (V0 (Proc.devRef .tc main_arg4)) (V0 (Proc.devRef .tc main_arg5)) (V0 (Proc.devRef .tc main_arg6)) (ix2 b j) = _
  rw [Cell.gates_apply]
  simp only [slab3_apply (A := 8) (B := 16384) (C := 256) _ 0 (by omega)] <;> rfl

/-- Layer 0's hidden state on row `b`. -/
theorem refH0 (V0 : Valuation τ sig (Elt Ideal)) (b : Fin 16384) (q : Fin 256) :
    res_main_v40 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 0).1 q := by
  show Cell.hNew (res_main_v12 V0)
      (shapeCast S16384x256 (extractStridedSlice S1x16384x256 ![0, 0, 0] (V0 (Proc.devRef .tc main_arg2)) _) _) (ix2 b q) = _
  rw [Cell.hNew_apply, refG0 V0 b]
  simp only [slab3_apply (A := 8) (B := 16384) (C := 256) _ 0 (by omega)] <;> rfl

/-- Layer 0's cell state on row `b`. -/
theorem refC0 (V0 : Valuation τ sig (Elt Ideal)) (b : Fin 16384) (q : Fin 256) :
    res_main_v32 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 0).2 q := by
  show Cell.cNew (res_main_v12 V0)
      (shapeCast S16384x256 (extractStridedSlice S1x16384x256 ![0, 0, 0] (V0 (Proc.devRef .tc main_arg2)) _) _) (ix2 b q) = _
  rw [Cell.cNew_apply, refG0 V0 b]
  simp only [slab3_apply (A := 8) (B := 16384) (C := 256) _ 0 (by omega)] <;> rfl

/-- Layer 1's gate pre-activations on row `b`. -/
theorem refG1 (V0 : Valuation τ sig (Elt Ideal)) (b : Fin 16384) :
    (fun j => res_main_v61 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 0).1 (fun k => (V0 (Proc.devRef .tc main_arg1)) (ix3 (⟨1, by omega⟩ : Fin 8) b k))
          (fun j k => (V0 (Proc.devRef .tc main_arg7)) (ix3 (⟨0, by omega⟩ : Fin 7) j k)) (fun j k => (V0 (Proc.devRef .tc main_arg8)) (ix3 (⟨0, by omega⟩ : Fin 7) j k))
          (fun j => (V0 (Proc.devRef .tc main_arg9)) (ix2 (⟨0, by omega⟩ : Fin 7) j)) (fun j => (V0 (Proc.devRef .tc main_arg10)) (ix2 (⟨0, by omega⟩ : Fin 7) j)) := by
  funext j
  show Cell.gates (res_main_v40 V0)
      (shapeCast S16384x256 (extractStridedSlice S1x16384x256 ![1, 0, 0] (V0 (Proc.devRef .tc main_arg1)) _) _)
      (shapeCast S1024x256 (extractStridedSlice S1x1024x256 ![0, 0, 0] (V0 (Proc.devRef .tc main_arg7)) _) _)
      (shapeCast S1024x256 (extractStridedSlice S1x1024x256 ![0, 0, 0] (V0 (Proc.devRef .tc main_arg8)) _) _)
      (shapeCast S1024 (extractStridedSlice S1x1024 ![0, 0] (V0 (Proc.devRef .tc main_arg9)) _) _)
      (shapeCast S1024 (extractStridedSlice S1x1024 ![0, 0] (V0 (Proc.devRef .tc main_arg10)) _) _) (ix2 b j) = _
  rw [Cell.gates_apply]
  simp only [refH0 V0 b, slab3_apply (A := 8) (B := 16384) (C := 256) _ 1 (by omega), slab3_apply (A := 7) (B := 1024) (C := 256) _ 0 (by omega), slab2_apply (A := 7) (B := 1024) _ 0 (by omega)] <;> rfl

/-- Layer 1's hidden state on row `b`. -/
theorem refH1 (V0 : Valuation τ sig (Elt Ideal)) (b : Fin 16384) (q : Fin 256) :
    res_main_v89 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 1).1 q := by
  show Cell.hNew (res_main_v61 V0)
      (shapeCast S16384x256 (extractStridedSlice S1x16384x256 ![1, 0, 0] (V0 (Proc.devRef .tc main_arg2)) _) _) (ix2 b q) = _
  rw [Cell.hNew_apply, refG1 V0 b]
  simp only [slab3_apply (A := 8) (B := 16384) (C := 256) _ 1 (by omega)]
  unfold stackAt
  rw [stackRow_succ _ _ _ _ _ _ _ _ _ _ _ 0 (by omega)]
  rfl

/-- Layer 1's cell state on row `b`. -/
theorem refC1 (V0 : Valuation τ sig (Elt Ideal)) (b : Fin 16384) (q : Fin 256) :
    res_main_v81 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 1).2 q := by
  show Cell.cNew (res_main_v61 V0)
      (shapeCast S16384x256 (extractStridedSlice S1x16384x256 ![1, 0, 0] (V0 (Proc.devRef .tc main_arg2)) _) _) (ix2 b q) = _
  rw [Cell.cNew_apply, refG1 V0 b]
  simp only [slab3_apply (A := 8) (B := 16384) (C := 256) _ 1 (by omega)]
  unfold stackAt
  rw [stackRow_succ _ _ _ _ _ _ _ _ _ _ _ 0 (by omega)]
  rfl

/-- Layer 2's gate pre-activations on row `b`. -/
theorem refG2 (V0 : Valuation τ sig (Elt Ideal)) (b : Fin 16384) :
    (fun j => res_main_v110 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 1).1 (fun k => (V0 (Proc.devRef .tc main_arg1)) (ix3 (⟨2, by omega⟩ : Fin 8) b k))
          (fun j k => (V0 (Proc.devRef .tc main_arg7)) (ix3 (⟨1, by omega⟩ : Fin 7) j k)) (fun j k => (V0 (Proc.devRef .tc main_arg8)) (ix3 (⟨1, by omega⟩ : Fin 7) j k))
          (fun j => (V0 (Proc.devRef .tc main_arg9)) (ix2 (⟨1, by omega⟩ : Fin 7) j)) (fun j => (V0 (Proc.devRef .tc main_arg10)) (ix2 (⟨1, by omega⟩ : Fin 7) j)) := by
  funext j
  show Cell.gates (res_main_v89 V0)
      (shapeCast S16384x256 (extractStridedSlice S1x16384x256 ![2, 0, 0] (V0 (Proc.devRef .tc main_arg1)) _) _)
      (shapeCast S1024x256 (extractStridedSlice S1x1024x256 ![1, 0, 0] (V0 (Proc.devRef .tc main_arg7)) _) _)
      (shapeCast S1024x256 (extractStridedSlice S1x1024x256 ![1, 0, 0] (V0 (Proc.devRef .tc main_arg8)) _) _)
      (shapeCast S1024 (extractStridedSlice S1x1024 ![1, 0] (V0 (Proc.devRef .tc main_arg9)) _) _)
      (shapeCast S1024 (extractStridedSlice S1x1024 ![1, 0] (V0 (Proc.devRef .tc main_arg10)) _) _) (ix2 b j) = _
  rw [Cell.gates_apply]
  simp only [refH1 V0 b, slab3_apply (A := 8) (B := 16384) (C := 256) _ 2 (by omega), slab3_apply (A := 7) (B := 1024) (C := 256) _ 1 (by omega), slab2_apply (A := 7) (B := 1024) _ 1 (by omega)] <;> rfl

/-- Layer 2's hidden state on row `b`. -/
theorem refH2 (V0 : Valuation τ sig (Elt Ideal)) (b : Fin 16384) (q : Fin 256) :
    res_main_v138 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 2).1 q := by
  show Cell.hNew (res_main_v110 V0)
      (shapeCast S16384x256 (extractStridedSlice S1x16384x256 ![2, 0, 0] (V0 (Proc.devRef .tc main_arg2)) _) _) (ix2 b q) = _
  rw [Cell.hNew_apply, refG2 V0 b]
  simp only [slab3_apply (A := 8) (B := 16384) (C := 256) _ 2 (by omega)]
  unfold stackAt
  rw [stackRow_succ _ _ _ _ _ _ _ _ _ _ _ 1 (by omega)]
  rfl

/-- Layer 2's cell state on row `b`. -/
theorem refC2 (V0 : Valuation τ sig (Elt Ideal)) (b : Fin 16384) (q : Fin 256) :
    res_main_v130 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 2).2 q := by
  show Cell.cNew (res_main_v110 V0)
      (shapeCast S16384x256 (extractStridedSlice S1x16384x256 ![2, 0, 0] (V0 (Proc.devRef .tc main_arg2)) _) _) (ix2 b q) = _
  rw [Cell.cNew_apply, refG2 V0 b]
  simp only [slab3_apply (A := 8) (B := 16384) (C := 256) _ 2 (by omega)]
  unfold stackAt
  rw [stackRow_succ _ _ _ _ _ _ _ _ _ _ _ 1 (by omega)]
  rfl

/-- Layer 3's gate pre-activations on row `b`. -/
theorem refG3 (V0 : Valuation τ sig (Elt Ideal)) (b : Fin 16384) :
    (fun j => res_main_v159 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 2).1 (fun k => (V0 (Proc.devRef .tc main_arg1)) (ix3 (⟨3, by omega⟩ : Fin 8) b k))
          (fun j k => (V0 (Proc.devRef .tc main_arg7)) (ix3 (⟨2, by omega⟩ : Fin 7) j k)) (fun j k => (V0 (Proc.devRef .tc main_arg8)) (ix3 (⟨2, by omega⟩ : Fin 7) j k))
          (fun j => (V0 (Proc.devRef .tc main_arg9)) (ix2 (⟨2, by omega⟩ : Fin 7) j)) (fun j => (V0 (Proc.devRef .tc main_arg10)) (ix2 (⟨2, by omega⟩ : Fin 7) j)) := by
  funext j
  show Cell.gates (res_main_v138 V0)
      (shapeCast S16384x256 (extractStridedSlice S1x16384x256 ![3, 0, 0] (V0 (Proc.devRef .tc main_arg1)) _) _)
      (shapeCast S1024x256 (extractStridedSlice S1x1024x256 ![2, 0, 0] (V0 (Proc.devRef .tc main_arg7)) _) _)
      (shapeCast S1024x256 (extractStridedSlice S1x1024x256 ![2, 0, 0] (V0 (Proc.devRef .tc main_arg8)) _) _)
      (shapeCast S1024 (extractStridedSlice S1x1024 ![2, 0] (V0 (Proc.devRef .tc main_arg9)) _) _)
      (shapeCast S1024 (extractStridedSlice S1x1024 ![2, 0] (V0 (Proc.devRef .tc main_arg10)) _) _) (ix2 b j) = _
  rw [Cell.gates_apply]
  simp only [refH2 V0 b, slab3_apply (A := 8) (B := 16384) (C := 256) _ 3 (by omega), slab3_apply (A := 7) (B := 1024) (C := 256) _ 2 (by omega), slab2_apply (A := 7) (B := 1024) _ 2 (by omega)] <;> rfl

/-- Layer 3's hidden state on row `b`. -/
theorem refH3 (V0 : Valuation τ sig (Elt Ideal)) (b : Fin 16384) (q : Fin 256) :
    res_main_v187 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 3).1 q := by
  show Cell.hNew (res_main_v159 V0)
      (shapeCast S16384x256 (extractStridedSlice S1x16384x256 ![3, 0, 0] (V0 (Proc.devRef .tc main_arg2)) _) _) (ix2 b q) = _
  rw [Cell.hNew_apply, refG3 V0 b]
  simp only [slab3_apply (A := 8) (B := 16384) (C := 256) _ 3 (by omega)]
  unfold stackAt
  rw [stackRow_succ _ _ _ _ _ _ _ _ _ _ _ 2 (by omega)]
  rfl

/-- Layer 3's cell state on row `b`. -/
theorem refC3 (V0 : Valuation τ sig (Elt Ideal)) (b : Fin 16384) (q : Fin 256) :
    res_main_v179 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 3).2 q := by
  show Cell.cNew (res_main_v159 V0)
      (shapeCast S16384x256 (extractStridedSlice S1x16384x256 ![3, 0, 0] (V0 (Proc.devRef .tc main_arg2)) _) _) (ix2 b q) = _
  rw [Cell.cNew_apply, refG3 V0 b]
  simp only [slab3_apply (A := 8) (B := 16384) (C := 256) _ 3 (by omega)]
  unfold stackAt
  rw [stackRow_succ _ _ _ _ _ _ _ _ _ _ _ 2 (by omega)]
  rfl

/-- Layer 4's gate pre-activations on row `b`. -/
theorem refG4 (V0 : Valuation τ sig (Elt Ideal)) (b : Fin 16384) :
    (fun j => res_main_v208 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 3).1 (fun k => (V0 (Proc.devRef .tc main_arg1)) (ix3 (⟨4, by omega⟩ : Fin 8) b k))
          (fun j k => (V0 (Proc.devRef .tc main_arg7)) (ix3 (⟨3, by omega⟩ : Fin 7) j k)) (fun j k => (V0 (Proc.devRef .tc main_arg8)) (ix3 (⟨3, by omega⟩ : Fin 7) j k))
          (fun j => (V0 (Proc.devRef .tc main_arg9)) (ix2 (⟨3, by omega⟩ : Fin 7) j)) (fun j => (V0 (Proc.devRef .tc main_arg10)) (ix2 (⟨3, by omega⟩ : Fin 7) j)) := by
  funext j
  show Cell.gates (res_main_v187 V0)
      (shapeCast S16384x256 (extractStridedSlice S1x16384x256 ![4, 0, 0] (V0 (Proc.devRef .tc main_arg1)) _) _)
      (shapeCast S1024x256 (extractStridedSlice S1x1024x256 ![3, 0, 0] (V0 (Proc.devRef .tc main_arg7)) _) _)
      (shapeCast S1024x256 (extractStridedSlice S1x1024x256 ![3, 0, 0] (V0 (Proc.devRef .tc main_arg8)) _) _)
      (shapeCast S1024 (extractStridedSlice S1x1024 ![3, 0] (V0 (Proc.devRef .tc main_arg9)) _) _)
      (shapeCast S1024 (extractStridedSlice S1x1024 ![3, 0] (V0 (Proc.devRef .tc main_arg10)) _) _) (ix2 b j) = _
  rw [Cell.gates_apply]
  simp only [refH3 V0 b, slab3_apply (A := 8) (B := 16384) (C := 256) _ 4 (by omega), slab3_apply (A := 7) (B := 1024) (C := 256) _ 3 (by omega), slab2_apply (A := 7) (B := 1024) _ 3 (by omega)] <;> rfl

/-- Layer 4's hidden state on row `b`. -/
theorem refH4 (V0 : Valuation τ sig (Elt Ideal)) (b : Fin 16384) (q : Fin 256) :
    res_main_v236 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 4).1 q := by
  show Cell.hNew (res_main_v208 V0)
      (shapeCast S16384x256 (extractStridedSlice S1x16384x256 ![4, 0, 0] (V0 (Proc.devRef .tc main_arg2)) _) _) (ix2 b q) = _
  rw [Cell.hNew_apply, refG4 V0 b]
  simp only [slab3_apply (A := 8) (B := 16384) (C := 256) _ 4 (by omega)]
  unfold stackAt
  rw [stackRow_succ _ _ _ _ _ _ _ _ _ _ _ 3 (by omega)]
  rfl

/-- Layer 4's cell state on row `b`. -/
theorem refC4 (V0 : Valuation τ sig (Elt Ideal)) (b : Fin 16384) (q : Fin 256) :
    res_main_v228 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 4).2 q := by
  show Cell.cNew (res_main_v208 V0)
      (shapeCast S16384x256 (extractStridedSlice S1x16384x256 ![4, 0, 0] (V0 (Proc.devRef .tc main_arg2)) _) _) (ix2 b q) = _
  rw [Cell.cNew_apply, refG4 V0 b]
  simp only [slab3_apply (A := 8) (B := 16384) (C := 256) _ 4 (by omega)]
  unfold stackAt
  rw [stackRow_succ _ _ _ _ _ _ _ _ _ _ _ 3 (by omega)]
  rfl

/-- Layer 5's gate pre-activations on row `b`. -/
theorem refG5 (V0 : Valuation τ sig (Elt Ideal)) (b : Fin 16384) :
    (fun j => res_main_v257 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 4).1 (fun k => (V0 (Proc.devRef .tc main_arg1)) (ix3 (⟨5, by omega⟩ : Fin 8) b k))
          (fun j k => (V0 (Proc.devRef .tc main_arg7)) (ix3 (⟨4, by omega⟩ : Fin 7) j k)) (fun j k => (V0 (Proc.devRef .tc main_arg8)) (ix3 (⟨4, by omega⟩ : Fin 7) j k))
          (fun j => (V0 (Proc.devRef .tc main_arg9)) (ix2 (⟨4, by omega⟩ : Fin 7) j)) (fun j => (V0 (Proc.devRef .tc main_arg10)) (ix2 (⟨4, by omega⟩ : Fin 7) j)) := by
  funext j
  show Cell.gates (res_main_v236 V0)
      (shapeCast S16384x256 (extractStridedSlice S1x16384x256 ![5, 0, 0] (V0 (Proc.devRef .tc main_arg1)) _) _)
      (shapeCast S1024x256 (extractStridedSlice S1x1024x256 ![4, 0, 0] (V0 (Proc.devRef .tc main_arg7)) _) _)
      (shapeCast S1024x256 (extractStridedSlice S1x1024x256 ![4, 0, 0] (V0 (Proc.devRef .tc main_arg8)) _) _)
      (shapeCast S1024 (extractStridedSlice S1x1024 ![4, 0] (V0 (Proc.devRef .tc main_arg9)) _) _)
      (shapeCast S1024 (extractStridedSlice S1x1024 ![4, 0] (V0 (Proc.devRef .tc main_arg10)) _) _) (ix2 b j) = _
  rw [Cell.gates_apply]
  simp only [refH4 V0 b, slab3_apply (A := 8) (B := 16384) (C := 256) _ 5 (by omega), slab3_apply (A := 7) (B := 1024) (C := 256) _ 4 (by omega), slab2_apply (A := 7) (B := 1024) _ 4 (by omega)] <;> rfl

/-- Layer 5's hidden state on row `b`. -/
theorem refH5 (V0 : Valuation τ sig (Elt Ideal)) (b : Fin 16384) (q : Fin 256) :
    res_main_v285 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 5).1 q := by
  show Cell.hNew (res_main_v257 V0)
      (shapeCast S16384x256 (extractStridedSlice S1x16384x256 ![5, 0, 0] (V0 (Proc.devRef .tc main_arg2)) _) _) (ix2 b q) = _
  rw [Cell.hNew_apply, refG5 V0 b]
  simp only [slab3_apply (A := 8) (B := 16384) (C := 256) _ 5 (by omega)]
  unfold stackAt
  rw [stackRow_succ _ _ _ _ _ _ _ _ _ _ _ 4 (by omega)]
  rfl

/-- Layer 5's cell state on row `b`. -/
theorem refC5 (V0 : Valuation τ sig (Elt Ideal)) (b : Fin 16384) (q : Fin 256) :
    res_main_v277 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 5).2 q := by
  show Cell.cNew (res_main_v257 V0)
      (shapeCast S16384x256 (extractStridedSlice S1x16384x256 ![5, 0, 0] (V0 (Proc.devRef .tc main_arg2)) _) _) (ix2 b q) = _
  rw [Cell.cNew_apply, refG5 V0 b]
  simp only [slab3_apply (A := 8) (B := 16384) (C := 256) _ 5 (by omega)]
  unfold stackAt
  rw [stackRow_succ _ _ _ _ _ _ _ _ _ _ _ 4 (by omega)]
  rfl

/-- Layer 6's gate pre-activations on row `b`. -/
theorem refG6 (V0 : Valuation τ sig (Elt Ideal)) (b : Fin 16384) :
    (fun j => res_main_v306 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 5).1 (fun k => (V0 (Proc.devRef .tc main_arg1)) (ix3 (⟨6, by omega⟩ : Fin 8) b k))
          (fun j k => (V0 (Proc.devRef .tc main_arg7)) (ix3 (⟨5, by omega⟩ : Fin 7) j k)) (fun j k => (V0 (Proc.devRef .tc main_arg8)) (ix3 (⟨5, by omega⟩ : Fin 7) j k))
          (fun j => (V0 (Proc.devRef .tc main_arg9)) (ix2 (⟨5, by omega⟩ : Fin 7) j)) (fun j => (V0 (Proc.devRef .tc main_arg10)) (ix2 (⟨5, by omega⟩ : Fin 7) j)) := by
  funext j
  show Cell.gates (res_main_v285 V0)
      (shapeCast S16384x256 (extractStridedSlice S1x16384x256 ![6, 0, 0] (V0 (Proc.devRef .tc main_arg1)) _) _)
      (shapeCast S1024x256 (extractStridedSlice S1x1024x256 ![5, 0, 0] (V0 (Proc.devRef .tc main_arg7)) _) _)
      (shapeCast S1024x256 (extractStridedSlice S1x1024x256 ![5, 0, 0] (V0 (Proc.devRef .tc main_arg8)) _) _)
      (shapeCast S1024 (extractStridedSlice S1x1024 ![5, 0] (V0 (Proc.devRef .tc main_arg9)) _) _)
      (shapeCast S1024 (extractStridedSlice S1x1024 ![5, 0] (V0 (Proc.devRef .tc main_arg10)) _) _) (ix2 b j) = _
  rw [Cell.gates_apply]
  simp only [refH5 V0 b, slab3_apply (A := 8) (B := 16384) (C := 256) _ 6 (by omega), slab3_apply (A := 7) (B := 1024) (C := 256) _ 5 (by omega), slab2_apply (A := 7) (B := 1024) _ 5 (by omega)] <;> rfl

/-- Layer 6's hidden state on row `b`. -/
theorem refH6 (V0 : Valuation τ sig (Elt Ideal)) (b : Fin 16384) (q : Fin 256) :
    res_main_v334 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 6).1 q := by
  show Cell.hNew (res_main_v306 V0)
      (shapeCast S16384x256 (extractStridedSlice S1x16384x256 ![6, 0, 0] (V0 (Proc.devRef .tc main_arg2)) _) _) (ix2 b q) = _
  rw [Cell.hNew_apply, refG6 V0 b]
  simp only [slab3_apply (A := 8) (B := 16384) (C := 256) _ 6 (by omega)]
  unfold stackAt
  rw [stackRow_succ _ _ _ _ _ _ _ _ _ _ _ 5 (by omega)]
  rfl

/-- Layer 6's cell state on row `b`. -/
theorem refC6 (V0 : Valuation τ sig (Elt Ideal)) (b : Fin 16384) (q : Fin 256) :
    res_main_v326 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 6).2 q := by
  show Cell.cNew (res_main_v306 V0)
      (shapeCast S16384x256 (extractStridedSlice S1x16384x256 ![6, 0, 0] (V0 (Proc.devRef .tc main_arg2)) _) _) (ix2 b q) = _
  rw [Cell.cNew_apply, refG6 V0 b]
  simp only [slab3_apply (A := 8) (B := 16384) (C := 256) _ 6 (by omega)]
  unfold stackAt
  rw [stackRow_succ _ _ _ _ _ _ _ _ _ _ _ 5 (by omega)]
  rfl

/-- Layer 7's gate pre-activations on row `b`. -/
theorem refG7 (V0 : Valuation τ sig (Elt Ideal)) (b : Fin 16384) :
    (fun j => res_main_v355 V0 (ix2 b j))
      = gateRow (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 6).1 (fun k => (V0 (Proc.devRef .tc main_arg1)) (ix3 (⟨7, by omega⟩ : Fin 8) b k))
          (fun j k => (V0 (Proc.devRef .tc main_arg7)) (ix3 (⟨6, by omega⟩ : Fin 7) j k)) (fun j k => (V0 (Proc.devRef .tc main_arg8)) (ix3 (⟨6, by omega⟩ : Fin 7) j k))
          (fun j => (V0 (Proc.devRef .tc main_arg9)) (ix2 (⟨6, by omega⟩ : Fin 7) j)) (fun j => (V0 (Proc.devRef .tc main_arg10)) (ix2 (⟨6, by omega⟩ : Fin 7) j)) := by
  funext j
  show Cell.gates (res_main_v334 V0)
      (shapeCast S16384x256 (extractStridedSlice S1x16384x256 ![7, 0, 0] (V0 (Proc.devRef .tc main_arg1)) _) _)
      (shapeCast S1024x256 (extractStridedSlice S1x1024x256 ![6, 0, 0] (V0 (Proc.devRef .tc main_arg7)) _) _)
      (shapeCast S1024x256 (extractStridedSlice S1x1024x256 ![6, 0, 0] (V0 (Proc.devRef .tc main_arg8)) _) _)
      (shapeCast S1024 (extractStridedSlice S1x1024 ![6, 0] (V0 (Proc.devRef .tc main_arg9)) _) _)
      (shapeCast S1024 (extractStridedSlice S1x1024 ![6, 0] (V0 (Proc.devRef .tc main_arg10)) _) _) (ix2 b j) = _
  rw [Cell.gates_apply]
  simp only [refH6 V0 b, slab3_apply (A := 8) (B := 16384) (C := 256) _ 7 (by omega), slab3_apply (A := 7) (B := 1024) (C := 256) _ 6 (by omega), slab2_apply (A := 7) (B := 1024) _ 6 (by omega)] <;> rfl

/-- Layer 7's hidden state on row `b`. -/
theorem refH7 (V0 : Valuation τ sig (Elt Ideal)) (b : Fin 16384) (q : Fin 256) :
    res_main_v383 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 7).1 q := by
  show Cell.hNew (res_main_v355 V0)
      (shapeCast S16384x256 (extractStridedSlice S1x16384x256 ![7, 0, 0] (V0 (Proc.devRef .tc main_arg2)) _) _) (ix2 b q) = _
  rw [Cell.hNew_apply, refG7 V0 b]
  simp only [slab3_apply (A := 8) (B := 16384) (C := 256) _ 7 (by omega)]
  unfold stackAt
  rw [stackRow_succ _ _ _ _ _ _ _ _ _ _ _ 6 (by omega)]
  rfl

/-- Layer 7's cell state on row `b`. -/
theorem refC7 (V0 : Valuation τ sig (Elt Ideal)) (b : Fin 16384) (q : Fin 256) :
    res_main_v375 V0 (ix2 b q) = (stackAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) b 7).2 q := by
  show Cell.cNew (res_main_v355 V0)
      (shapeCast S16384x256 (extractStridedSlice S1x16384x256 ![7, 0, 0] (V0 (Proc.devRef .tc main_arg2)) _) _) (ix2 b q) = _
  rw [Cell.cNew_apply, refG7 V0 b]
  simp only [slab3_apply (A := 8) (B := 16384) (C := 256) _ 7 (by omega)]
  unfold stackAt
  rw [stackRow_succ _ _ _ _ _ _ _ _ _ _ _ 6 (by omega)]
  rfl

end Cert.ReferenceIdeal.Layers

end
-- ==== Proof.RArray.lean ====
/-
  The reference's three results are the specification of its arguments.

  The output is the projection of layer 7's hidden state.  The stacked hidden states are the eight layers'
  hidden states, each given a leading unit axis and laid one after the other along it: at `(l, b, q)` the stack
  reads piece `l` at `(0, b, q)`, which is layer `l`'s hidden state of row `b` at column `q`.  The same for the cell states.
-/
import proofs.«181826_j46385646796958_2_alg».proof.Proof.RLayers

set_option maxRecDepth 16384

noncomputable section

namespace Cert.ReferenceIdeal.Arrays

open Cert.ReferenceIdeal Cert.ReferenceIdeal.Gen Cert.ReferenceIdeal.Value Cert.ReferenceIdeal.Layers
open Idealize.ShloMosaic Idealize.ShloMosaic.StableHlo Idealize.ShloMosaic.ValueIdx Cert.Lstm

/-- A layer's result given a leading unit axis, at `(0, b, q)`. -/
theorem bc12_apply (X : FVec Ideal S16384x256 .f32) (u : Fin 1) (b : Fin 16384) (q : Fin 256) :
    broadcastInDim S1x16384x256 ![1, 2] bcast_S16384x256_S1x16384x256_1_2 X (ix3 u b q) = X (ix2 b q) :=
  broadcastInDim_apply _ _ X (ix3 u b q) (ix2 b q) (fun a => by match a with | ⟨0, _⟩ => rfl | ⟨1, _⟩ => rfl)

/-- The reference's output is the specification's. -/
theorem out_ref (V0 : Valuation τ sig (Elt Ideal)) :
    Cell.proj (res_main_v383 V0) (V0 (Proc.devRef .tc main_arg11)) (V0 (Proc.devRef .tc main_arg12))
      = outSpec (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  funext y
  obtain ⟨b, j, rfl⟩ : ∃ (b : Fin 16384) (j : Fin 256), y = ix2 b j := ⟨y 0, y 1, eq_ix2 y⟩
  rw [Cell.proj_apply]
  simp only [refH7 V0 b] <;> rfl

/-- The reference's stacked hidden states are the specification's. -/
theorem hs_ref (V0 : Valuation τ sig (Elt Ideal)) :
    concatenate S8x16384x256 0 [⟨S1x16384x256, (broadcastInDim S1x16384x256 ![1, 2] bcast_S16384x256_S1x16384x256_1_2 (res_main_v40 V0))⟩, ⟨S1x16384x256, (broadcastInDim S1x16384x256 ![1, 2] bcast_S16384x256_S1x16384x256_1_2 (res_main_v89 V0))⟩, ⟨S1x16384x256, (broadcastInDim S1x16384x256 ![1, 2] bcast_S16384x256_S1x16384x256_1_2 (res_main_v138 V0))⟩, ⟨S1x16384x256, (broadcastInDim S1x16384x256 ![1, 2] bcast_S16384x256_S1x16384x256_1_2 (res_main_v187 V0))⟩, ⟨S1x16384x256, (broadcastInDim S1x16384x256 ![1, 2] bcast_S16384x256_S1x16384x256_1_2 (res_main_v236 V0))⟩, ⟨S1x16384x256, (broadcastInDim S1x16384x256 ![1, 2] bcast_S16384x256_S1x16384x256_1_2 (res_main_v285 V0))⟩, ⟨S1x16384x256, (broadcastInDim S1x16384x256 ![1, 2] bcast_S16384x256_S1x16384x256_1_2 (res_main_v334 V0))⟩, ⟨S1x16384x256, (broadcastInDim S1x16384x256 ![1, 2] bcast_S16384x256_S1x16384x256_1_2 (res_main_v383 V0))⟩] concatenates_S1x16384x256_S1x16384x256_S1x16384x256_S1x16384x256_S1x16384x256_S1x16384x256_S1x16384x256_S1x16384x256_S8x16384x256_d0
      = hsSpec (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  funext y
  obtain ⟨l, b, q, rfl⟩ : ∃ (l : Fin 8) (b : Fin 16384) (q : Fin 256), y = ix3 l b q := ⟨y 0, y 1, y 2, eq_ix3 y⟩
  match l with
  | ⟨0, _⟩ =>
    exact Eq.trans (concatenate_apply_piece (t := S8x16384x256) 0 _ _ _ 0 (by simp) S1x16384x256 _ rfl rfl 0 rfl (ix3 0 b q)
      (fun bb hb => by match bb with | ⟨0, _⟩ => exact absurd rfl hb | ⟨1, _⟩ => rfl | ⟨2, _⟩ => rfl) rfl)
      (Eq.trans (bc12_apply _ 0 b q) (refH0 V0 b q))
  | ⟨1, _⟩ =>
    exact Eq.trans (concatenate_apply_piece (t := S8x16384x256) 0 _ _ _ 1 (by simp) S1x16384x256 _ rfl rfl 1 rfl (ix3 0 b q)
      (fun bb hb => by match bb with | ⟨0, _⟩ => exact absurd rfl hb | ⟨1, _⟩ => rfl | ⟨2, _⟩ => rfl) rfl)
      (Eq.trans (bc12_apply _ 0 b q) (refH1 V0 b q))
  | ⟨2, _⟩ =>
    exact Eq.trans (concatenate_apply_piece (t := S8x16384x256) 0 _ _ _ 2 (by simp) S1x16384x256 _ rfl rfl 2 rfl (ix3 0 b q)
      (fun bb hb => by match bb with | ⟨0, _⟩ => exact absurd rfl hb | ⟨1, _⟩ => rfl | ⟨2, _⟩ => rfl) rfl)
      (Eq.trans (bc12_apply _ 0 b q) (refH2 V0 b q))
  | ⟨3, _⟩ =>
    exact Eq.trans (concatenate_apply_piece (t := S8x16384x256) 0 _ _ _ 3 (by simp) S1x16384x256 _ rfl rfl 3 rfl (ix3 0 b q)
      (fun bb hb => by match bb with | ⟨0, _⟩ => exact absurd rfl hb | ⟨1, _⟩ => rfl | ⟨2, _⟩ => rfl) rfl)
      (Eq.trans (bc12_apply _ 0 b q) (refH3 V0 b q))
  | ⟨4, _⟩ =>
    exact Eq.trans (concatenate_apply_piece (t := S8x16384x256) 0 _ _ _ 4 (by simp) S1x16384x256 _ rfl rfl 4 rfl (ix3 0 b q)
      (fun bb hb => by match bb with | ⟨0, _⟩ => exact absurd rfl hb | ⟨1, _⟩ => rfl | ⟨2, _⟩ => rfl) rfl)
      (Eq.trans (bc12_apply _ 0 b q) (refH4 V0 b q))
  | ⟨5, _⟩ =>
    exact Eq.trans (concatenate_apply_piece (t := S8x16384x256) 0 _ _ _ 5 (by simp) S1x16384x256 _ rfl rfl 5 rfl (ix3 0 b q)
      (fun bb hb => by match bb with | ⟨0, _⟩ => exact absurd rfl hb | ⟨1, _⟩ => rfl | ⟨2, _⟩ => rfl) rfl)
      (Eq.trans (bc12_apply _ 0 b q) (refH5 V0 b q))
  | ⟨6, _⟩ =>
    exact Eq.trans (concatenate_apply_piece (t := S8x16384x256) 0 _ _ _ 6 (by simp) S1x16384x256 _ rfl rfl 6 rfl (ix3 0 b q)
      (fun bb hb => by match bb with | ⟨0, _⟩ => exact absurd rfl hb | ⟨1, _⟩ => rfl | ⟨2, _⟩ => rfl) rfl)
      (Eq.trans (bc12_apply _ 0 b q) (refH6 V0 b q))
  | ⟨7, _⟩ =>
    exact Eq.trans (concatenate_apply_piece (t := S8x16384x256) 0 _ _ _ 7 (by simp) S1x16384x256 _ rfl rfl 7 rfl (ix3 0 b q)
      (fun bb hb => by match bb with | ⟨0, _⟩ => exact absurd rfl hb | ⟨1, _⟩ => rfl | ⟨2, _⟩ => rfl) rfl)
      (Eq.trans (bc12_apply _ 0 b q) (refH7 V0 b q))

/-- The reference's stacked cell states are the specification's. -/
theorem cs_ref (V0 : Valuation τ sig (Elt Ideal)) :
    concatenate S8x16384x256 0 [⟨S1x16384x256, (broadcastInDim S1x16384x256 ![1, 2] bcast_S16384x256_S1x16384x256_1_2 (res_main_v32 V0))⟩, ⟨S1x16384x256, (broadcastInDim S1x16384x256 ![1, 2] bcast_S16384x256_S1x16384x256_1_2 (res_main_v81 V0))⟩, ⟨S1x16384x256, (broadcastInDim S1x16384x256 ![1, 2] bcast_S16384x256_S1x16384x256_1_2 (res_main_v130 V0))⟩, ⟨S1x16384x256, (broadcastInDim S1x16384x256 ![1, 2] bcast_S16384x256_S1x16384x256_1_2 (res_main_v179 V0))⟩, ⟨S1x16384x256, (broadcastInDim S1x16384x256 ![1, 2] bcast_S16384x256_S1x16384x256_1_2 (res_main_v228 V0))⟩, ⟨S1x16384x256, (broadcastInDim S1x16384x256 ![1, 2] bcast_S16384x256_S1x16384x256_1_2 (res_main_v277 V0))⟩, ⟨S1x16384x256, (broadcastInDim S1x16384x256 ![1, 2] bcast_S16384x256_S1x16384x256_1_2 (res_main_v326 V0))⟩, ⟨S1x16384x256, (broadcastInDim S1x16384x256 ![1, 2] bcast_S16384x256_S1x16384x256_1_2 (res_main_v375 V0))⟩] concatenates_S1x16384x256_S1x16384x256_S1x16384x256_S1x16384x256_S1x16384x256_S1x16384x256_S1x16384x256_S1x16384x256_S8x16384x256_d0
      = csSpec (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  funext y
  obtain ⟨l, b, q, rfl⟩ : ∃ (l : Fin 8) (b : Fin 16384) (q : Fin 256), y = ix3 l b q := ⟨y 0, y 1, y 2, eq_ix3 y⟩
  match l with
  | ⟨0, _⟩ =>
    exact Eq.trans (concatenate_apply_piece (t := S8x16384x256) 0 _ _ _ 0 (by simp) S1x16384x256 _ rfl rfl 0 rfl (ix3 0 b q)
      (fun bb hb => by match bb with | ⟨0, _⟩ => exact absurd rfl hb | ⟨1, _⟩ => rfl | ⟨2, _⟩ => rfl) rfl)
      (Eq.trans (bc12_apply _ 0 b q) (refC0 V0 b q))
  | ⟨1, _⟩ =>
    exact Eq.trans (concatenate_apply_piece (t := S8x16384x256) 0 _ _ _ 1 (by simp) S1x16384x256 _ rfl rfl 1 rfl (ix3 0 b q)
      (fun bb hb => by match bb with | ⟨0, _⟩ => exact absurd rfl hb | ⟨1, _⟩ => rfl | ⟨2, _⟩ => rfl) rfl)
      (Eq.trans (bc12_apply _ 0 b q) (refC1 V0 b q))
  | ⟨2, _⟩ =>
    exact Eq.trans (concatenate_apply_piece (t := S8x16384x256) 0 _ _ _ 2 (by simp) S1x16384x256 _ rfl rfl 2 rfl (ix3 0 b q)
      (fun bb hb => by match bb with | ⟨0, _⟩ => exact absurd rfl hb | ⟨1, _⟩ => rfl | ⟨2, _⟩ => rfl) rfl)
      (Eq.trans (bc12_apply _ 0 b q) (refC2 V0 b q))
  | ⟨3, _⟩ =>
    exact Eq.trans (concatenate_apply_piece (t := S8x16384x256) 0 _ _ _ 3 (by simp) S1x16384x256 _ rfl rfl 3 rfl (ix3 0 b q)
      (fun bb hb => by match bb with | ⟨0, _⟩ => exact absurd rfl hb | ⟨1, _⟩ => rfl | ⟨2, _⟩ => rfl) rfl)
      (Eq.trans (bc12_apply _ 0 b q) (refC3 V0 b q))
  | ⟨4, _⟩ =>
    exact Eq.trans (concatenate_apply_piece (t := S8x16384x256) 0 _ _ _ 4 (by simp) S1x16384x256 _ rfl rfl 4 rfl (ix3 0 b q)
      (fun bb hb => by match bb with | ⟨0, _⟩ => exact absurd rfl hb | ⟨1, _⟩ => rfl | ⟨2, _⟩ => rfl) rfl)
      (Eq.trans (bc12_apply _ 0 b q) (refC4 V0 b q))
  | ⟨5, _⟩ =>
    exact Eq.trans (concatenate_apply_piece (t := S8x16384x256) 0 _ _ _ 5 (by simp) S1x16384x256 _ rfl rfl 5 rfl (ix3 0 b q)
      (fun bb hb => by match bb with | ⟨0, _⟩ => exact absurd rfl hb | ⟨1, _⟩ => rfl | ⟨2, _⟩ => rfl) rfl)
      (Eq.trans (bc12_apply _ 0 b q) (refC5 V0 b q))
  | ⟨6, _⟩ =>
    exact Eq.trans (concatenate_apply_piece (t := S8x16384x256) 0 _ _ _ 6 (by simp) S1x16384x256 _ rfl rfl 6 rfl (ix3 0 b q)
      (fun bb hb => by match bb with | ⟨0, _⟩ => exact absurd rfl hb | ⟨1, _⟩ => rfl | ⟨2, _⟩ => rfl) rfl)
      (Eq.trans (bc12_apply _ 0 b q) (refC6 V0 b q))
  | ⟨7, _⟩ =>
    exact Eq.trans (concatenate_apply_piece (t := S8x16384x256) 0 _ _ _ 7 (by simp) S1x16384x256 _ rfl rfl 7 rfl (ix3 0 b q)
      (fun bb hb => by match bb with | ⟨0, _⟩ => exact absurd rfl hb | ⟨1, _⟩ => rfl | ⟨2, _⟩ => rfl) rfl)
      (Eq.trans (bc12_apply _ 0 b q) (refC7 V0 b q))

end Cert.ReferenceIdeal.Arrays

end
-- ==== Proof.lean ====
/-
  An eight-layer LSTM stack (one input cell, seven hidden cells) followed by a linear output layer, on 16384
  batch rows: a kernel that works on 256 rows per grid point against the whole-array reference.

  On the extended reals both programs compute, for every batch row, the same stack of cells (`Cert.Lstm.stackRow`):
  each layer's gates are `x · Wiᵀ + h · Whᵀ + (bi + bh)`, its new cell state `σ(f) · c + σ(i) · tanh(g)`, its new
  hidden state `σ(o) · tanh(c')`; the results are the eight hidden states, the eight cell states and the projection
  of the last hidden state.  The two sums are grouped the same way in both programs, the kernel's block products
  into zero accumulators and the reference's general dot products are the same sums, the kernel's bf16 copies of
  its operands are the operands themselves, and the reference's `1 / (1 + e^(-z))` is the logistic function by
  definition — so the two sides are equal on every extended real and the precondition is never opened.

  The kernel side: Proof/KCell (a cell on a block, at an index), KLayers (the body's stores are the chain of cells),
  KRows (the chain row by row), KArray (from blocks to arrays).  The reference side: Proof/RCell, RLayers, RArray.
  The common specification: Proof/Row and Proof/Spec.
-/
import proofs.«181826_j46385646796958_2_alg».proof.Defs
import proofs.«181826_j46385646796958_2_alg».proof.Proof.Gen.Kernel
import proofs.«181826_j46385646796958_2_alg».proof.Proof.Gen.Kernel.Skeleton
import proofs.«181826_j46385646796958_2_alg».proof.Proof.Gen.Kernel.Launch
import proofs.«181826_j46385646796958_2_alg».proof.Proof.Gen.Kernel.Points
import proofs.«181826_j46385646796958_2_alg».proof.Proof.Gen.Kernel.Frame
import proofs.«181826_j46385646796958_2_alg».proof.Proof.Gen.KernelIdeal
import proofs.«181826_j46385646796958_2_alg».proof.Proof.Gen.KernelIdeal.Skeleton
import proofs.«181826_j46385646796958_2_alg».proof.Proof.Gen.KernelIdeal.Launch
import proofs.«181826_j46385646796958_2_alg».proof.Proof.Gen.KernelIdeal.Points
import proofs.«181826_j46385646796958_2_alg».proof.Proof.Gen.KernelIdeal.Frame
import proofs.«181826_j46385646796958_2_alg».proof.Proof.Gen.ReferenceIdeal
import proofs.«181826_j46385646796958_2_alg».proof.Proof.Gen.Pre_finite_inputs
import proofs.«181826_j46385646796958_2_alg».proof.Proof.Gen.KernelIdeal.Value
import proofs.«181826_j46385646796958_2_alg».proof.Proof.Gen.ReferenceIdeal.Run
import proofs.«181826_j46385646796958_2_alg».proof.Proof.KArray
import proofs.«181826_j46385646796958_2_alg».proof.Proof.RArray
import Idealize.ShloMosaic.Adequacy
import Idealize.ShloMosaic.Init

set_option maxRecDepth 16384

noncomputable section

namespace Cert.Proof

open Idealize.ShloMosaic Idealize.ShloMosaic.TcCoe Idealize.SL.Sem Cert.Lstm

/-- The word-level kernel's frame. -/
theorem frame_kernel : Cert.frame_Kernel := fun m ρ _ => Cert.Kernel.Gen.frame m ρ

/-- The idealized kernel's frame. -/
theorem frame_kernelIdeal : Cert.frame_KernelIdeal := fun m ρ _ => Cert.KernelIdeal.Gen.frame m ρ

/-- The reference's frame: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the thirteen arguments both programs end with the specification of the arguments in
    their three results. -/
theorem algebraic : Cert.algebraic_KernelIdeal_ReferenceIdeal := by
  intro m ρ m' ρ' _ hagree
  refine ⟨fun c => outSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => hsSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => csSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Arrays.run m ρ, ?_⟩
  refine (θ_run Cert.ReferenceIdeal.defs _ _).mono (fun _ h c => ?_) (Cert.ReferenceIdeal.Value.run (F := Ideal) m' ρ')
  obtain ⟨h0, h1, h2, hk⟩ := h c
  obtain ⟨e0, e1, e2, e3, e4, e5, e6, e7, e8, e9, e10, e11, e12⟩ := hagree c
  refine ⟨h0.trans ?_, h1.trans ?_, h2.trans ?_, hk⟩
  · refine (Cert.ReferenceIdeal.Arrays.out_ref (StableHlo.launchContents m' c)).trans ?_
    show outSpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = outSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    rw [e0, e1, e2, e3, e4, e5, e6, e7, e8, e9, e10, e11, e12]
  · refine (Cert.ReferenceIdeal.Arrays.hs_ref (StableHlo.launchContents m' c)).trans ?_
    show hsSpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = hsSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    rw [e0, e1, e2, e3, e4, e5, e6, e7, e8, e9, e10]
  · refine (Cert.ReferenceIdeal.Arrays.cs_ref (StableHlo.launchContents m' c)).trans ?_
    show csSpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = csSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
